-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S256x63 : S_.BroadcastsInDim S256x63 (![] : Fin 0 → Fin S256x63.rank)
  reducesTo_S256x63_S_d0_1 : S256x63.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x319 : S_.BroadcastsInDim S256x319 (![] : Fin 0 → Fin S256x319.rank)
  reducesTo_S256x319_S_d0_1 : S256x319.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x283 : S_.BroadcastsInDim S128x283 (![] : Fin 0 → Fin S128x283.rank)
  reducesTo_S128x283_S_d0_1 : S128x283.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg25 : FVec F S3 .f32) (main_v118 : IVec S_ 1) (main_v119 : FVec F S3x128 .f32) : IVec S_ 1 :=
  let main_cst_46 : FVec F S_ .f32 := constant S_ .f32 0x7F800000#32
  let main_v120 : FVec F S3x128 .f32 := broadcastInDim S3x128 ![] bcast_S_S3x128 main_cst_46
  let main_v121 : IVec S3x128 1 := cmpf .olt main_v119 main_v120
  let main_c_47 : IVec S_ 1 := constantI S_ 1 1#1
  let main_v122 : IVec S_ 1 := (fun x v => Host.reduce IntOp.andi x v reducesTo_S3x128_S_d0_1 h_S_) main_v121 main_c_47
  let main_v123 : IVec S_ 1 := andi main_v118 main_v122
  let main_v124 : FVec F S3 .f32 := Host.absf main_arg25
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  main_v128

def fn_part6 {F : FTy → Type} [FloatOps F] (main_arg21 : FVec F S256 .f32) (main_arg22 : FVec F S128x283 .f32) (main_arg23 : FVec F S128 .f32) (main_arg24 : FVec F S3x128 .f32) (main_arg25 : FVec F S3 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x283 .f32 := Host.absf main_arg22
  let main_cst_42 : FVec F S_ .f32 := constant S_ .f32 0x7F800000#32
  let main_v110 : FVec F S128x283 .f32 := broadcastInDim S128x283 ![] bcast_S_S128x283 main_cst_42
  let main_v111 : IVec S128x283 1 := cmpf .olt main_v109 main_v110
  let main_c_43 : IVec S_ 1 := constantI S_ 1 1#1
  let main_v112 : IVec S_ 1 := (fun x v => Host.reduce IntOp.andi x v reducesTo_S128x283_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S3x128 .f32 := Host.absf main_arg24
  fn_part7 (F := F) main_arg25 main_v118 main_v119

def fn_part5 {F : FTy → Type} [FloatOps F] (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S1x256 .f32 := Host.absf main_arg18
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x319 .f32 := Host.absf main_arg12
  let main_cst_22 : FVec F S_ .f32 := constant S_ .f32 0x7F800000#32
  let main_v60 : FVec F S256x319 .f32 := broadcastInDim S256x319 ![] bcast_S_S256x319 main_cst_22
  let main_v61 : IVec S256x319 1 := cmpf .olt main_v59 main_v60
  let main_c_23 : IVec S_ 1 := constantI S_ 1 1#1
  let main_v62 : IVec S_ 1 := (fun x v => Host.reduce IntOp.andi x v reducesTo_S256x319_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S262144x3 .f32) (main_arg1 : FVec F S262144x3 .f32) (main_arg2 : FVec F S256x63 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S256x63 .f32 := Host.absf main_arg2
  let main_cst_2 : FVec F S_ .f32 := constant S_ .f32 0x7F800000#32
  let main_v10 : FVec F S256x63 .f32 := broadcastInDim S256x63 ![] bcast_S_S256x63 main_cst_2
  let main_v11 : IVec S256x63 1 := cmpf .olt main_v9 main_v10
  let main_c_3 : IVec S_ 1 := constantI S_ 1 1#1
  let main_v12 : IVec S_ 1 := (fun x v => Host.reduce IntOp.andi x v reducesTo_S256x63_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S63x256 : Shape := ⟨2, ![63, 256]⟩
abbrev S319x256 : Shape := ⟨2, ![319, 256]⟩
abbrev S256x1 : Shape := ⟨2, ![256, 1]⟩
abbrev S283x128 : Shape := ⟨2, ![283, 128]⟩
abbrev S256x128 : Shape := ⟨2, ![256, 128]⟩
abbrev S27x128 : Shape := ⟨2, ![27, 128]⟩
abbrev S128x3 : Shape := ⟨2, ![128, 3]⟩
abbrev S4x262144 : Shape := ⟨2, ![4, 262144]⟩
abbrev S8192x3 : Shape := ⟨2, ![8192, 3]⟩
abbrev S4x8192 : Shape := ⟨2, ![4, 8192]⟩
abbrev S8192x63 : Shape := ⟨2, ![8192, 63]⟩
abbrev S8192x256 : Shape := ⟨2, ![8192, 256]⟩
abbrev S8192x1 : Shape := ⟨2, ![8192, 1]⟩
abbrev S1x1 : Shape := ⟨2, ![1, 1]⟩
abbrev S8192x27 : Shape := ⟨2, ![8192, 27]⟩
abbrev S8192x128 : Shape := ⟨2, ![8192, 128]⟩
abbrev S1x128 : Shape := ⟨2, ![1, 128]⟩
abbrev S1x3 : Shape := ⟨2, ![1, 3]⟩
abbrev S8192x4 : Shape := ⟨2, ![8192, 4]⟩
abbrev S262144x4 : Shape := ⟨2, ![262144, 4]⟩

abbrev nBuf : Space → Nat
  | .hbm => 57
  | .vmem => 32
  | .smem => 0
  | _ => 0

abbrev bufTy : (tb : Table) → Fin (tcTables nBuf tb) → BufTy
  | .hbm, ⟨0, _⟩ => ⟨S262144x3, .f32⟩
  | .hbm, ⟨1, _⟩ => ⟨S262144x3, .f32⟩
  | .hbm, ⟨2, _⟩ => ⟨S256x63, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x319, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1, .f32⟩
  | .hbm, ⟨20, _⟩ => ⟨S256x256, .f32⟩
  | .hbm, ⟨21, _⟩ => ⟨S256, .f32⟩
  | .hbm, ⟨22, _⟩ => ⟨S128x283, .f32⟩
  | .hbm, ⟨23, _⟩ => ⟨S128, .f32⟩
  | .hbm, ⟨24, _⟩ => ⟨S3x128, .f32⟩
  | .hbm, ⟨25, _⟩ => ⟨S3, .f32⟩
  | .hbm, ⟨26, _⟩ => ⟨S63x256, .f32⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x256, .bf16⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S319x256, .f32⟩
  | .hbm, ⟨36, _⟩ => ⟨S63x256, .f32⟩
  | .hbm, ⟨37, _⟩ => ⟨S63x256, .bf16⟩
  | .hbm, ⟨38, _⟩ => ⟨S256x256, .f32⟩
  | .hbm, ⟨39, _⟩ => ⟨S256x256, .bf16⟩
  | .hbm, ⟨40, _⟩ => ⟨S256x256, .f32⟩
  | .hbm, ⟨41, _⟩ => ⟨S256x256, .bf16⟩
  | .hbm, ⟨42, _⟩ => ⟨S256x256, .f32⟩
  | .hbm, ⟨43, _⟩ => ⟨S256x256, .bf16⟩
  | .hbm, ⟨44, _⟩ => ⟨S256x1, .f32⟩
  | .hbm, ⟨45, _⟩ => ⟨S256x1, .bf16⟩
  | .hbm, ⟨46, _⟩ => ⟨S256x256, .f32⟩
  | .hbm, ⟨47, _⟩ => ⟨S256x256, .bf16⟩
  | .hbm, ⟨48, _⟩ => ⟨S283x128, .f32⟩
  | .hbm, ⟨49, _⟩ => ⟨S256x128, .f32⟩
  | .hbm, ⟨50, _⟩ => ⟨S256x128, .bf16⟩
  | .hbm, ⟨51, _⟩ => ⟨S27x128, .f32⟩
  | .hbm, ⟨52, _⟩ => ⟨S27x128, .bf16⟩
  | .hbm, ⟨53, _⟩ => ⟨S128x3, .f32⟩
  | .hbm, ⟨54, _⟩ => ⟨S128x3, .bf16⟩
  | .hbm, ⟨55, _⟩ => ⟨S4x262144, .f32⟩
  | .hbm, ⟨56, _⟩ => ⟨S262144x4, .f32⟩
  | .local _ .vmem, ⟨0, _⟩ => ⟨S8192x3, .f32⟩
  | .local _ .vmem, ⟨1, _⟩ => ⟨S8192x3, .f32⟩
  | .local _ .vmem, ⟨2, _⟩ => ⟨S8192x3, .f32⟩
  | .local _ .vmem, ⟨3, _⟩ => ⟨S8192x3, .f32⟩
  | .local _ .vmem, ⟨4, _⟩ => ⟨S63x256, .f32⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S63x256, .bf16⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x256, .bf16⟩
  | .local _ .vmem, ⟨20, _⟩ => ⟨S256, .f32⟩
  | .local _ .vmem, ⟨21, _⟩ => ⟨S256x1, .bf16⟩
  | .local _ .vmem, ⟨22, _⟩ => ⟨S1, .f32⟩
  | .local _ .vmem, ⟨23, _⟩ => ⟨S256x256, .bf16⟩
  | .local _ .vmem, ⟨24, _⟩ => ⟨S256, .f32⟩
  | .local _ .vmem, ⟨25, _⟩ => ⟨S256x128, .bf16⟩
  | .local _ .vmem, ⟨26, _⟩ => ⟨S27x128, .bf16⟩
  | .local _ .vmem, ⟨27, _⟩ => ⟨S128, .f32⟩
  | .local _ .vmem, ⟨28, _⟩ => ⟨S128x3, .bf16⟩
  | .local _ .vmem, ⟨29, _⟩ => ⟨S3, .f32⟩
  | .local _ .vmem, ⟨30, _⟩ => ⟨S4x8192, .f32⟩
  | .local _ .vmem, ⟨31, _⟩ => ⟨S4x8192, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg28_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem28_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S63x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S27x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x3 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S3 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S4x8192 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  transposes_S256x63_S63x256_1_0 : S256x63.Transposes [1, 0] S63x256
  transposes_S256x256_S256x256_1_0 : S256x256.Transposes [1, 0] S256x256
  bitsLt_bf16_f32 : FTy.bits .bf16 < FTy.bits .f32
  transposes_S256x319_S319x256_1_0 : S256x319.Transposes [1, 0] S319x256
  slices_S319x256_S63x256_0_0 : S319x256.Slices ![0, 0] S63x256
  slices_S319x256_S256x256_63_0 : S319x256.Slices ![63, 0] S256x256
  transposes_S1x256_S256x1_1_0 : S1x256.Transposes [1, 0] S256x1
  transposes_S128x283_S283x128_1_0 : S128x283.Transposes [1, 0] S283x128
  slices_S283x128_S256x128_0_0 : S283x128.Slices ![0, 0] S256x128
  slices_S283x128_S27x128_256_0 : S283x128.Slices ![256, 0] S27x128
  transposes_S3x128_S128x3_1_0 : S3x128.Transposes [1, 0] S128x3
  inb_S8192x3_S8192x3_0_0 : ∀ a, (![0, 0] : Fin 2 → Nat) a + S8192x3.size a ≤ S8192x3.size a
  h_S8192x3 : 0 < S8192x3.numel
  concatenates_S8192x3_S8192x3_S8192x3_S8192x3_S8192x3_S8192x3_S8192x3_S8192x3_S8192x3_S8192x3_S8192x3_S8192x3_S8192x3_S8192x3_S8192x3_S8192x3_S8192x3_S8192x3_S8192x3_S8192x3_S8192x3_S8192x63_d1 : Shape.Concatenates [S8192x3, S8192x3, S8192x3, S8192x3, S8192x3, S8192x3, S8192x3, S8192x3, S8192x3, S8192x3, S8192x3, S8192x3, S8192x3, S8192x3, S8192x3, S8192x3, S8192x3, S8192x3, S8192x3, S8192x3, S8192x3] S8192x63 1
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  concatenates_S8192x3_S8192x3_S8192x3_S8192x3_S8192x3_S8192x3_S8192x3_S8192x3_S8192x3_S8192x27_d1 : Shape.Concatenates [S8192x3, S8192x3, S8192x3, S8192x3, S8192x3, S8192x3, S8192x3, S8192x3, S8192x3] S8192x27 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S8192x3 : S1x3.Broadcasts S8192x3
  concatenates_S8192x3_S8192x1_S8192x4_d1 : Shape.Concatenates [S8192x3, S8192x1] S8192x4 1
  transposes_S8192x4_p1_0_S4x8192 : S8192x4.Transposes [1, 0] S4x8192
  inb_S4x8192_S4x8192_0_0 : ∀ a, (![0, 0] : Fin 2 → Nat) a + S4x8192.size a ≤ S4x8192.size a
  h_S4x8192 : 0 < S4x8192.numel
  transposes_S4x262144_S262144x4_1_0 : S4x262144.Transposes [1, 0] S262144x4
  dot_S8192x63_S63x256_S8192x256_1_0_0_1_n_n_wf : DotDims.WF S8192x63 S63x256 S8192x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x256_S256x128_S8192x128_1_0_0_1_n_n_wf : DotDims.WF S8192x256 S256x128 S8192x128 [1] [0] [0] [1] [] []
  dot_S8192x27_S27x128_S8192x128_1_0_0_1_n_n_wf : DotDims.WF S8192x27 S27x128 S8192x128 [1] [0] [0] [1] [] []
  dot_S8192x128_S128x3_S8192x3_1_0_0_1_n_n_wf : DotDims.WF S8192x128 S128x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S262144x3.size a
  hwx0_0 : ∀ i : grid0.Coords, EltTy.bits .f32 = 32 ∨ (Rect.block (s := S262144x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S262144x3.size a
  hwx0_1 : ∀ i : grid0.Coords, EltTy.bits .f32 = 32 ∨ (Rect.block (s := S262144x3) S8192x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x256.size a ≤ S63x256.size a
  hwx0_2 : ∀ i : grid0.Coords, EltTy.bits .f32 = 32 ∨ (Rect.block (s := S63x256) S63x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S63x256.size a ≤ S63x256.size a
  hwx0_12 : ∀ i : grid0.Coords, EltTy.bits .bf16 = 32 ∨ (Rect.block (s := S63x256) S63x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x1.size a ≤ S256x1.size a
  hwx0_19 : ∀ i : grid0.Coords, EltTy.bits .bf16 = 32 ∨ (Rect.block (s := S256x1) S256x1.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1.size a ≤ S1.size a
  hwx0_20 : ∀ i : grid0.Coords, EltTy.bits .f32 = 32 ∨ (Rect.block (s := S1) S1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .bf16 = 32 ∨ (Rect.block (s := S256x128) S256x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S27x128.size a ≤ S27x128.size a
  hwx0_24 : ∀ i : grid0.Coords, EltTy.bits .bf16 = 32 ∨ (Rect.block (s := S27x128) S27x128.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128.size a ≤ S128.size a
  hwx0_25 : ∀ i : grid0.Coords, EltTy.bits .f32 = 32 ∨ (Rect.block (s := S128) S128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x3.size a ≤ S128x3.size a
  hwx0_26 : ∀ i : grid0.Coords, EltTy.bits .bf16 = 32 ∨ (Rect.block (s := S128x3) S128x3.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S3.size a ≤ S3.size a
  hwx0_27 : ∀ i : grid0.Coords, EltTy.bits .f32 = 32 ∨ (Rect.block (s := S3) S3.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S4x8192.size a ≤ S4x262144.size a
  hwx0_28 : ∀ i : grid0.Coords, EltTy.bits .f32 = 32 ∨ (Rect.block (s := S4x262144) S4x8192.size (cc0_transform_28 i) (hinb0_28 i)).WholeWords (EltTy.packing .f32)

variable [Facts₀]

def dot_S8192x63_S63x256_S8192x256_1_0_0_1_n_n : DotDims S8192x63 S63x256 S8192x256 where
  lhsContracting := [1]
  rhsContracting := [0]
  lhsNonContracting := [0]
  rhsNonContracting := [1]
  lhsBatch := []
  rhsBatch := []
  wf := dot_S8192x63_S63x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x27_S27x128_S8192x128_1_0_0_1_n_n : DotDims S8192x27 S27x128 S8192x128 where
  lhsContracting := [1]
  rhsContracting := [0]
  lhsNonContracting := [0]
  rhsNonContracting := [1]
  lhsBatch := []
  rhsBatch := []
  wf := dot_S8192x27_S27x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S63x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S63x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S256x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v21) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v24) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v26) S27x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg23) S128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v28) S128x3.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg25) S3.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v29) S4x8192.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S_ : Shape := ⟨0, ![]⟩
abbrev S262144x48 : Shape := ⟨2, ![262144, 48]⟩
abbrev S262144x15 : Shape := ⟨2, ![262144, 15]⟩
abbrev S262144x63 : Shape := ⟨2, ![262144, 63]⟩
abbrev S262144x27 : Shape := ⟨2, ![262144, 27]⟩
abbrev S63x256 : Shape := ⟨2, ![63, 256]⟩
abbrev S262144x256 : Shape := ⟨2, ![262144, 256]⟩
abbrev S262144x319 : Shape := ⟨2, ![262144, 319]⟩
abbrev S319x256 : Shape := ⟨2, ![319, 256]⟩
abbrev S256x1 : Shape := ⟨2, ![256, 1]⟩
abbrev S262144x1 : Shape := ⟨2, ![262144, 1]⟩
abbrev S1x1 : Shape := ⟨2, ![1, 1]⟩
abbrev S262144x283 : Shape := ⟨2, ![262144, 283]⟩
abbrev S283x128 : Shape := ⟨2, ![283, 128]⟩
abbrev S262144x128 : Shape := ⟨2, ![262144, 128]⟩
abbrev S1x128 : Shape := ⟨2, ![1, 128]⟩
abbrev S128x3 : Shape := ⟨2, ![128, 3]⟩
abbrev S1x3 : Shape := ⟨2, ![1, 3]⟩
abbrev S262144x4 : Shape := ⟨2, ![262144, 4]⟩

abbrev nBuf : Space → Nat
  | .hbm => 232
  | .vmem => 0
  | .smem => 0
  | _ => 0

abbrev hbmTy0_0 (i : Nat) : BufTy := match i % 128 with
  | 0 => ⟨S262144x3, .f32⟩
  | 1 => ⟨S262144x3, .f32⟩
  | 2 => ⟨S256x63, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x319, .f32⟩
  | 13 => ⟨S256, .f32⟩
  | 14 => ⟨S256x256, .f32⟩
  | 15 => ⟨S256, .f32⟩
  | 16 => ⟨S256x256, .f32⟩
  | 17 => ⟨S256, .f32⟩
  | 18 => ⟨S1x256, .f32⟩
  | 19 => ⟨S1, .f32⟩
  | 20 => ⟨S256x256, .f32⟩
  | 21 => ⟨S256, .f32⟩
  | 22 => ⟨S128x283, .f32⟩
  | 23 => ⟨S128, .f32⟩
  | 24 => ⟨S3x128, .f32⟩
  | 25 => ⟨S3, .f32⟩
  | 26 => ⟨S_, .f32⟩
  | 27 => ⟨S262144x3, .f32⟩
  | 28 => ⟨S262144x3, .f32⟩
  | 29 => ⟨S262144x3, .f32⟩
  | 30 => ⟨S_, .f32⟩
  | 31 => ⟨S262144x3, .f32⟩
  | 32 => ⟨S262144x3, .f32⟩
  | 33 => ⟨S262144x3, .f32⟩
  | 34 => ⟨S_, .f32⟩
  | 35 => ⟨S262144x3, .f32⟩
  | 36 => ⟨S262144x3, .f32⟩
  | 37 => ⟨S262144x3, .f32⟩
  | 38 => ⟨S_, .f32⟩
  | 39 => ⟨S262144x3, .f32⟩
  | 40 => ⟨S262144x3, .f32⟩
  | 41 => ⟨S262144x3, .f32⟩
  | 42 => ⟨S_, .f32⟩
  | 43 => ⟨S262144x3, .f32⟩
  | 44 => ⟨S262144x3, .f32⟩
  | 45 => ⟨S262144x3, .f32⟩
  | 46 => ⟨S_, .f32⟩
  | 47 => ⟨S262144x3, .f32⟩
  | 48 => ⟨S262144x3, .f32⟩
  | 49 => ⟨S262144x3, .f32⟩
  | 50 => ⟨S_, .f32⟩
  | 51 => ⟨S262144x3, .f32⟩
  | 52 => ⟨S262144x3, .f32⟩
  | 53 => ⟨S262144x3, .f32⟩
  | 54 => ⟨S_, .f32⟩
  | 55 => ⟨S262144x3, .f32⟩
  | 56 => ⟨S262144x3, .f32⟩
  | 57 => ⟨S262144x3, .f32⟩
  | 58 => ⟨S_, .f32⟩
  | 59 => ⟨S262144x3, .f32⟩
  | 60 => ⟨S262144x3, .f32⟩
  | 61 => ⟨S262144x3, .f32⟩
  | 62 => ⟨S_, .f32⟩
  | 63 => ⟨S262144x3, .f32⟩
  | 64 => ⟨S262144x3, .f32⟩
  | 65 => ⟨S262144x3, .f32⟩
  | 66 => ⟨S_, .f32⟩
  | 67 => ⟨S262144x3, .f32⟩
  | 68 => ⟨S262144x3, .f32⟩
  | 69 => ⟨S262144x3, .f32⟩
  | 70 => ⟨S_, .f32⟩
  | 71 => ⟨S262144x3, .f32⟩
  | 72 => ⟨S262144x3, .f32⟩
  | 73 => ⟨S262144x3, .f32⟩
  | 74 => ⟨S_, .f32⟩
  | 75 => ⟨S262144x3, .f32⟩
  | 76 => ⟨S262144x3, .f32⟩
  | 77 => ⟨S262144x3, .f32⟩
  | 78 => ⟨S_, .f32⟩
  | 79 => ⟨S262144x3, .f32⟩
  | 80 => ⟨S262144x3, .f32⟩
  | 81 => ⟨S262144x3, .f32⟩
  | 82 => ⟨S_, .f32⟩
  | 83 => ⟨S262144x3, .f32⟩
  | 84 => ⟨S262144x3, .f32⟩
  | 85 => ⟨S262144x3, .f32⟩
  | 86 => ⟨S_, .f32⟩
  | 87 => ⟨S262144x3, .f32⟩
  | 88 => ⟨S262144x3, .f32⟩
  | 89 => ⟨S262144x3, .f32⟩
  | 90 => ⟨S_, .f32⟩
  | 91 => ⟨S262144x3, .f32⟩
  | 92 => ⟨S262144x3, .f32⟩
  | 93 => ⟨S262144x3, .f32⟩
  | 94 => ⟨S_, .f32⟩
  | 95 => ⟨S262144x3, .f32⟩
  | 96 => ⟨S262144x3, .f32⟩
  | 97 => ⟨S262144x3, .f32⟩
  | 98 => ⟨S_, .f32⟩
  | 99 => ⟨S262144x3, .f32⟩
  | 100 => ⟨S262144x3, .f32⟩
  | 101 => ⟨S262144x3, .f32⟩
  | 102 => ⟨S_, .f32⟩
  | 103 => ⟨S262144x3, .f32⟩
  | 104 => ⟨S262144x3, .f32⟩
  | 105 => ⟨S262144x3, .f32⟩
  | 106 => ⟨S262144x48, .f32⟩
  | 107 => ⟨S262144x15, .f32⟩
  | 108 => ⟨S262144x63, .f32⟩
  | 109 => ⟨S_, .f32⟩
  | 110 => ⟨S262144x3, .f32⟩
  | 111 => ⟨S262144x3, .f32⟩
  | 112 => ⟨S262144x3, .f32⟩
  | 113 => ⟨S_, .f32⟩
  | 114 => ⟨S262144x3, .f32⟩
  | 115 => ⟨S262144x3, .f32⟩
  | 116 => ⟨S262144x3, .f32⟩
  | 117 => ⟨S_, .f32⟩
  | 118 => ⟨S262144x3, .f32⟩
  | 119 => ⟨S262144x3, .f32⟩
  | 120 => ⟨S262144x3, .f32⟩
  | 121 => ⟨S_, .f32⟩
  | 122 => ⟨S262144x3, .f32⟩
  | 123 => ⟨S262144x3, .f32⟩
  | 124 => ⟨S262144x3, .f32⟩
  | 125 => ⟨S_, .f32⟩
  | 126 => ⟨S262144x3, .f32⟩
  | 127 => ⟨S262144x3, .f32⟩
  | _ => ⟨S262144x3, .f32⟩

abbrev hbmTy0_1 (i : Nat) : BufTy := match i % 128 with
  | 0 => ⟨S262144x3, .f32⟩
  | 1 => ⟨S_, .f32⟩
  | 2 => ⟨S262144x3, .f32⟩
  | 3 => ⟨S262144x3, .f32⟩
  | 4 => ⟨S262144x3, .f32⟩
  | 5 => ⟨S_, .f32⟩
  | 6 => ⟨S262144x3, .f32⟩
  | 7 => ⟨S262144x3, .f32⟩
  | 8 => ⟨S262144x3, .f32⟩
  | 9 => ⟨S_, .f32⟩
  | 10 => ⟨S262144x3, .f32⟩
  | 11 => ⟨S262144x3, .f32⟩
  | 12 => ⟨S262144x3, .f32⟩
  | 13 => ⟨S262144x27, .f32⟩
  | 14 => ⟨S63x256, .f32⟩
  | 15 => ⟨S262144x256, .f32⟩
  | 16 => ⟨S1x256, .f32⟩
  | 17 => ⟨S262144x256, .f32⟩
  | 18 => ⟨S262144x256, .f32⟩
  | 19 => ⟨S_, .f32⟩
  | 20 => ⟨S262144x256, .f32⟩
  | 21 => ⟨S262144x256, .f32⟩
  | 22 => ⟨S256x256, .f32⟩
  | 23 => ⟨S262144x256, .f32⟩
  | 24 => ⟨S1x256, .f32⟩
  | 25 => ⟨S262144x256, .f32⟩
  | 26 => ⟨S262144x256, .f32⟩
  | 27 => ⟨S_, .f32⟩
  | 28 => ⟨S262144x256, .f32⟩
  | 29 => ⟨S262144x256, .f32⟩
  | 30 => ⟨S256x256, .f32⟩
  | 31 => ⟨S262144x256, .f32⟩
  | 32 => ⟨S1x256, .f32⟩
  | 33 => ⟨S262144x256, .f32⟩
  | 34 => ⟨S262144x256, .f32⟩
  | 35 => ⟨S_, .f32⟩
  | 36 => ⟨S262144x256, .f32⟩
  | 37 => ⟨S262144x256, .f32⟩
  | 38 => ⟨S256x256, .f32⟩
  | 39 => ⟨S262144x256, .f32⟩
  | 40 => ⟨S1x256, .f32⟩
  | 41 => ⟨S262144x256, .f32⟩
  | 42 => ⟨S262144x256, .f32⟩
  | 43 => ⟨S_, .f32⟩
  | 44 => ⟨S262144x256, .f32⟩
  | 45 => ⟨S262144x256, .f32⟩
  | 46 => ⟨S256x256, .f32⟩
  | 47 => ⟨S262144x256, .f32⟩
  | 48 => ⟨S1x256, .f32⟩
  | 49 => ⟨S262144x256, .f32⟩
  | 50 => ⟨S262144x256, .f32⟩
  | 51 => ⟨S_, .f32⟩
  | 52 => ⟨S262144x256, .f32⟩
  | 53 => ⟨S262144x256, .f32⟩
  | 54 => ⟨S262144x319, .f32⟩
  | 55 => ⟨S319x256, .f32⟩
  | 56 => ⟨S262144x256, .f32⟩
  | 57 => ⟨S1x256, .f32⟩
  | 58 => ⟨S262144x256, .f32⟩
  | 59 => ⟨S262144x256, .f32⟩
  | 60 => ⟨S_, .f32⟩
  | 61 => ⟨S262144x256, .f32⟩
  | 62 => ⟨S262144x256, .f32⟩
  | 63 => ⟨S256x256, .f32⟩
  | 64 => ⟨S262144x256, .f32⟩
  | 65 => ⟨S1x256, .f32⟩
  | 66 => ⟨S262144x256, .f32⟩
  | 67 => ⟨S262144x256, .f32⟩
  | 68 => ⟨S_, .f32⟩
  | 69 => ⟨S262144x256, .f32⟩
  | 70 => ⟨S262144x256, .f32⟩
  | 71 => ⟨S256x256, .f32⟩
  | 72 => ⟨S262144x256, .f32⟩
  | 73 => ⟨S1x256, .f32⟩
  | 74 => ⟨S262144x256, .f32⟩
  | 75 => ⟨S262144x256, .f32⟩
  | 76 => ⟨S_, .f32⟩
  | 77 => ⟨S262144x256, .f32⟩
  | 78 => ⟨S262144x256, .f32⟩
  | 79 => ⟨S256x1, .f32⟩
  | 80 => ⟨S262144x1, .f32⟩
  | 81 => ⟨S1x1, .f32⟩
  | 82 => ⟨S262144x1, .f32⟩
  | 83 => ⟨S262144x1, .f32⟩
  | 84 => ⟨S256x256, .f32⟩
  | 85 => ⟨S262144x256, .f32⟩
  | 86 => ⟨S1x256, .f32⟩
  | 87 => ⟨S262144x256, .f32⟩
  | 88 => ⟨S262144x256, .f32⟩
  | 89 => ⟨S262144x283, .f32⟩
  | 90 => ⟨S283x128, .f32⟩
  | 91 => ⟨S262144x128, .f32⟩
  | 92 => ⟨S1x128, .f32⟩
  | 93 => ⟨S262144x128, .f32⟩
  | 94 => ⟨S262144x128, .f32⟩
  | 95 => ⟨S_, .f32⟩
  | 96 => ⟨S262144x128, .f32⟩
  | 97 => ⟨S262144x128, .f32⟩
  | 98 => ⟨S128x3, .f32⟩
  | 99 => ⟨S262144x3, .f32⟩
  | 100 => ⟨S1x3, .f32⟩
  | 101 => ⟨S262144x3, .f32⟩
  | 102 => ⟨S262144x3, .f32⟩
  | 103 => ⟨S262144x4, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_4 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_6 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_10 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_11 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_12 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_13 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_14 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_16 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_17 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_18 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_19 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_20 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_21 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_22 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_23 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_24 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_25 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_26 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_call0_cst : Ref sig .tc := ⟨.hbm, 147, rfl⟩
abbrev main_call0_v0 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_call1_cst : Ref sig .tc := ⟨.hbm, 155, rfl⟩
abbrev main_call1_v0 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call2_cst : Ref sig .tc := ⟨.hbm, 163, rfl⟩
abbrev main_call2_v0 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call3_cst : Ref sig .tc := ⟨.hbm, 171, rfl⟩
abbrev main_call3_v0 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_call4_cst : Ref sig .tc := ⟨.hbm, 179, rfl⟩
abbrev main_call4_v0 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_call5_cst : Ref sig .tc := ⟨.hbm, 188, rfl⟩
abbrev main_call5_v0 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_call6_cst : Ref sig .tc := ⟨.hbm, 196, rfl⟩
abbrev main_call6_v0 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_call7_cst : Ref sig .tc := ⟨.hbm, 204, rfl⟩
abbrev main_call7_v0 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_call8_cst : Ref sig .tc := ⟨.hbm, 223, rfl⟩
abbrev main_call8_v0 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩

abbrev nD : Nat := 1
abbrev τ : Topo := Topo.v7x

variable {F : FTy → Type} [FloatOps F]

class Facts₀ : Prop where
  bcast_S_S262144x3 : S_.BroadcastsInDim S262144x3 (![] : Fin 0 → Fin S262144x3.rank)
  concatenates_S262144x3_S262144x3_S262144x3_S262144x3_S262144x3_S262144x3_S262144x3_S262144x3_S262144x3_S262144x3_S262144x3_S262144x3_S262144x3_S262144x3_S262144x3_S262144x3_S262144x48_d1 : Shape.Concatenates [S262144x3, S262144x3, S262144x3, S262144x3, S262144x3, S262144x3, S262144x3, S262144x3, S262144x3, S262144x3, S262144x3, S262144x3, S262144x3, S262144x3, S262144x3, S262144x3] S262144x48 1
  concatenates_S262144x3_S262144x3_S262144x3_S262144x3_S262144x3_S262144x15_d1 : Shape.Concatenates [S262144x3, S262144x3, S262144x3, S262144x3, S262144x3] S262144x15 1
  concatenates_S262144x48_S262144x15_S262144x63_d1 : Shape.Concatenates [S262144x48, S262144x15] S262144x63 1
  concatenates_S262144x3_S262144x3_S262144x3_S262144x3_S262144x3_S262144x3_S262144x3_S262144x3_S262144x3_S262144x27_d1 : Shape.Concatenates [S262144x3, S262144x3, S262144x3, S262144x3, S262144x3, S262144x3, S262144x3, S262144x3, S262144x3] S262144x27 1
  transposes_S256x63_S63x256_1_0 : S256x63.Transposes [1, 0] S63x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  concatenates_S262144x63_S262144x256_S262144x319_d1 : Shape.Concatenates [S262144x63, S262144x256] S262144x319 1
  transposes_S256x319_S319x256_1_0 : S256x319.Transposes [1, 0] S319x256
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  concatenates_S262144x256_S262144x27_S262144x283_d1 : Shape.Concatenates [S262144x256, S262144x27] S262144x283 1
  transposes_S128x283_S283x128_1_0 : S128x283.Transposes [1, 0] S283x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  concatenates_S262144x3_S262144x1_S262144x4_d1 : Shape.Concatenates [S262144x3, S262144x1] S262144x4 1
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x283_S283x128_S262144x128_1_0_0_1_n_n_wf : DotDims.WF S262144x283 S283x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x283_S283x128_S262144x128_1_0_0_1_n_n : DotDims S262144x283 S283x128 S262144x128 where
  lhsContracting := [1]
  rhsContracting := [0]
  lhsNonContracting := [0]
  rhsNonContracting := [1]
  lhsBatch := []
  rhsBatch := []
  wf := dot_S262144x283_S283x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.RefOps.lean ====
/-
  The reference program as a list of operations, and its result as one term of the arguments.

  The program is a straight line of 206 host operations (`ops`: the printed @main, a called function's
  operations standing in its call's place).  Every weakly fair execution of it terminates with the result
  buffer at the operations' composed term of the argument arrays (`res_main_v159`) and with every argument
  array as launched — an argument is the result buffer of no operation.
-/
import proofs.«105194_j54752243090148_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 206 operations, in order (a called function's operations stand in its call's place, spelt `TRef.…`). -/
abbrev ops : List (HloOp τ sig (Elt F)) :=
  [ nullary main_cst (constant S_ .f32 0x3F800000#32),
    unary main_cst main_v0 (broadcastInDim S262144x3 ![] bcast_S_S262144x3 : (⟨S_, .f32⟩ : BufTy).Contents (Elt F) → (⟨S262144x3, .f32⟩ : BufTy).Contents (Elt F)),
    binary main_v0 main_arg0 main_v1 (mulf : (⟨S262144x3, .f32⟩ : BufTy).Contents (Elt F) → (⟨S262144x3, .f32⟩ : BufTy).Contents (Elt F) → (⟨S262144x3, .f32⟩ : BufTy).Contents (Elt F)),
    unary main_v1 main_v2 (Host.sin : (⟨S262144x3, .f32⟩ : BufTy).Contents (Elt F) → (⟨S262144x3, .f32⟩ : BufTy).Contents (Elt F)),
    nullary main_cst_0 (constant S_ .f32 0x3F800000#32),
    unary main_cst_0 main_v3 (broadcastInDim S262144x3 ![] bcast_S_S262144x3 : (⟨S_, .f32⟩ : BufTy).Contents (Elt F) → (⟨S262144x3, .f32⟩ : BufTy).Contents (Elt F)),
    binary main_v3 main_arg0 main_v4 (mulf : (⟨S262144x3, .f32⟩ : BufTy).Contents (Elt F) → (⟨S262144x3, .f32⟩ : BufTy).Contents (Elt F) → (⟨S262144x3, .f32⟩ : BufTy).Contents (Elt F)),
    unary main_v4 main_v5 (Host.cos : (⟨S262144x3, .f32⟩ : BufTy).Contents (Elt F) → (⟨S262144x3, .f32⟩ : BufTy).Contents (Elt F)),
    nullary main_cst_1 (constant S_ .f32 0x40000000#32),
    unary main_cst_1 main_v6 (broadcastInDim S262144x3 ![] bcast_S_S262144x3 : (⟨S_, .f32⟩ : BufTy).Contents (Elt F) → (⟨S262144x3, .f32⟩ : BufTy).Contents (Elt F)),
    binary main_v6 main_arg0 main_v7 (mulf : (⟨S262144x3, .f32⟩ : BufTy).Contents (Elt F) → (⟨S262144x3, .f32⟩ : BufTy).Contents (Elt F) → (⟨S262144x3, .f32⟩ : BufTy).Contents (Elt F)),
    unary main_v7 main_v8 (Host.sin : (⟨S262144x3, .f32⟩ : BufTy).Contents (Elt F) → (⟨S262144x3, .f32⟩ : BufTy).Contents (Elt F)),
    nullary main_cst_2 (constant S_ .f32 0x40000000#32),
    unary main_cst_2 main_v9 (broadcastInDim S262144x3 ![] bcast_S_S262144x3 : (⟨S_, .f32⟩ : BufTy).Contents (Elt F) → (⟨S262144x3, .f32⟩ : BufTy).Contents (Elt F)),
    binary main_v9 main_arg0 main_v10 (mulf : (⟨S262144x3, .f32⟩ : BufTy).Contents (Elt F) → (⟨S262144x3, .f32⟩ : BufTy).Contents (Elt F) → (⟨S262144x3, .f32⟩ : BufTy).Contents (Elt F)),
    unary main_v10 main_v11 (Host.cos : (⟨S262144x3, .f32⟩ : BufTy).Contents (Elt F) → (⟨S262144x3, .f32⟩ : BufTy).Contents (Elt F)),
    nullary main_cst_3 (constant S_ .f32 0x40800000#32),
    unary main_cst_3 main_v12 (broadcastInDim S262144x3 ![] bcast_S_S262144x3 : (⟨S_, .f32⟩ : BufTy).Contents (Elt F) → (⟨S262144x3, .f32⟩ : BufTy).Contents (Elt F)),
    binary main_v12 main_arg0 main_v13 (mulf : (⟨S262144x3, .f32⟩ : BufTy).Contents (Elt F) → (⟨S262144x3, .f32⟩ : BufTy).Contents (Elt F) → (⟨S262144x3, .f32⟩ : BufTy).Contents (Elt F)),
    unary main_v13 main_v14 (Host.sin : (⟨S262144x3, .f32⟩ : BufTy).Contents (Elt F) → (⟨S262144x3, .f32⟩ : BufTy).Contents (Elt F)),
    nullary main_cst_4 (constant S_ .f32 0x40800000#32),
    unary main_cst_4 main_v15 (broadcastInDim S262144x3 ![] bcast_S_S262144x3 : (⟨S_, .f32⟩ : BufTy).Contents (Elt F) → (⟨S262144x3, .f32⟩ : BufTy).Contents (Elt F)),
    binary main_v15 main_arg0 main_v16 (mulf : (⟨S262144x3, .f32⟩ : BufTy).Contents (Elt F) → (⟨S262144x3, .f32⟩ : BufTy).Contents (Elt F) → (⟨S262144x3, .f32⟩ : BufTy).Contents (Elt F)),
    unary main_v16 main_v17 (Host.cos : (⟨S262144x3, .f32⟩ : BufTy).Contents (Elt F) → (⟨S262144x3, .f32⟩ : BufTy).Contents (Elt F)),
    nullary main_cst_5 (constant S_ .f32 0x41000000#32),
    unary main_cst_5 main_v18 (broadcastInDim S262144x3 ![] bcast_S_S262144x3 : (⟨S_, .f32⟩ : BufTy).Contents (Elt F) → (⟨S262144x3, .f32⟩ : BufTy).Contents (Elt F)),
    binary main_v18 main_arg0 main_v19 (mulf : (⟨S262144x3, .f32⟩ : BufTy).Contents (Elt F) → (⟨S262144x3, .f32⟩ : BufTy).Contents (Elt F) → (⟨S262144x3, .f32⟩ : BufTy).Contents (Elt F)),
    unary main_v19 main_v20 (Host.sin : (⟨S262144x3, .f32⟩ : BufTy).Contents (Elt F) → (⟨S262144x3, .f32⟩ : BufTy).Contents (Elt F)),
    nullary main_cst_6 (constant S_ .f32 0x41000000#32),
    unary main_cst_6 main_v21 (broadcastInDim S262144x3 ![] bcast_S_S262144x3 : (⟨S_, .f32⟩ : BufTy).Contents (Elt F) → (⟨S262144x3, .f32⟩ : BufTy).Contents (Elt F)),
    binary main_v21 main_arg0 main_v22 (mulf : (⟨S262144x3, .f32⟩ : BufTy).Contents (Elt F) → (⟨S262144x3, .f32⟩ : BufTy).Contents (Elt F) → (⟨S262144x3, .f32⟩ : BufTy).Contents (Elt F)),
    unary main_v22 main_v23 (Host.cos : (⟨S262144x3, .f32⟩ : BufTy).Contents (Elt F) → (⟨S262144x3, .f32⟩ : BufTy).Contents (Elt F)),
    nullary main_cst_7 (constant S_ .f32 0x41800000#32),
    unary main_cst_7 main_v24 (broadcastInDim S262144x3 ![] bcast_S_S262144x3 : (⟨S_, .f32⟩ : BufTy).Contents (Elt F) → (⟨S262144x3, .f32⟩ : BufTy).Contents (Elt F)),
    binary main_v24 main_arg0 main_v25 (mulf : (⟨S262144x3, .f32⟩ : BufTy).Contents (Elt F) → (⟨S262144x3, .f32⟩ : BufTy).Contents (Elt F) → (⟨S262144x3, .f32⟩ : BufTy).Contents (Elt F)),
    unary main_v25 main_v26 (Host.sin : (⟨S262144x3, .f32⟩ : BufTy).Contents (Elt F) → (⟨S262144x3, .f32⟩ : BufTy).Contents (Elt F)),
    nullary main_cst_8 (constant S_ .f32 0x41800000#32),
    unary main_cst_8 main_v27 (broadcastInDim S262144x3 ![] bcast_S_S262144x3 : (⟨S_, .f32⟩ : BufTy).Contents (Elt F) → (⟨S262144x3, .f32⟩ : BufTy).Contents (Elt F)),
    binary main_v27 main_arg0 main_v28 (mulf : (⟨S262144x3, .f32⟩ : BufTy).Contents (Elt F) → (⟨S262144x3, .f32⟩ : BufTy).Contents (Elt F) → (⟨S262144x3, .f32⟩ : BufTy).Contents (Elt F)),
    unary main_v28 main_v29 (Host.cos : (⟨S262144x3, .f32⟩ : BufTy).Contents (Elt F) → (⟨S262144x3, .f32⟩ : BufTy).Contents (Elt F)),
    nullary main_cst_9 (constant S_ .f32 0x42000000#32),
    unary main_cst_9 main_v30 (broadcastInDim S262144x3 ![] bcast_S_S262144x3 : (⟨S_, .f32⟩ : BufTy).Contents (Elt F) → (⟨S262144x3, .f32⟩ : BufTy).Contents (Elt F)),
    binary main_v30 main_arg0 main_v31 (mulf : (⟨S262144x3, .f32⟩ : BufTy).Contents (Elt F) → (⟨S262144x3, .f32⟩ : BufTy).Contents (Elt F) → (⟨S262144x3, .f32⟩ : BufTy).Contents (Elt F)),
    unary main_v31 main_v32 (Host.sin : (⟨S262144x3, .f32⟩ : BufTy).Contents (Elt F) → (⟨S262144x3, .f32⟩ : BufTy).Contents (Elt F)),
    nullary main_cst_10 (constant S_ .f32 0x42000000#32),
    unary main_cst_10 main_v33 (broadcastInDim S262144x3 ![] bcast_S_S262144x3 : (⟨S_, .f32⟩ : BufTy).Contents (Elt F) → (⟨S262144x3, .f32⟩ : BufTy).Contents (Elt F)),
    binary main_v33 main_arg0 main_v34 (mulf : (⟨S262144x3, .f32⟩ : BufTy).Contents (Elt F) → (⟨S262144x3, .f32⟩ : BufTy).Contents (Elt F) → (⟨S262144x3, .f32⟩ : BufTy).Contents (Elt F)),
    unary main_v34 main_v35 (Host.cos : (⟨S262144x3, .f32⟩ : BufTy).Contents (Elt F) → (⟨S262144x3, .f32⟩ : BufTy).Contents (Elt F)),
    nullary main_cst_11 (constant S_ .f32 0x42800000#32),
    unary main_cst_11 main_v36 (broadcastInDim S262144x3 ![] bcast_S_S262144x3 : (⟨S_, .f32⟩ : BufTy).Contents (Elt F) → (⟨S262144x3, .f32⟩ : BufTy).Contents (Elt F)),
    binary main_v36 main_arg0 main_v37 (mulf : (⟨S262144x3, .f32⟩ : BufTy).Contents (Elt F) → (⟨S262144x3, .f32⟩ : BufTy).Contents (Elt F) → (⟨S262144x3, .f32⟩ : BufTy).Contents (Elt F)),
    unary main_v37 main_v38 (Host.sin : (⟨S262144x3, .f32⟩ : BufTy).Contents (Elt F) → (⟨S262144x3, .f32⟩ : BufTy).Contents (Elt F)),
    nullary main_cst_12 (constant S_ .f32 0x42800000#32),
    unary main_cst_12 main_v39 (broadcastInDim S262144x3 ![] bcast_S_S262144x3 : (⟨S_, .f32⟩ : BufTy).Contents (Elt F) → (⟨S262144x3, .f32⟩ : BufTy).Contents (Elt F)),
    binary main_v39 main_arg0 main_v40 (mulf : (⟨S262144x3, .f32⟩ : BufTy).Contents (Elt F) → (⟨S262144x3, .f32⟩ : BufTy).Contents (Elt F) → (⟨S262144x3, .f32⟩ : BufTy).Contents (Elt F)),
    unary main_v40 main_v41 (Host.cos : (⟨S262144x3, .f32⟩ : BufTy).Contents (Elt F) → (⟨S262144x3, .f32⟩ : BufTy).Contents (Elt F)),
    nullary main_cst_13 (constant S_ .f32 0x43000000#32),
    unary main_cst_13 main_v42 (broadcastInDim S262144x3 ![] bcast_S_S262144x3 : (⟨S_, .f32⟩ : BufTy).Contents (Elt F) → (⟨S262144x3, .f32⟩ : BufTy).Contents (Elt F)),
    binary main_v42 main_arg0 main_v43 (mulf : (⟨S262144x3, .f32⟩ : BufTy).Contents (Elt F) → (⟨S262144x3, .f32⟩ : BufTy).Contents (Elt F) → (⟨S262144x3, .f32⟩ : BufTy).Contents (Elt F)),
    unary main_v43 main_v44 (Host.sin : (⟨S262144x3, .f32⟩ : BufTy).Contents (Elt F) → (⟨S262144x3, .f32⟩ : BufTy).Contents (Elt F)),
    nullary main_cst_14 (constant S_ .f32 0x43000000#32),
    unary main_cst_14 main_v45 (broadcastInDim S262144x3 ![] bcast_S_S262144x3 : (⟨S_, .f32⟩ : BufTy).Contents (Elt F) → (⟨S262144x3, .f32⟩ : BufTy).Contents (Elt F)),
    binary main_v45 main_arg0 main_v46 (mulf : (⟨S262144x3, .f32⟩ : BufTy).Contents (Elt F) → (⟨S262144x3, .f32⟩ : BufTy).Contents (Elt F) → (⟨S262144x3, .f32⟩ : BufTy).Contents (Elt F)),
    unary main_v46 main_v47 (Host.cos : (⟨S262144x3, .f32⟩ : BufTy).Contents (Elt F) → (⟨S262144x3, .f32⟩ : BufTy).Contents (Elt F)),
    nullary main_cst_15 (constant S_ .f32 0x43800000#32),
    unary main_cst_15 main_v48 (broadcastInDim S262144x3 ![] bcast_S_S262144x3 : (⟨S_, .f32⟩ : BufTy).Contents (Elt F) → (⟨S262144x3, .f32⟩ : BufTy).Contents (Elt F)),
    binary main_v48 main_arg0 main_v49 (mulf : (⟨S262144x3, .f32⟩ : BufTy).Contents (Elt F) → (⟨S262144x3, .f32⟩ : BufTy).Contents (Elt F) → (⟨S262144x3, .f32⟩ : BufTy).Contents (Elt F)),
    unary main_v49 main_v50 (Host.sin : (⟨S262144x3, .f32⟩ : BufTy).Contents (Elt F) → (⟨S262144x3, .f32⟩ : BufTy).Contents (Elt F)),
    nullary main_cst_16 (constant S_ .f32 0x43800000#32),
    unary main_cst_16 main_v51 (broadcastInDim S262144x3 ![] bcast_S_S262144x3 : (⟨S_, .f32⟩ : BufTy).Contents (Elt F) → (⟨S262144x3, .f32⟩ : BufTy).Contents (Elt F)),
    binary main_v51 main_arg0 main_v52 (mulf : (⟨S262144x3, .f32⟩ : BufTy).Contents (Elt F) → (⟨S262144x3, .f32⟩ : BufTy).Contents (Elt F) → (⟨S262144x3, .f32⟩ : BufTy).Contents (Elt F)),
    unary main_v52 main_v53 (Host.cos : (⟨S262144x3, .f32⟩ : BufTy).Contents (Elt F) → (⟨S262144x3, .f32⟩ : BufTy).Contents (Elt F)),
    nullary main_cst_17 (constant S_ .f32 0x44000000#32),
    unary main_cst_17 main_v54 (broadcastInDim S262144x3 ![] bcast_S_S262144x3 : (⟨S_, .f32⟩ : BufTy).Contents (Elt F) → (⟨S262144x3, .f32⟩ : BufTy).Contents (Elt F)),
    binary main_v54 main_arg0 main_v55 (mulf : (⟨S262144x3, .f32⟩ : BufTy).Contents (Elt F) → (⟨S262144x3, .f32⟩ : BufTy).Contents (Elt F) → (⟨S262144x3, .f32⟩ : BufTy).Contents (Elt F)),
    unary main_v55 main_v56 (Host.sin : (⟨S262144x3, .f32⟩ : BufTy).Contents (Elt F) → (⟨S262144x3, .f32⟩ : BufTy).Contents (Elt F)),
    nullary main_cst_18 (constant S_ .f32 0x44000000#32),
    unary main_cst_18 main_v57 (broadcastInDim S262144x3 ![] bcast_S_S262144x3 : (⟨S_, .f32⟩ : BufTy).Contents (Elt F) → (⟨S262144x3, .f32⟩ : BufTy).Contents (Elt F)),
    binary main_v57 main_arg0 main_v58 (mulf : (⟨S262144x3, .f32⟩ : BufTy).Contents (Elt F) → (⟨S262144x3, .f32⟩ : BufTy).Contents (Elt F) → (⟨S262144x3, .f32⟩ : BufTy).Contents (Elt F)),
    unary main_v58 main_v59 (Host.cos : (⟨S262144x3, .f32⟩ : BufTy).Contents (Elt F) → (⟨S262144x3, .f32⟩ : BufTy).Contents (Elt F)),
    nary ![main_arg0, main_v2, main_v5, main_v8, main_v11, main_v14, main_v17, main_v20, main_v23, main_v26, main_v29, main_v32, main_v35, main_v38, main_v41, main_v44] main_v60 (fun u => concatenate S262144x48 1 [⟨S262144x3, u 0⟩, ⟨S262144x3, u 1⟩, ⟨S262144x3, u 2⟩, ⟨S262144x3, u 3⟩, ⟨S262144x3, u 4⟩, ⟨S262144x3, u 5⟩, ⟨S262144x3, u 6⟩, ⟨S262144x3, u 7⟩, ⟨S262144x3, u 8⟩, ⟨S262144x3, u 9⟩, ⟨S262144x3, u 10⟩, ⟨S262144x3, u 11⟩, ⟨S262144x3, u 12⟩, ⟨S262144x3, u 13⟩, ⟨S262144x3, u 14⟩, ⟨S262144x3, u 15⟩] concatenates_S262144x3_S262144x3_S262144x3_S262144x3_S262144x3_S262144x3_S262144x3_S262144x3_S262144x3_S262144x3_S262144x3_S262144x3_S262144x3_S262144x3_S262144x3_S262144x3_S262144x48_d1),
    nary ![main_v47, main_v50, main_v53, main_v56, main_v59] main_v61 (fun u => concatenate S262144x15 1 [⟨S262144x3, u 0⟩, ⟨S262144x3, u 1⟩, ⟨S262144x3, u 2⟩, ⟨S262144x3, u 3⟩, ⟨S262144x3, u 4⟩] concatenates_S262144x3_S262144x3_S262144x3_S262144x3_S262144x3_S262144x15_d1),
    binary main_v60 main_v61 main_v62 ((fun a b => concatenate S262144x63 1 [⟨S262144x48, a⟩, ⟨S262144x15, b⟩] concatenates_S262144x48_S262144x15_S262144x63_d1) : (⟨S262144x48, .f32⟩ : BufTy).Contents (Elt F) → (⟨S262144x15, .f32⟩ : BufTy).Contents (Elt F) → (⟨S262144x63, .f32⟩ : BufTy).Contents (Elt F)),
    nullary main_cst_19 (constant S_ .f32 0x3F800000#32),
    unary main_cst_19 main_v63 (broadcastInDim S262144x3 ![] bcast_S_S262144x3 : (⟨S_, .f32⟩ : BufTy).Contents (Elt F) → (⟨S262144x3, .f32⟩ : BufTy).Contents (Elt F)),
    binary main_v63 main_arg1 main_v64 (mulf : (⟨S262144x3, .f32⟩ : BufTy).Contents (Elt F) → (⟨S262144x3, .f32⟩ : BufTy).Contents (Elt F) → (⟨S262144x3, .f32⟩ : BufTy).Contents (Elt F)),
    unary main_v64 main_v65 (Host.sin : (⟨S262144x3, .f32⟩ : BufTy).Contents (Elt F) → (⟨S262144x3, .f32⟩ : BufTy).Contents (Elt F)),
    nullary main_cst_20 (constant S_ .f32 0x3F800000#32),
    unary main_cst_20 main_v66 (broadcastInDim S262144x3 ![] bcast_S_S262144x3 : (⟨S_, .f32⟩ : BufTy).Contents (Elt F) → (⟨S262144x3, .f32⟩ : BufTy).Contents (Elt F)),
    binary main_v66 main_arg1 main_v67 (mulf : (⟨S262144x3, .f32⟩ : BufTy).Contents (Elt F) → (⟨S262144x3, .f32⟩ : BufTy).Contents (Elt F) → (⟨S262144x3, .f32⟩ : BufTy).Contents (Elt F)),
    unary main_v67 main_v68 (Host.cos : (⟨S262144x3, .f32⟩ : BufTy).Contents (Elt F) → (⟨S262144x3, .f32⟩ : BufTy).Contents (Elt F)),
    nullary main_cst_21 (constant S_ .f32 0x40000000#32),
    unary main_cst_21 main_v69 (broadcastInDim S262144x3 ![] bcast_S_S262144x3 : (⟨S_, .f32⟩ : BufTy).Contents (Elt F) → (⟨S262144x3, .f32⟩ : BufTy).Contents (Elt F)),
    binary main_v69 main_arg1 main_v70 (mulf : (⟨S262144x3, .f32⟩ : BufTy).Contents (Elt F) → (⟨S262144x3, .f32⟩ : BufTy).Contents (Elt F) → (⟨S262144x3, .f32⟩ : BufTy).Contents (Elt F)),
    unary main_v70 main_v71 (Host.sin : (⟨S262144x3, .f32⟩ : BufTy).Contents (Elt F) → (⟨S262144x3, .f32⟩ : BufTy).Contents (Elt F)),
    nullary main_cst_22 (constant S_ .f32 0x40000000#32),
    unary main_cst_22 main_v72 (broadcastInDim S262144x3 ![] bcast_S_S262144x3 : (⟨S_, .f32⟩ : BufTy).Contents (Elt F) → (⟨S262144x3, .f32⟩ : BufTy).Contents (Elt F)),
    binary main_v72 main_arg1 main_v73 (mulf : (⟨S262144x3, .f32⟩ : BufTy).Contents (Elt F) → (⟨S262144x3, .f32⟩ : BufTy).Contents (Elt F) → (⟨S262144x3, .f32⟩ : BufTy).Contents (Elt F)),
    unary main_v73 main_v74 (Host.cos : (⟨S262144x3, .f32⟩ : BufTy).Contents (Elt F) → (⟨S262144x3, .f32⟩ : BufTy).Contents (Elt F)),
    nullary main_cst_23 (constant S_ .f32 0x40800000#32),
    unary main_cst_23 main_v75 (broadcastInDim S262144x3 ![] bcast_S_S262144x3 : (⟨S_, .f32⟩ : BufTy).Contents (Elt F) → (⟨S262144x3, .f32⟩ : BufTy).Contents (Elt F)),
    binary main_v75 main_arg1 main_v76 (mulf : (⟨S262144x3, .f32⟩ : BufTy).Contents (Elt F) → (⟨S262144x3, .f32⟩ : BufTy).Contents (Elt F) → (⟨S262144x3, .f32⟩ : BufTy).Contents (Elt F)),
    unary main_v76 main_v77 (Host.sin : (⟨S262144x3, .f32⟩ : BufTy).Contents (Elt F) → (⟨S262144x3, .f32⟩ : BufTy).Contents (Elt F)),
    nullary main_cst_24 (constant S_ .f32 0x40800000#32),
    unary main_cst_24 main_v78 (broadcastInDim S262144x3 ![] bcast_S_S262144x3 : (⟨S_, .f32⟩ : BufTy).Contents (Elt F) → (⟨S262144x3, .f32⟩ : BufTy).Contents (Elt F)),
    binary main_v78 main_arg1 main_v79 (mulf : (⟨S262144x3, .f32⟩ : BufTy).Contents (Elt F) → (⟨S262144x3, .f32⟩ : BufTy).Contents (Elt F) → (⟨S262144x3, .f32⟩ : BufTy).Contents (Elt F)),
    unary main_v79 main_v80 (Host.cos : (⟨S262144x3, .f32⟩ : BufTy).Contents (Elt F) → (⟨S262144x3, .f32⟩ : BufTy).Contents (Elt F)),
    nullary main_cst_25 (constant S_ .f32 0x41000000#32),
    unary main_cst_25 main_v81 (broadcastInDim S262144x3 ![] bcast_S_S262144x3 : (⟨S_, .f32⟩ : BufTy).Contents (Elt F) → (⟨S262144x3, .f32⟩ : BufTy).Contents (Elt F)),
    binary main_v81 main_arg1 main_v82 (mulf : (⟨S262144x3, .f32⟩ : BufTy).Contents (Elt F) → (⟨S262144x3, .f32⟩ : BufTy).Contents (Elt F) → (⟨S262144x3, .f32⟩ : BufTy).Contents (Elt F)),
    unary main_v82 main_v83 (Host.sin : (⟨S262144x3, .f32⟩ : BufTy).Contents (Elt F) → (⟨S262144x3, .f32⟩ : BufTy).Contents (Elt F)),
    nullary main_cst_26 (constant S_ .f32 0x41000000#32),
    unary main_cst_26 main_v84 (broadcastInDim S262144x3 ![] bcast_S_S262144x3 : (⟨S_, .f32⟩ : BufTy).Contents (Elt F) → (⟨S262144x3, .f32⟩ : BufTy).Contents (Elt F)),
    binary main_v84 main_arg1 main_v85 (mulf : (⟨S262144x3, .f32⟩ : BufTy).Contents (Elt F) → (⟨S262144x3, .f32⟩ : BufTy).Contents (Elt F) → (⟨S262144x3, .f32⟩ : BufTy).Contents (Elt F)),
    unary main_v85 main_v86 (Host.cos : (⟨S262144x3, .f32⟩ : BufTy).Contents (Elt F) → (⟨S262144x3, .f32⟩ : BufTy).Contents (Elt F)),
    nary ![main_arg1, main_v65, main_v68, main_v71, main_v74, main_v77, main_v80, main_v83, main_v86] main_v87 (fun u => concatenate S262144x27 1 [⟨S262144x3, u 0⟩, ⟨S262144x3, u 1⟩, ⟨S262144x3, u 2⟩, ⟨S262144x3, u 3⟩, ⟨S262144x3, u 4⟩, ⟨S262144x3, u 5⟩, ⟨S262144x3, u 6⟩, ⟨S262144x3, u 7⟩, ⟨S262144x3, u 8⟩] concatenates_S262144x3_S262144x3_S262144x3_S262144x3_S262144x3_S262144x3_S262144x3_S262144x3_S262144x3_S262144x27_d1),
    unary main_arg2 main_v88 ((transpose S63x256 [1, 0] · transposes_S256x63_S63x256_1_0) : (⟨S256x63, .f32⟩ : BufTy).Contents (Elt F) → (⟨S63x256, .f32⟩ : BufTy).Contents (Elt F)),
    binary main_v62 main_v88 main_v89 ((fun l r => Host.dotGeneral dot_S262144x63_S63x256_S262144x256_1_0_0_1_n_n none l r) : (⟨S262144x63, .f32⟩ : BufTy).Contents (Elt F) → (⟨S63x256, .f32⟩ : BufTy).Contents (Elt F) → (⟨S262144x256, .f32⟩ : BufTy).Contents (Elt F)),
    unary main_arg3 main_v90 (broadcastInDim S1x256 ![1] bcast_S256_S1x256_1 : (⟨S256, .f32⟩ : BufTy).Contents (Elt F) → (⟨S1x256, .f32⟩ : BufTy).Contents (Elt F)),
    unary main_v90 main_v91 (broadcastInDim S262144x256 ![0, 1] bcast_S1x256_S262144x256_0_1 : (⟨S1x256, .f32⟩ : BufTy).Contents (Elt F) → (⟨S262144x256, .f32⟩ : BufTy).Contents (Elt F)),
    binary main_v89 main_v91 main_v92 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x256, .f32⟩) main_call0_v0) (broadcastInDim S262144x256 ![] bcast_S_S262144x256),
    TRef.binary (TRef.of (T := ⟨S262144x256, .f32⟩) main_v92) (TRef.of (T := ⟨S262144x256, .f32⟩) main_call0_v0) (TRef.of (T := ⟨S262144x256, .f32⟩) main_v93) maximumf,
    unary main_arg4 main_v94 ((transpose S256x256 [1, 0] · transposes_S256x256_S256x256_1_0) : (⟨S256x256, .f32⟩ : BufTy).Contents (Elt F) → (⟨S256x256, .f32⟩ : BufTy).Contents (Elt F)),
    binary main_v93 main_v94 main_v95 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg5 main_v96 (broadcastInDim S1x256 ![1] bcast_S256_S1x256_1 : (⟨S256, .f32⟩ : BufTy).Contents (Elt F) → (⟨S1x256, .f32⟩ : BufTy).Contents (Elt F)),
    unary main_v96 main_v97 (broadcastInDim S262144x256 ![0, 1] bcast_S1x256_S262144x256_0_1 : (⟨S1x256, .f32⟩ : BufTy).Contents (Elt F) → (⟨S262144x256, .f32⟩ : BufTy).Contents (Elt F)),
    binary main_v95 main_v97 main_v98 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x256, .f32⟩) main_call1_v0) (broadcastInDim S262144x256 ![] bcast_S_S262144x256),
    TRef.binary (TRef.of (T := ⟨S262144x256, .f32⟩) main_v98) (TRef.of (T := ⟨S262144x256, .f32⟩) main_call1_v0) (TRef.of (T := ⟨S262144x256, .f32⟩) main_v99) maximumf,
    unary main_arg6 main_v100 ((transpose S256x256 [1, 0] · transposes_S256x256_S256x256_1_0) : (⟨S256x256, .f32⟩ : BufTy).Contents (Elt F) → (⟨S256x256, .f32⟩ : BufTy).Contents (Elt F)),
    binary main_v99 main_v100 main_v101 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg7 main_v102 (broadcastInDim S1x256 ![1] bcast_S256_S1x256_1 : (⟨S256, .f32⟩ : BufTy).Contents (Elt F) → (⟨S1x256, .f32⟩ : BufTy).Contents (Elt F)),
    unary main_v102 main_v103 (broadcastInDim S262144x256 ![0, 1] bcast_S1x256_S262144x256_0_1 : (⟨S1x256, .f32⟩ : BufTy).Contents (Elt F) → (⟨S262144x256, .f32⟩ : BufTy).Contents (Elt F)),
    binary main_v101 main_v103 main_v104 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S262144x256, .f32⟩) main_call2_v0) (broadcastInDim S262144x256 ![] bcast_S_S262144x256),
    TRef.binary (TRef.of (T := ⟨S262144x256, .f32⟩) main_v104) (TRef.of (T := ⟨S262144x256, .f32⟩) main_call2_v0) (TRef.of (T := ⟨S262144x256, .f32⟩) main_v105) maximumf,
    unary main_arg8 main_v106 ((transpose S256x256 [1, 0] · transposes_S256x256_S256x256_1_0) : (⟨S256x256, .f32⟩ : BufTy).Contents (Elt F) → (⟨S256x256, .f32⟩ : BufTy).Contents (Elt F)),
    binary main_v105 main_v106 main_v107 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg9 main_v108 (broadcastInDim S1x256 ![1] bcast_S256_S1x256_1 : (⟨S256, .f32⟩ : BufTy).Contents (Elt F) → (⟨S1x256, .f32⟩ : BufTy).Contents (Elt F)),
    unary main_v108 main_v109 (broadcastInDim S262144x256 ![0, 1] bcast_S1x256_S262144x256_0_1 : (⟨S1x256, .f32⟩ : BufTy).Contents (Elt F) → (⟨S262144x256, .f32⟩ : BufTy).Contents (Elt F)),
    binary main_v107 main_v109 main_v110 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S262144x256, .f32⟩) main_call3_v0) (broadcastInDim S262144x256 ![] bcast_S_S262144x256),
    TRef.binary (TRef.of (T := ⟨S262144x256, .f32⟩) main_v110) (TRef.of (T := ⟨S262144x256, .f32⟩) main_call3_v0) (TRef.of (T := ⟨S262144x256, .f32⟩) main_v111) maximumf,
    unary main_arg10 main_v112 ((transpose S256x256 [1, 0] · transposes_S256x256_S256x256_1_0) : (⟨S256x256, .f32⟩ : BufTy).Contents (Elt F) → (⟨S256x256, .f32⟩ : BufTy).Contents (Elt F)),
    binary main_v111 main_v112 main_v113 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg11 main_v114 (broadcastInDim S1x256 ![1] bcast_S256_S1x256_1 : (⟨S256, .f32⟩ : BufTy).Contents (Elt F) → (⟨S1x256, .f32⟩ : BufTy).Contents (Elt F)),
    unary main_v114 main_v115 (broadcastInDim S262144x256 ![0, 1] bcast_S1x256_S262144x256_0_1 : (⟨S1x256, .f32⟩ : BufTy).Contents (Elt F) → (⟨S262144x256, .f32⟩ : BufTy).Contents (Elt F)),
    binary main_v113 main_v115 main_v116 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S262144x256, .f32⟩) main_call4_v0) (broadcastInDim S262144x256 ![] bcast_S_S262144x256),
    TRef.binary (TRef.of (T := ⟨S262144x256, .f32⟩) main_v116) (TRef.of (T := ⟨S262144x256, .f32⟩) main_call4_v0) (TRef.of (T := ⟨S262144x256, .f32⟩) main_v117) maximumf,
    binary main_v62 main_v117 main_v118 ((fun a b => concatenate S262144x319 1 [⟨S262144x63, a⟩, ⟨S262144x256, b⟩] concatenates_S262144x63_S262144x256_S262144x319_d1) : (⟨S262144x63, .f32⟩ : BufTy).Contents (Elt F) → (⟨S262144x256, .f32⟩ : BufTy).Contents (Elt F) → (⟨S262144x319, .f32⟩ : BufTy).Contents (Elt F)),
    unary main_arg12 main_v119 ((transpose S319x256 [1, 0] · transposes_S256x319_S319x256_1_0) : (⟨S256x319, .f32⟩ : BufTy).Contents (Elt F) → (⟨S319x256, .f32⟩ : BufTy).Contents (Elt F)),
    binary main_v118 main_v119 main_v120 ((fun l r => Host.dotGeneral dot_S262144x319_S319x256_S262144x256_1_0_0_1_n_n none l r) : (⟨S262144x319, .f32⟩ : BufTy).Contents (Elt F) → (⟨S319x256, .f32⟩ : BufTy).Contents (Elt F) → (⟨S262144x256, .f32⟩ : BufTy).Contents (Elt F)),
    unary main_arg13 main_v121 (broadcastInDim S1x256 ![1] bcast_S256_S1x256_1 : (⟨S256, .f32⟩ : BufTy).Contents (Elt F) → (⟨S1x256, .f32⟩ : BufTy).Contents (Elt F)),
    unary main_v121 main_v122 (broadcastInDim S262144x256 ![0, 1] bcast_S1x256_S262144x256_0_1 : (⟨S1x256, .f32⟩ : BufTy).Contents (Elt F) → (⟨S262144x256, .f32⟩ : BufTy).Contents (Elt F)),
    binary main_v120 main_v122 main_v123 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S262144x256, .f32⟩) main_call5_v0) (broadcastInDim S262144x256 ![] bcast_S_S262144x256),
    TRef.binary (TRef.of (T := ⟨S262144x256, .f32⟩) main_v123) (TRef.of (T := ⟨S262144x256, .f32⟩) main_call5_v0) (TRef.of (T := ⟨S262144x256, .f32⟩) main_v124) maximumf,
    unary main_arg14 main_v125 ((transpose S256x256 [1, 0] · transposes_S256x256_S256x256_1_0) : (⟨S256x256, .f32⟩ : BufTy).Contents (Elt F) → (⟨S256x256, .f32⟩ : BufTy).Contents (Elt F)),
    binary main_v124 main_v125 main_v126 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg15 main_v127 (broadcastInDim S1x256 ![1] bcast_S256_S1x256_1 : (⟨S256, .f32⟩ : BufTy).Contents (Elt F) → (⟨S1x256, .f32⟩ : BufTy).Contents (Elt F)),
    unary main_v127 main_v128 (broadcastInDim S262144x256 ![0, 1] bcast_S1x256_S262144x256_0_1 : (⟨S1x256, .f32⟩ : BufTy).Contents (Elt F) → (⟨S262144x256, .f32⟩ : BufTy).Contents (Elt F)),
    binary main_v126 main_v128 main_v129 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S262144x256, .f32⟩) main_call6_v0) (broadcastInDim S262144x256 ![] bcast_S_S262144x256),
    TRef.binary (TRef.of (T := ⟨S262144x256, .f32⟩) main_v129) (TRef.of (T := ⟨S262144x256, .f32⟩) main_call6_v0) (TRef.of (T := ⟨S262144x256, .f32⟩) main_v130) maximumf,
    unary main_arg16 main_v131 ((transpose S256x256 [1, 0] · transposes_S256x256_S256x256_1_0) : (⟨S256x256, .f32⟩ : BufTy).Contents (Elt F) → (⟨S256x256, .f32⟩ : BufTy).Contents (Elt F)),
    binary main_v130 main_v131 main_v132 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg17 main_v133 (broadcastInDim S1x256 ![1] bcast_S256_S1x256_1 : (⟨S256, .f32⟩ : BufTy).Contents (Elt F) → (⟨S1x256, .f32⟩ : BufTy).Contents (Elt F)),
    unary main_v133 main_v134 (broadcastInDim S262144x256 ![0, 1] bcast_S1x256_S262144x256_0_1 : (⟨S1x256, .f32⟩ : BufTy).Contents (Elt F) → (⟨S262144x256, .f32⟩ : BufTy).Contents (Elt F)),
    binary main_v132 main_v134 main_v135 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x256, .f32⟩) main_call7_v0) (broadcastInDim S262144x256 ![] bcast_S_S262144x256),
    TRef.binary (TRef.of (T := ⟨S262144x256, .f32⟩) main_v135) (TRef.of (T := ⟨S262144x256, .f32⟩) main_call7_v0) (TRef.of (T := ⟨S262144x256, .f32⟩) main_v136) maximumf,
    unary main_arg18 main_v137 ((transpose S256x1 [1, 0] · transposes_S1x256_S256x1_1_0) : (⟨S1x256, .f32⟩ : BufTy).Contents (Elt F) → (⟨S256x1, .f32⟩ : BufTy).Contents (Elt F)),
    binary main_v136 main_v137 main_v138 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    unary main_arg19 main_v139 (broadcastInDim S1x1 ![1] bcast_S1_S1x1_1 : (⟨S1, .f32⟩ : BufTy).Contents (Elt F) → (⟨S1x1, .f32⟩ : BufTy).Contents (Elt F)),
    unary main_v139 main_v140 (broadcastInDim S262144x1 ![0, 1] bcast_S1x1_S262144x1_0_1 : (⟨S1x1, .f32⟩ : BufTy).Contents (Elt F) → (⟨S262144x1, .f32⟩ : BufTy).Contents (Elt F)),
    binary main_v138 main_v140 main_v141 (addf : (⟨S262144x1, .f32⟩ : BufTy).Contents (Elt F) → (⟨S262144x1, .f32⟩ : BufTy).Contents (Elt F) → (⟨S262144x1, .f32⟩ : BufTy).Contents (Elt F)),
    unary main_arg20 main_v142 ((transpose S256x256 [1, 0] · transposes_S256x256_S256x256_1_0) : (⟨S256x256, .f32⟩ : BufTy).Contents (Elt F) → (⟨S256x256, .f32⟩ : BufTy).Contents (Elt F)),
    binary main_v136 main_v142 main_v143 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg21 main_v144 (broadcastInDim S1x256 ![1] bcast_S256_S1x256_1 : (⟨S256, .f32⟩ : BufTy).Contents (Elt F) → (⟨S1x256, .f32⟩ : BufTy).Contents (Elt F)),
    unary main_v144 main_v145 (broadcastInDim S262144x256 ![0, 1] bcast_S1x256_S262144x256_0_1 : (⟨S1x256, .f32⟩ : BufTy).Contents (Elt F) → (⟨S262144x256, .f32⟩ : BufTy).Contents (Elt F)),
    binary main_v143 main_v145 main_v146 (addf : (⟨S262144x256, .f32⟩ : BufTy).Contents (Elt F) → (⟨S262144x256, .f32⟩ : BufTy).Contents (Elt F) → (⟨S262144x256, .f32⟩ : BufTy).Contents (Elt F)),
    binary main_v146 main_v87 main_v147 ((fun a b => concatenate S262144x283 1 [⟨S262144x256, a⟩, ⟨S262144x27, b⟩] concatenates_S262144x256_S262144x27_S262144x283_d1) : (⟨S262144x256, .f32⟩ : BufTy).Contents (Elt F) → (⟨S262144x27, .f32⟩ : BufTy).Contents (Elt F) → (⟨S262144x283, .f32⟩ : BufTy).Contents (Elt F)),
    unary main_arg22 main_v148 ((transpose S283x128 [1, 0] · transposes_S128x283_S283x128_1_0) : (⟨S128x283, .f32⟩ : BufTy).Contents (Elt F) → (⟨S283x128, .f32⟩ : BufTy).Contents (Elt F)),
    binary main_v147 main_v148 main_v149 ((fun l r => Host.dotGeneral dot_S262144x283_S283x128_S262144x128_1_0_0_1_n_n none l r) : (⟨S262144x283, .f32⟩ : BufTy).Contents (Elt F) → (⟨S283x128, .f32⟩ : BufTy).Contents (Elt F) → (⟨S262144x128, .f32⟩ : BufTy).Contents (Elt F)),
    unary main_arg23 main_v150 (broadcastInDim S1x128 ![1] bcast_S128_S1x128_1 : (⟨S128, .f32⟩ : BufTy).Contents (Elt F) → (⟨S1x128, .f32⟩ : BufTy).Contents (Elt F)),
    unary main_v150 main_v151 (broadcastInDim S262144x128 ![0, 1] bcast_S1x128_S262144x128_0_1 : (⟨S1x128, .f32⟩ : BufTy).Contents (Elt F) → (⟨S262144x128, .f32⟩ : BufTy).Contents (Elt F)),
    binary main_v149 main_v151 main_v152 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S262144x128, .f32⟩) main_call8_v0) (broadcastInDim S262144x128 ![] bcast_S_S262144x128),
    TRef.binary (TRef.of (T := ⟨S262144x128, .f32⟩) main_v152) (TRef.of (T := ⟨S262144x128, .f32⟩) main_call8_v0) (TRef.of (T := ⟨S262144x128, .f32⟩) main_v153) maximumf,
    unary main_arg24 main_v154 ((transpose S128x3 [1, 0] · transposes_S3x128_S128x3_1_0) : (⟨S3x128, .f32⟩ : BufTy).Contents (Elt F) → (⟨S128x3, .f32⟩ : BufTy).Contents (Elt F)),
    binary main_v153 main_v154 main_v155 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F)),
    unary main_arg25 main_v156 (broadcastInDim S1x3 ![1] bcast_S3_S1x3_1 : (⟨S3, .f32⟩ : BufTy).Contents (Elt F) → (⟨S1x3, .f32⟩ : BufTy).Contents (Elt F)),
    unary main_v156 main_v157 (broadcastInDim S262144x3 ![0, 1] bcast_S1x3_S262144x3_0_1 : (⟨S1x3, .f32⟩ : BufTy).Contents (Elt F) → (⟨S262144x3, .f32⟩ : BufTy).Contents (Elt F)),
    binary main_v155 main_v157 main_v158 (addf : (⟨S262144x3, .f32⟩ : BufTy).Contents (Elt F) → (⟨S262144x3, .f32⟩ : BufTy).Contents (Elt F) → (⟨S262144x3, .f32⟩ : BufTy).Contents (Elt F)),
    binary main_v158 main_v141 main_v159 ((fun a b => concatenate S262144x4 1 [⟨S262144x3, a⟩, ⟨S262144x1, b⟩] concatenates_S262144x3_S262144x1_S262144x4_d1) : (⟨S262144x3, .f32⟩ : BufTy).Contents (Elt F) → (⟨S262144x1, .f32⟩ : BufTy).Contents (Elt F) → (⟨S262144x4, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nary_bufs_sub .., nary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub ..⟩

set_option maxRecDepth 8192 in
/-- `main_v159`'s composed term of the arguments (named: it is long). -/
def res_main_v159 (m : (ℓ : Loc nD τ sig) → Buf (Elt F) ℓ) (c : Dev nD) : Buf (Elt F) ((c.tc : Thread nD τ).loc main_v159) :=
  concatenate S262144x4 1 [⟨S262144x3, (addf (Host.dotGeneral dot_S262144x128_S128x3_S262144x3_1_0_0_1_n_n none (maximumf (addf (Host.dotGeneral dot_S262144x283_S283x128_S262144x128_1_0_0_1_n_n none (concatenate S262144x283 1 [⟨S262144x256, (addf (Host.dotGeneral dot_S262144x256_S256x256_S262144x256_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x319_S319x256_S262144x256_1_0_0_1_n_n none (concatenate S262144x319 1 [⟨S262144x63, (concatenate S262144x63 1 [⟨S262144x48, (concatenate S262144x48 1 [⟨S262144x3, (m ((c.tc : Thread nD τ).loc main_arg0))⟩, ⟨S262144x3, (Host.sin (mulf (broadcastInDim S262144x3 ![] bcast_S_S262144x3 (constant S_ .f32 0x3F800000#32)) (m ((c.tc : Thread nD τ).loc main_arg0))))⟩, ⟨S262144x3, (Host.cos (mulf (broadcastInDim S262144x3 ![] bcast_S_S262144x3 (constant S_ .f32 0x3F800000#32)) (m ((c.tc : Thread nD τ).loc main_arg0))))⟩, ⟨S262144x3, (Host.sin (mulf (broadcastInDim S262144x3 ![] bcast_S_S262144x3 (constant S_ .f32 0x40000000#32)) (m ((c.tc : Thread nD τ).loc main_arg0))))⟩, ⟨S262144x3, (Host.cos (mulf (broadcastInDim S262144x3 ![] bcast_S_S262144x3 (constant S_ .f32 0x40000000#32)) (m ((c.tc : Thread nD τ).loc main_arg0))))⟩, ⟨S262144x3, (Host.sin (mulf (broadcastInDim S262144x3 ![] bcast_S_S262144x3 (constant S_ .f32 0x40800000#32)) (m ((c.tc : Thread nD τ).loc main_arg0))))⟩, ⟨S262144x3, (Host.cos (mulf (broadcastInDim S262144x3 ![] bcast_S_S262144x3 (constant S_ .f32 0x40800000#32)) (m ((c.tc : Thread nD τ).loc main_arg0))))⟩, ⟨S262144x3, (Host.sin (mulf (broadcastInDim S262144x3 ![] bcast_S_S262144x3 (constant S_ .f32 0x41000000#32)) (m ((c.tc : Thread nD τ).loc main_arg0))))⟩, ⟨S262144x3, (Host.cos (mulf (broadcastInDim S262144x3 ![] bcast_S_S262144x3 (constant S_ .f32 0x41000000#32)) (m ((c.tc : Thread nD τ).loc main_arg0))))⟩, ⟨S262144x3, (Host.sin (mulf (broadcastInDim S262144x3 ![] bcast_S_S262144x3 (constant S_ .f32 0x41800000#32)) (m ((c.tc : Thread nD τ).loc main_arg0))))⟩, ⟨S262144x3, (Host.cos (mulf (broadcastInDim S262144x3 ![] bcast_S_S262144x3 (constant S_ .f32 0x41800000#32)) (m ((c.tc : Thread nD τ).loc main_arg0))))⟩, ⟨S262144x3, (Host.sin (mulf (broadcastInDim S262144x3 ![] bcast_S_S262144x3 (constant S_ .f32 0x42000000#32)) (m ((c.tc : Thread nD τ).loc main_arg0))))⟩, ⟨S262144x3, (Host.cos (mulf (broadcastInDim S262144x3 ![] bcast_S_S262144x3 (constant S_ .f32 0x42000000#32)) (m ((c.tc : Thread nD τ).loc main_arg0))))⟩, ⟨S262144x3, (Host.sin (mulf (broadcastInDim S262144x3 ![] bcast_S_S262144x3 (constant S_ .f32 0x42800000#32)) (m ((c.tc : Thread nD τ).loc main_arg0))))⟩, ⟨S262144x3, (Host.cos (mulf (broadcastInDim S262144x3 ![] bcast_S_S262144x3 (constant S_ .f32 0x42800000#32)) (m ((c.tc : Thread nD τ).loc main_arg0))))⟩, ⟨S262144x3, (Host.sin (mulf (broadcastInDim S262144x3 ![] bcast_S_S262144x3 (constant S_ .f32 0x43000000#32)) (m ((c.tc : Thread nD τ).loc main_arg0))))⟩] concatenates_S262144x3_S262144x3_S262144x3_S262144x3_S262144x3_S262144x3_S262144x3_S262144x3_S262144x3_S262144x3_S262144x3_S262144x3_S262144x3_S262144x3_S262144x3_S262144x3_S262144x48_d1)⟩, ⟨S262144x15, (concatenate S262144x15 1 [⟨S262144x3, (Host.cos (mulf (broadcastInDim S262144x3 ![] bcast_S_S262144x3 (constant S_ .f32 0x43000000#32)) (m ((c.tc : Thread nD τ).loc main_arg0))))⟩, ⟨S262144x3, (Host.sin (mulf (broadcastInDim S262144x3 ![] bcast_S_S262144x3 (constant S_ .f32 0x43800000#32)) (m ((c.tc : Thread nD τ).loc main_arg0))))⟩, ⟨S262144x3, (Host.cos (mulf (broadcastInDim S262144x3 ![] bcast_S_S262144x3 (constant S_ .f32 0x43800000#32)) (m ((c.tc : Thread nD τ).loc main_arg0))))⟩, ⟨S262144x3, (Host.sin (mulf (broadcastInDim S262144x3 ![] bcast_S_S262144x3 (constant S_ .f32 0x44000000#32)) (m ((c.tc : Thread nD τ).loc main_arg0))))⟩, ⟨S262144x3, (Host.cos (mulf (broadcastInDim S262144x3 ![] bcast_S_S262144x3 (constant S_ .f32 0x44000000#32)) (m ((c.tc : Thread nD τ).loc main_arg0))))⟩] concatenates_S262144x3_S262144x3_S262144x3_S262144x3_S262144x3_S262144x15_d1)⟩] concatenates_S262144x48_S262144x15_S262144x63_d1)⟩, ⟨S262144x256, (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x63_S63x256_S262144x256_1_0_0_1_n_n none (concatenate S262144x63 1 [⟨S262144x48, (concatenate S262144x48 1 [⟨S262144x3, (m ((c.tc : Thread nD τ).loc main_arg0))⟩, ⟨S262144x3, (Host.sin (mulf (broadcastInDim S262144x3 ![] bcast_S_S262144x3 (constant S_ .f32 0x3F800000#32)) (m ((c.tc : Thread nD τ).loc main_arg0))))⟩, ⟨S262144x3, (Host.cos (mulf (broadcastInDim S262144x3 ![] bcast_S_S262144x3 (constant S_ .f32 0x3F800000#32)) (m ((c.tc : Thread nD τ).loc main_arg0))))⟩, ⟨S262144x3, (Host.sin (mulf (broadcastInDim S262144x3 ![] bcast_S_S262144x3 (constant S_ .f32 0x40000000#32)) (m ((c.tc : Thread nD τ).loc main_arg0))))⟩, ⟨S262144x3, (Host.cos (mulf (broadcastInDim S262144x3 ![] bcast_S_S262144x3 (constant S_ .f32 0x40000000#32)) (m ((c.tc : Thread nD τ).loc main_arg0))))⟩, ⟨S262144x3, (Host.sin (mulf (broadcastInDim S262144x3 ![] bcast_S_S262144x3 (constant S_ .f32 0x40800000#32)) (m ((c.tc : Thread nD τ).loc main_arg0))))⟩, ⟨S262144x3, (Host.cos (mulf (broadcastInDim S262144x3 ![] bcast_S_S262144x3 (constant S_ .f32 0x40800000#32)) (m ((c.tc : Thread nD τ).loc main_arg0))))⟩, ⟨S262144x3, (Host.sin (mulf (broadcastInDim S262144x3 ![] bcast_S_S262144x3 (constant S_ .f32 0x41000000#32)) (m ((c.tc : Thread nD τ).loc main_arg0))))⟩, ⟨S262144x3, (Host.cos (mulf (broadcastInDim S262144x3 ![] bcast_S_S262144x3 (constant S_ .f32 0x41000000#32)) (m ((c.tc : Thread nD τ).loc main_arg0))))⟩, ⟨S262144x3, (Host.sin (mulf (broadcastInDim S262144x3 ![] bcast_S_S262144x3 (constant S_ .f32 0x41800000#32)) (m ((c.tc : Thread nD τ).loc main_arg0))))⟩, ⟨S262144x3, (Host.cos (mulf (broadcastInDim S262144x3 ![] bcast_S_S262144x3 (constant S_ .f32 0x41800000#32)) (m ((c.tc : Thread nD τ).loc main_arg0))))⟩, ⟨S262144x3, (Host.sin (mulf (broadcastInDim S262144x3 ![] bcast_S_S262144x3 (constant S_ .f32 0x42000000#32)) (m ((c.tc : Thread nD τ).loc main_arg0))))⟩, ⟨S262144x3, (Host.cos (mulf (broadcastInDim S262144x3 ![] bcast_S_S262144x3 (constant S_ .f32 0x42000000#32)) (m ((c.tc : Thread nD τ).loc main_arg0))))⟩, ⟨S262144x3, (Host.sin (mulf (broadcastInDim S262144x3 ![] bcast_S_S262144x3 (constant S_ .f32 0x42800000#32)) (m ((c.tc : Thread nD τ).loc main_arg0))))⟩, ⟨S262144x3, (Host.cos (mulf (broadcastInDim S262144x3 ![] bcast_S_S262144x3 (constant S_ .f32 0x42800000#32)) (m ((c.tc : Thread nD τ).loc main_arg0))))⟩, ⟨S262144x3, (Host.sin (mulf (broadcastInDim S262144x3 ![] bcast_S_S262144x3 (constant S_ .f32 0x43000000#32)) (m ((c.tc : Thread nD τ).loc main_arg0))))⟩] concatenates_S262144x3_S262144x3_S262144x3_S262144x3_S262144x3_S262144x3_S262144x3_S262144x3_S262144x3_S262144x3_S262144x3_S262144x3_S262144x3_S262144x3_S262144x3_S262144x3_S262144x48_d1)⟩, ⟨S262144x15, (concatenate S262144x15 1 [⟨S262144x3, (Host.cos (mulf (broadcastInDim S262144x3 ![] bcast_S_S262144x3 (constant S_ .f32 0x43000000#32)) (m ((c.tc : Thread nD τ).loc main_arg0))))⟩, ⟨S262144x3, (Host.sin (mulf (broadcastInDim S262144x3 ![] bcast_S_S262144x3 (constant S_ .f32 0x43800000#32)) (m ((c.tc : Thread nD τ).loc main_arg0))))⟩, ⟨S262144x3, (Host.cos (mulf (broadcastInDim S262144x3 ![] bcast_S_S262144x3 (constant S_ .f32 0x43800000#32)) (m ((c.tc : Thread nD τ).loc main_arg0))))⟩, ⟨S262144x3, (Host.sin (mulf (broadcastInDim S262144x3 ![] bcast_S_S262144x3 (constant S_ .f32 0x44000000#32)) (m ((c.tc : Thread nD τ).loc main_arg0))))⟩, ⟨S262144x3, (Host.cos (mulf (broadcastInDim S262144x3 ![] bcast_S_S262144x3 (constant S_ .f32 0x44000000#32)) (m ((c.tc : Thread nD τ).loc main_arg0))))⟩] concatenates_S262144x3_S262144x3_S262144x3_S262144x3_S262144x3_S262144x15_d1)⟩] concatenates_S262144x48_S262144x15_S262144x63_d1) (transpose S63x256 [1, 0] (m ((c.tc : Thread nD τ).loc main_arg2)) transposes_S256x63_S63x256_1_0)) (broadcastInDim S262144x256 ![0, 1] bcast_S1x256_S262144x256_0_1 (broadcastInDim S1x256 ![1] bcast_S256_S1x256_1 (m ((c.tc : Thread nD τ).loc main_arg3))))) (broadcastInDim S262144x256 ![] bcast_S_S262144x256 (constant S_ .f32 0x00000000#32))) (transpose S256x256 [1, 0] (m ((c.tc : Thread nD τ).loc main_arg4)) transposes_S256x256_S256x256_1_0)) (broadcastInDim S262144x256 ![0, 1] bcast_S1x256_S262144x256_0_1 (broadcastInDim S1x256 ![1] bcast_S256_S1x256_1 (m ((c.tc : Thread nD τ).loc main_arg5))))) (broadcastInDim S262144x256 ![] bcast_S_S262144x256 (constant S_ .f32 0x00000000#32))) (transpose S256x256 [1, 0] (m ((c.tc : Thread nD τ).loc main_arg6)) transposes_S256x256_S256x256_1_0)) (broadcastInDim S262144x256 ![0, 1] bcast_S1x256_S262144x256_0_1 (broadcastInDim S1x256 ![1] bcast_S256_S1x256_1 (m ((c.tc : Thread nD τ).loc main_arg7))))) (broadcastInDim S262144x256 ![] bcast_S_S262144x256 (constant S_ .f32 0x00000000#32))) (transpose S256x256 [1, 0] (m ((c.tc : Thread nD τ).loc main_arg8)) transposes_S256x256_S256x256_1_0)) (broadcastInDim S262144x256 ![0, 1] bcast_S1x256_S262144x256_0_1 (broadcastInDim S1x256 ![1] bcast_S256_S1x256_1 (m ((c.tc : Thread nD τ).loc main_arg9))))) (broadcastInDim S262144x256 ![] bcast_S_S262144x256 (constant S_ .f32 0x00000000#32))) (transpose S256x256 [1, 0] (m ((c.tc : Thread nD τ).loc main_arg10)) transposes_S256x256_S256x256_1_0)) (broadcastInDim S262144x256 ![0, 1] bcast_S1x256_S262144x256_0_1 (broadcastInDim S1x256 ![1] bcast_S256_S1x256_1 (m ((c.tc : Thread nD τ).loc main_arg11))))) (broadcastInDim S262144x256 ![] bcast_S_S262144x256 (constant S_ .f32 0x00000000#32)))⟩] concatenates_S262144x63_S262144x256_S262144x319_d1) (transpose S319x256 [1, 0] (m ((c.tc : Thread nD τ).loc main_arg12)) transposes_S256x319_S319x256_1_0)) (broadcastInDim S262144x256 ![0, 1] bcast_S1x256_S262144x256_0_1 (broadcastInDim S1x256 ![1] bcast_S256_S1x256_1 (m ((c.tc : Thread nD τ).loc main_arg13))))) (broadcastInDim S262144x256 ![] bcast_S_S262144x256 (constant S_ .f32 0x00000000#32))) (transpose S256x256 [1, 0] (m ((c.tc : Thread nD τ).loc main_arg14)) transposes_S256x256_S256x256_1_0)) (broadcastInDim S262144x256 ![0, 1] bcast_S1x256_S262144x256_0_1 (broadcastInDim S1x256 ![1] bcast_S256_S1x256_1 (m ((c.tc : Thread nD τ).loc main_arg15))))) (broadcastInDim S262144x256 ![] bcast_S_S262144x256 (constant S_ .f32 0x00000000#32))) (transpose S256x256 [1, 0] (m ((c.tc : Thread nD τ).loc main_arg16)) transposes_S256x256_S256x256_1_0)) (broadcastInDim S262144x256 ![0, 1] bcast_S1x256_S262144x256_0_1 (broadcastInDim S1x256 ![1] bcast_S256_S1x256_1 (m ((c.tc : Thread nD τ).loc main_arg17))))) (broadcastInDim S262144x256 ![] bcast_S_S262144x256 (constant S_ .f32 0x00000000#32))) (transpose S256x256 [1, 0] (m ((c.tc : Thread nD τ).loc main_arg20)) transposes_S256x256_S256x256_1_0)) (broadcastInDim S262144x256 ![0, 1] bcast_S1x256_S262144x256_0_1 (broadcastInDim S1x256 ![1] bcast_S256_S1x256_1 (m ((c.tc : Thread nD τ).loc main_arg21)))))⟩, ⟨S262144x27, (concatenate S262144x27 1 [⟨S262144x3, (m ((c.tc : Thread nD τ).loc main_arg1))⟩, ⟨S262144x3, (Host.sin (mulf (broadcastInDim S262144x3 ![] bcast_S_S262144x3 (constant S_ .f32 0x3F800000#32)) (m ((c.tc : Thread nD τ).loc main_arg1))))⟩, ⟨S262144x3, (Host.cos (mulf (broadcastInDim S262144x3 ![] bcast_S_S262144x3 (constant S_ .f32 0x3F800000#32)) (m ((c.tc : Thread nD τ).loc main_arg1))))⟩, ⟨S262144x3, (Host.sin (mulf (broadcastInDim S262144x3 ![] bcast_S_S262144x3 (constant S_ .f32 0x40000000#32)) (m ((c.tc : Thread nD τ).loc main_arg1))))⟩, ⟨S262144x3, (Host.cos (mulf (broadcastInDim S262144x3 ![] bcast_S_S262144x3 (constant S_ .f32 0x40000000#32)) (m ((c.tc : Thread nD τ).loc main_arg1))))⟩, ⟨S262144x3, (Host.sin (mulf (broadcastInDim S262144x3 ![] bcast_S_S262144x3 (constant S_ .f32 0x40800000#32)) (m ((c.tc : Thread nD τ).loc main_arg1))))⟩, ⟨S262144x3, (Host.cos (mulf (broadcastInDim S262144x3 ![] bcast_S_S262144x3 (constant S_ .f32 0x40800000#32)) (m ((c.tc : Thread nD τ).loc main_arg1))))⟩, ⟨S262144x3, (Host.sin (mulf (broadcastInDim S262144x3 ![] bcast_S_S262144x3 (constant S_ .f32 0x41000000#32)) (m ((c.tc : Thread nD τ).loc main_arg1))))⟩, ⟨S262144x3, (Host.cos (mulf (broadcastInDim S262144x3 ![] bcast_S_S262144x3 (constant S_ .f32 0x41000000#32)) (m ((c.tc : Thread nD τ).loc main_arg1))))⟩] concatenates_S262144x3_S262144x3_S262144x3_S262144x3_S262144x3_S262144x3_S262144x3_S262144x3_S262144x3_S262144x27_d1)⟩] concatenates_S262144x256_S262144x27_S262144x283_d1) (transpose S283x128 [1, 0] (m ((c.tc : Thread nD τ).loc main_arg22)) transposes_S128x283_S283x128_1_0)) (broadcastInDim S262144x128 ![0, 1] bcast_S1x128_S262144x128_0_1 (broadcastInDim S1x128 ![1] bcast_S128_S1x128_1 (m ((c.tc : Thread nD τ).loc main_arg23))))) (broadcastInDim S262144x128 ![] bcast_S_S262144x128 (constant S_ .f32 0x00000000#32))) (transpose S128x3 [1, 0] (m ((c.tc : Thread nD τ).loc main_arg24)) transposes_S3x128_S128x3_1_0)) (broadcastInDim S262144x3 ![0, 1] bcast_S1x3_S262144x3_0_1 (broadcastInDim S1x3 ![1] bcast_S3_S1x3_1 (m ((c.tc : Thread nD τ).loc main_arg25)))))⟩, ⟨S262144x1, (addf (Host.dotGeneral dot_S262144x256_S256x1_S262144x1_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x319_S319x256_S262144x256_1_0_0_1_n_n none (concatenate S262144x319 1 [⟨S262144x63, (concatenate S262144x63 1 [⟨S262144x48, (concatenate S262144x48 1 [⟨S262144x3, (m ((c.tc : Thread nD τ).loc main_arg0))⟩, ⟨S262144x3, (Host.sin (mulf (broadcastInDim S262144x3 ![] bcast_S_S262144x3 (constant S_ .f32 0x3F800000#32)) (m ((c.tc : Thread nD τ).loc main_arg0))))⟩, ⟨S262144x3, (Host.cos (mulf (broadcastInDim S262144x3 ![] bcast_S_S262144x3 (constant S_ .f32 0x3F800000#32)) (m ((c.tc : Thread nD τ).loc main_arg0))))⟩, ⟨S262144x3, (Host.sin (mulf (broadcastInDim S262144x3 ![] bcast_S_S262144x3 (constant S_ .f32 0x40000000#32)) (m ((c.tc : Thread nD τ).loc main_arg0))))⟩, ⟨S262144x3, (Host.cos (mulf (broadcastInDim S262144x3 ![] bcast_S_S262144x3 (constant S_ .f32 0x40000000#32)) (m ((c.tc : Thread nD τ).loc main_arg0))))⟩, ⟨S262144x3, (Host.sin (mulf (broadcastInDim S262144x3 ![] bcast_S_S262144x3 (constant S_ .f32 0x40800000#32)) (m ((c.tc : Thread nD τ).loc main_arg0))))⟩, ⟨S262144x3, (Host.cos (mulf (broadcastInDim S262144x3 ![] bcast_S_S262144x3 (constant S_ .f32 0x40800000#32)) (m ((c.tc : Thread nD τ).loc main_arg0))))⟩, ⟨S262144x3, (Host.sin (mulf (broadcastInDim S262144x3 ![] bcast_S_S262144x3 (constant S_ .f32 0x41000000#32)) (m ((c.tc : Thread nD τ).loc main_arg0))))⟩, ⟨S262144x3, (Host.cos (mulf (broadcastInDim S262144x3 ![] bcast_S_S262144x3 (constant S_ .f32 0x41000000#32)) (m ((c.tc : Thread nD τ).loc main_arg0))))⟩, ⟨S262144x3, (Host.sin (mulf (broadcastInDim S262144x3 ![] bcast_S_S262144x3 (constant S_ .f32 0x41800000#32)) (m ((c.tc : Thread nD τ).loc main_arg0))))⟩, ⟨S262144x3, (Host.cos (mulf (broadcastInDim S262144x3 ![] bcast_S_S262144x3 (constant S_ .f32 0x41800000#32)) (m ((c.tc : Thread nD τ).loc main_arg0))))⟩, ⟨S262144x3, (Host.sin (mulf (broadcastInDim S262144x3 ![] bcast_S_S262144x3 (constant S_ .f32 0x42000000#32)) (m ((c.tc : Thread nD τ).loc main_arg0))))⟩, ⟨S262144x3, (Host.cos (mulf (broadcastInDim S262144x3 ![] bcast_S_S262144x3 (constant S_ .f32 0x42000000#32)) (m ((c.tc : Thread nD τ).loc main_arg0))))⟩, ⟨S262144x3, (Host.sin (mulf (broadcastInDim S262144x3 ![] bcast_S_S262144x3 (constant S_ .f32 0x42800000#32)) (m ((c.tc : Thread nD τ).loc main_arg0))))⟩, ⟨S262144x3, (Host.cos (mulf (broadcastInDim S262144x3 ![] bcast_S_S262144x3 (constant S_ .f32 0x42800000#32)) (m ((c.tc : Thread nD τ).loc main_arg0))))⟩, ⟨S262144x3, (Host.sin (mulf (broadcastInDim S262144x3 ![] bcast_S_S262144x3 (constant S_ .f32 0x43000000#32)) (m ((c.tc : Thread nD τ).loc main_arg0))))⟩] concatenates_S262144x3_S262144x3_S262144x3_S262144x3_S262144x3_S262144x3_S262144x3_S262144x3_S262144x3_S262144x3_S262144x3_S262144x3_S262144x3_S262144x3_S262144x3_S262144x3_S262144x48_d1)⟩, ⟨S262144x15, (concatenate S262144x15 1 [⟨S262144x3, (Host.cos (mulf (broadcastInDim S262144x3 ![] bcast_S_S262144x3 (constant S_ .f32 0x43000000#32)) (m ((c.tc : Thread nD τ).loc main_arg0))))⟩, ⟨S262144x3, (Host.sin (mulf (broadcastInDim S262144x3 ![] bcast_S_S262144x3 (constant S_ .f32 0x43800000#32)) (m ((c.tc : Thread nD τ).loc main_arg0))))⟩, ⟨S262144x3, (Host.cos (mulf (broadcastInDim S262144x3 ![] bcast_S_S262144x3 (constant S_ .f32 0x43800000#32)) (m ((c.tc : Thread nD τ).loc main_arg0))))⟩, ⟨S262144x3, (Host.sin (mulf (broadcastInDim S262144x3 ![] bcast_S_S262144x3 (constant S_ .f32 0x44000000#32)) (m ((c.tc : Thread nD τ).loc main_arg0))))⟩, ⟨S262144x3, (Host.cos (mulf (broadcastInDim S262144x3 ![] bcast_S_S262144x3 (constant S_ .f32 0x44000000#32)) (m ((c.tc : Thread nD τ).loc main_arg0))))⟩] concatenates_S262144x3_S262144x3_S262144x3_S262144x3_S262144x3_S262144x15_d1)⟩] concatenates_S262144x48_S262144x15_S262144x63_d1)⟩, ⟨S262144x256, (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x256_S256x256_S262144x256_1_0_0_1_n_n none (maximumf (addf (Host.dotGeneral dot_S262144x63_S63x256_S262144x256_1_0_0_1_n_n none (concatenate S262144x63 1 [⟨S262144x48, (concatenate S262144x48 1 [⟨S262144x3, (m ((c.tc : Thread nD τ).loc main_arg0))⟩, ⟨S262144x3, (Host.sin (mulf (broadcastInDim S262144x3 ![] bcast_S_S262144x3 (constant S_ .f32 0x3F800000#32)) (m ((c.tc : Thread nD τ).loc main_arg0))))⟩, ⟨S262144x3, (Host.cos (mulf (broadcastInDim S262144x3 ![] bcast_S_S262144x3 (constant S_ .f32 0x3F800000#32)) (m ((c.tc : Thread nD τ).loc main_arg0))))⟩, ⟨S262144x3, (Host.sin (mulf (broadcastInDim S262144x3 ![] bcast_S_S262144x3 (constant S_ .f32 0x40000000#32)) (m ((c.tc : Thread nD τ).loc main_arg0))))⟩, ⟨S262144x3, (Host.cos (mulf (broadcastInDim S262144x3 ![] bcast_S_S262144x3 (constant S_ .f32 0x40000000#32)) (m ((c.tc : Thread nD τ).loc main_arg0))))⟩, ⟨S262144x3, (Host.sin (mulf (broadcastInDim S262144x3 ![] bcast_S_S262144x3 (constant S_ .f32 0x40800000#32)) (m ((c.tc : Thread nD τ).loc main_arg0))))⟩, ⟨S262144x3, (Host.cos (mulf (broadcastInDim S262144x3 ![] bcast_S_S262144x3 (constant S_ .f32 0x40800000#32)) (m ((c.tc : Thread nD τ).loc main_arg0))))⟩, ⟨S262144x3, (Host.sin (mulf (broadcastInDim S262144x3 ![] bcast_S_S262144x3 (constant S_ .f32 0x41000000#32)) (m ((c.tc : Thread nD τ).loc main_arg0))))⟩, ⟨S262144x3, (Host.cos (mulf (broadcastInDim S262144x3 ![] bcast_S_S262144x3 (constant S_ .f32 0x41000000#32)) (m ((c.tc : Thread nD τ).loc main_arg0))))⟩, ⟨S262144x3, (Host.sin (mulf (broadcastInDim S262144x3 ![] bcast_S_S262144x3 (constant S_ .f32 0x41800000#32)) (m ((c.tc : Thread nD τ).loc main_arg0))))⟩, ⟨S262144x3, (Host.cos (mulf (broadcastInDim S262144x3 ![] bcast_S_S262144x3 (constant S_ .f32 0x41800000#32)) (m ((c.tc : Thread nD τ).loc main_arg0))))⟩, ⟨S262144x3, (Host.sin (mulf (broadcastInDim S262144x3 ![] bcast_S_S262144x3 (constant S_ .f32 0x42000000#32)) (m ((c.tc : Thread nD τ).loc main_arg0))))⟩, ⟨S262144x3, (Host.cos (mulf (broadcastInDim S262144x3 ![] bcast_S_S262144x3 (constant S_ .f32 0x42000000#32)) (m ((c.tc : Thread nD τ).loc main_arg0))))⟩, ⟨S262144x3, (Host.sin (mulf (broadcastInDim S262144x3 ![] bcast_S_S262144x3 (constant S_ .f32 0x42800000#32)) (m ((c.tc : Thread nD τ).loc main_arg0))))⟩, ⟨S262144x3, (Host.cos (mulf (broadcastInDim S262144x3 ![] bcast_S_S262144x3 (constant S_ .f32 0x42800000#32)) (m ((c.tc : Thread nD τ).loc main_arg0))))⟩, ⟨S262144x3, (Host.sin (mulf (broadcastInDim S262144x3 ![] bcast_S_S262144x3 (constant S_ .f32 0x43000000#32)) (m ((c.tc : Thread nD τ).loc main_arg0))))⟩] concatenates_S262144x3_S262144x3_S262144x3_S262144x3_S262144x3_S262144x3_S262144x3_S262144x3_S262144x3_S262144x3_S262144x3_S262144x3_S262144x3_S262144x3_S262144x3_S262144x3_S262144x48_d1)⟩, ⟨S262144x15, (concatenate S262144x15 1 [⟨S262144x3, (Host.cos (mulf (broadcastInDim S262144x3 ![] bcast_S_S262144x3 (constant S_ .f32 0x43000000#32)) (m ((c.tc : Thread nD τ).loc main_arg0))))⟩, ⟨S262144x3, (Host.sin (mulf (broadcastInDim S262144x3 ![] bcast_S_S262144x3 (constant S_ .f32 0x43800000#32)) (m ((c.tc : Thread nD τ).loc main_arg0))))⟩, ⟨S262144x3, (Host.cos (mulf (broadcastInDim S262144x3 ![] bcast_S_S262144x3 (constant S_ .f32 0x43800000#32)) (m ((c.tc : Thread nD τ).loc main_arg0))))⟩, ⟨S262144x3, (Host.sin (mulf (broadcastInDim S262144x3 ![] bcast_S_S262144x3 (constant S_ .f32 0x44000000#32)) (m ((c.tc : Thread nD τ).loc main_arg0))))⟩, ⟨S262144x3, (Host.cos (mulf (broadcastInDim S262144x3 ![] bcast_S_S262144x3 (constant S_ .f32 0x44000000#32)) (m ((c.tc : Thread nD τ).loc main_arg0))))⟩] concatenates_S262144x3_S262144x3_S262144x3_S262144x3_S262144x3_S262144x15_d1)⟩] concatenates_S262144x48_S262144x15_S262144x63_d1) (transpose S63x256 [1, 0] (m ((c.tc : Thread nD τ).loc main_arg2)) transposes_S256x63_S63x256_1_0)) (broadcastInDim S262144x256 ![0, 1] bcast_S1x256_S262144x256_0_1 (broadcastInDim S1x256 ![1] bcast_S256_S1x256_1 (m ((c.tc : Thread nD τ).loc main_arg3))))) (broadcastInDim S262144x256 ![] bcast_S_S262144x256 (constant S_ .f32 0x00000000#32))) (transpose S256x256 [1, 0] (m ((c.tc : Thread nD τ).loc main_arg4)) transposes_S256x256_S256x256_1_0)) (broadcastInDim S262144x256 ![0, 1] bcast_S1x256_S262144x256_0_1 (broadcastInDim S1x256 ![1] bcast_S256_S1x256_1 (m ((c.tc : Thread nD τ).loc main_arg5))))) (broadcastInDim S262144x256 ![] bcast_S_S262144x256 (constant S_ .f32 0x00000000#32))) (transpose S256x256 [1, 0] (m ((c.tc : Thread nD τ).loc main_arg6)) transposes_S256x256_S256x256_1_0)) (broadcastInDim S262144x256 ![0, 1] bcast_S1x256_S262144x256_0_1 (broadcastInDim S1x256 ![1] bcast_S256_S1x256_1 (m ((c.tc : Thread nD τ).loc main_arg7))))) (broadcastInDim S262144x256 ![] bcast_S_S262144x256 (constant S_ .f32 0x00000000#32))) (transpose S256x256 [1, 0] (m ((c.tc : Thread nD τ).loc main_arg8)) transposes_S256x256_S256x256_1_0)) (broadcastInDim S262144x256 ![0, 1] bcast_S1x256_S262144x256_0_1 (broadcastInDim S1x256 ![1] bcast_S256_S1x256_1 (m ((c.tc : Thread nD τ).loc main_arg9))))) (broadcastInDim S262144x256 ![] bcast_S_S262144x256 (constant S_ .f32 0x00000000#32))) (transpose S256x256 [1, 0] (m ((c.tc : Thread nD τ).loc main_arg10)) transposes_S256x256_S256x256_1_0)) (broadcastInDim S262144x256 ![0, 1] bcast_S1x256_S262144x256_0_1 (broadcastInDim S1x256 ![1] bcast_S256_S1x256_1 (m ((c.tc : Thread nD τ).loc main_arg11))))) (broadcastInDim S262144x256 ![] bcast_S_S262144x256 (constant S_ .f32 0x00000000#32)))⟩] concatenates_S262144x63_S262144x256_S262144x319_d1) (transpose S319x256 [1, 0] (m ((c.tc : Thread nD τ).loc main_arg12)) transposes_S256x319_S319x256_1_0)) (broadcastInDim S262144x256 ![0, 1] bcast_S1x256_S262144x256_0_1 (broadcastInDim S1x256 ![1] bcast_S256_S1x256_1 (m ((c.tc : Thread nD τ).loc main_arg13))))) (broadcastInDim S262144x256 ![] bcast_S_S262144x256 (constant S_ .f32 0x00000000#32))) (transpose S256x256 [1, 0] (m ((c.tc : Thread nD τ).loc main_arg14)) transposes_S256x256_S256x256_1_0)) (broadcastInDim S262144x256 ![0, 1] bcast_S1x256_S262144x256_0_1 (broadcastInDim S1x256 ![1] bcast_S256_S1x256_1 (m ((c.tc : Thread nD τ).loc main_arg15))))) (broadcastInDim S262144x256 ![] bcast_S_S262144x256 (constant S_ .f32 0x00000000#32))) (transpose S256x256 [1, 0] (m ((c.tc : Thread nD τ).loc main_arg16)) transposes_S256x256_S256x256_1_0)) (broadcastInDim S262144x256 ![0, 1] bcast_S1x256_S262144x256_0_1 (broadcastInDim S1x256 ![1] bcast_S256_S1x256_1 (m ((c.tc : Thread nD τ).loc main_arg17))))) (broadcastInDim S262144x256 ![] bcast_S_S262144x256 (constant S_ .f32 0x00000000#32))) (transpose S256x1 [1, 0] (m ((c.tc : Thread nD τ).loc main_arg18)) transposes_S1x256_S256x1_1_0)) (broadcastInDim S262144x1 ![0, 1] bcast_S1x1_S262144x1_0_1 (broadcastInDim S1x1 ![1] bcast_S1_S1x1_1 (m ((c.tc : Thread nD τ).loc main_arg19)))))⟩] concatenates_S262144x3_S262144x1_S262144x4_d1

/-- `res_main_v159` by its position among the values @main returns, 0 counting from 0: the name for hand proofs to cite, since
    a re-print renumbers `main_v159`. An abbreviation: it unfolds to the `res_main_v159` that `run` states. -/
abbrev res_out0 (m : (ℓ : Loc nD τ sig) → Buf (Elt F) ℓ) (c : Dev nD) : Buf (Elt F) ((c.tc : Thread nD τ).loc main_v159) := res_main_v159 m c

end Cert.ReferenceIdeal.Value

end
-- ==== Proof.RefEval.lean ====
/-
  The reference program's run, read back.

  The 206 host operations are taken in two parts: the first 116 build the two positional embeddings from the
  position and direction arrays and write nothing else that is read later; the remaining 90 are the twelve
  layers, which read the two embeddings and the weight and bias arrays.  Running the whole line from a
  valuation `V` is running the second part from the valuation the first part leaves (`after_append`); the first
  part leaves the embeddings of `V`'s position and direction arrays (`embX`, `embD`) and every weight and bias
  array as it found it; the second part, from any valuation holding those embeddings, leaves the result of the
  whole network (`layers`).  Hence `eval`, and with it `run`: every weakly fair execution terminates with the
  result buffer at that value and every argument array as launched (no operation writes an argument).
-/
import proofs.«105194_j54752243090148_2_alg».proof.Proof.RefReadP
import Idealize.ShloMosaic.Lib.StableHlo.Run

noncomputable section

namespace Cert.ReferenceIdeal.Value

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The embedding part: operations 1 to 116. -/
abbrev opsA : List (HloOp τ sig (Elt F)) :=
  [ nullary main_cst (constant S_ .f32 0x3F800000#32),
    unary main_cst main_v0 (broadcastInDim S262144x3 ![] bcast_S_S262144x3 : (⟨S_, .f32⟩ : BufTy).Contents (Elt F) → (⟨S262144x3, .f32⟩ : BufTy).Contents (Elt F)),
    binary main_v0 main_arg0 main_v1 (mulf : (⟨S262144x3, .f32⟩ : BufTy).Contents (Elt F) → (⟨S262144x3, .f32⟩ : BufTy).Contents (Elt F) → (⟨S262144x3, .f32⟩ : BufTy).Contents (Elt F)),
    unary main_v1 main_v2 (Host.sin : (⟨S262144x3, .f32⟩ : BufTy).Contents (Elt F) → (⟨S262144x3, .f32⟩ : BufTy).Contents (Elt F)),
    nullary main_cst_0 (constant S_ .f32 0x3F800000#32),
    unary main_cst_0 main_v3 (broadcastInDim S262144x3 ![] bcast_S_S262144x3 : (⟨S_, .f32⟩ : BufTy).Contents (Elt F) → (⟨S262144x3, .f32⟩ : BufTy).Contents (Elt F)),
    binary main_v3 main_arg0 main_v4 (mulf : (⟨S262144x3, .f32⟩ : BufTy).Contents (Elt F) → (⟨S262144x3, .f32⟩ : BufTy).Contents (Elt F) → (⟨S262144x3, .f32⟩ : BufTy).Contents (Elt F)),
    unary main_v4 main_v5 (Host.cos : (⟨S262144x3, .f32⟩ : BufTy).Contents (Elt F) → (⟨S262144x3, .f32⟩ : BufTy).Contents (Elt F)),
    nullary main_cst_1 (constant S_ .f32 0x40000000#32),
    unary main_cst_1 main_v6 (broadcastInDim S262144x3 ![] bcast_S_S262144x3 : (⟨S_, .f32⟩ : BufTy).Contents (Elt F) → (⟨S262144x3, .f32⟩ : BufTy).Contents (Elt F)),
    binary main_v6 main_arg0 main_v7 (mulf : (⟨S262144x3, .f32⟩ : BufTy).Contents (Elt F) → (⟨S262144x3, .f32⟩ : BufTy).Contents (Elt F) → (⟨S262144x3, .f32⟩ : BufTy).Contents (Elt F)),
    unary main_v7 main_v8 (Host.sin : (⟨S262144x3, .f32⟩ : BufTy).Contents (Elt F) → (⟨S262144x3, .f32⟩ : BufTy).Contents (Elt F)),
    nullary main_cst_2 (constant S_ .f32 0x40000000#32),
    unary main_cst_2 main_v9 (broadcastInDim S262144x3 ![] bcast_S_S262144x3 : (⟨S_, .f32⟩ : BufTy).Contents (Elt F) → (⟨S262144x3, .f32⟩ : BufTy).Contents (Elt F)),
    binary main_v9 main_arg0 main_v10 (mulf : (⟨S262144x3, .f32⟩ : BufTy).Contents (Elt F) → (⟨S262144x3, .f32⟩ : BufTy).Contents (Elt F) → (⟨S262144x3, .f32⟩ : BufTy).Contents (Elt F)),
    unary main_v10 main_v11 (Host.cos : (⟨S262144x3, .f32⟩ : BufTy).Contents (Elt F) → (⟨S262144x3, .f32⟩ : BufTy).Contents (Elt F)),
    nullary main_cst_3 (constant S_ .f32 0x40800000#32),
    unary main_cst_3 main_v12 (broadcastInDim S262144x3 ![] bcast_S_S262144x3 : (⟨S_, .f32⟩ : BufTy).Contents (Elt F) → (⟨S262144x3, .f32⟩ : BufTy).Contents (Elt F)),
    binary main_v12 main_arg0 main_v13 (mulf : (⟨S262144x3, .f32⟩ : BufTy).Contents (Elt F) → (⟨S262144x3, .f32⟩ : BufTy).Contents (Elt F) → (⟨S262144x3, .f32⟩ : BufTy).Contents (Elt F)),
    unary main_v13 main_v14 (Host.sin : (⟨S262144x3, .f32⟩ : BufTy).Contents (Elt F) → (⟨S262144x3, .f32⟩ : BufTy).Contents (Elt F)),
    nullary main_cst_4 (constant S_ .f32 0x40800000#32),
    unary main_cst_4 main_v15 (broadcastInDim S262144x3 ![] bcast_S_S262144x3 : (⟨S_, .f32⟩ : BufTy).Contents (Elt F) → (⟨S262144x3, .f32⟩ : BufTy).Contents (Elt F)),
    binary main_v15 main_arg0 main_v16 (mulf : (⟨S262144x3, .f32⟩ : BufTy).Contents (Elt F) → (⟨S262144x3, .f32⟩ : BufTy).Contents (Elt F) → (⟨S262144x3, .f32⟩ : BufTy).Contents (Elt F)),
    unary main_v16 main_v17 (Host.cos : (⟨S262144x3, .f32⟩ : BufTy).Contents (Elt F) → (⟨S262144x3, .f32⟩ : BufTy).Contents (Elt F)),
    nullary main_cst_5 (constant S_ .f32 0x41000000#32),
    unary main_cst_5 main_v18 (broadcastInDim S262144x3 ![] bcast_S_S262144x3 : (⟨S_, .f32⟩ : BufTy).Contents (Elt F) → (⟨S262144x3, .f32⟩ : BufTy).Contents (Elt F)),
    binary main_v18 main_arg0 main_v19 (mulf : (⟨S262144x3, .f32⟩ : BufTy).Contents (Elt F) → (⟨S262144x3, .f32⟩ : BufTy).Contents (Elt F) → (⟨S262144x3, .f32⟩ : BufTy).Contents (Elt F)),
    unary main_v19 main_v20 (Host.sin : (⟨S262144x3, .f32⟩ : BufTy).Contents (Elt F) → (⟨S262144x3, .f32⟩ : BufTy).Contents (Elt F)),
    nullary main_cst_6 (constant S_ .f32 0x41000000#32),
    unary main_cst_6 main_v21 (broadcastInDim S262144x3 ![] bcast_S_S262144x3 : (⟨S_, .f32⟩ : BufTy).Contents (Elt F) → (⟨S262144x3, .f32⟩ : BufTy).Contents (Elt F)),
    binary main_v21 main_arg0 main_v22 (mulf : (⟨S262144x3, .f32⟩ : BufTy).Contents (Elt F) → (⟨S262144x3, .f32⟩ : BufTy).Contents (Elt F) → (⟨S262144x3, .f32⟩ : BufTy).Contents (Elt F)),
    unary main_v22 main_v23 (Host.cos : (⟨S262144x3, .f32⟩ : BufTy).Contents (Elt F) → (⟨S262144x3, .f32⟩ : BufTy).Contents (Elt F)),
    nullary main_cst_7 (constant S_ .f32 0x41800000#32),
    unary main_cst_7 main_v24 (broadcastInDim S262144x3 ![] bcast_S_S262144x3 : (⟨S_, .f32⟩ : BufTy).Contents (Elt F) → (⟨S262144x3, .f32⟩ : BufTy).Contents (Elt F)),
    binary main_v24 main_arg0 main_v25 (mulf : (⟨S262144x3, .f32⟩ : BufTy).Contents (Elt F) → (⟨S262144x3, .f32⟩ : BufTy).Contents (Elt F) → (⟨S262144x3, .f32⟩ : BufTy).Contents (Elt F)),
    unary main_v25 main_v26 (Host.sin : (⟨S262144x3, .f32⟩ : BufTy).Contents (Elt F) → (⟨S262144x3, .f32⟩ : BufTy).Contents (Elt F)),
    nullary main_cst_8 (constant S_ .f32 0x41800000#32),
    unary main_cst_8 main_v27 (broadcastInDim S262144x3 ![] bcast_S_S262144x3 : (⟨S_, .f32⟩ : BufTy).Contents (Elt F) → (⟨S262144x3, .f32⟩ : BufTy).Contents (Elt F)),
    binary main_v27 main_arg0 main_v28 (mulf : (⟨S262144x3, .f32⟩ : BufTy).Contents (Elt F) → (⟨S262144x3, .f32⟩ : BufTy).Contents (Elt F) → (⟨S262144x3, .f32⟩ : BufTy).Contents (Elt F)),
    unary main_v28 main_v29 (Host.cos : (⟨S262144x3, .f32⟩ : BufTy).Contents (Elt F) → (⟨S262144x3, .f32⟩ : BufTy).Contents (Elt F)),
    nullary main_cst_9 (constant S_ .f32 0x42000000#32),
    unary main_cst_9 main_v30 (broadcastInDim S262144x3 ![] bcast_S_S262144x3 : (⟨S_, .f32⟩ : BufTy).Contents (Elt F) → (⟨S262144x3, .f32⟩ : BufTy).Contents (Elt F)),
    binary main_v30 main_arg0 main_v31 (mulf : (⟨S262144x3, .f32⟩ : BufTy).Contents (Elt F) → (⟨S262144x3, .f32⟩ : BufTy).Contents (Elt F) → (⟨S262144x3, .f32⟩ : BufTy).Contents (Elt F)),
    unary main_v31 main_v32 (Host.sin : (⟨S262144x3, .f32⟩ : BufTy).Contents (Elt F) → (⟨S262144x3, .f32⟩ : BufTy).Contents (Elt F)),
    nullary main_cst_10 (constant S_ .f32 0x42000000#32),
    unary main_cst_10 main_v33 (broadcastInDim S262144x3 ![] bcast_S_S262144x3 : (⟨S_, .f32⟩ : BufTy).Contents (Elt F) → (⟨S262144x3, .f32⟩ : BufTy).Contents (Elt F)),
    binary main_v33 main_arg0 main_v34 (mulf : (⟨S262144x3, .f32⟩ : BufTy).Contents (Elt F) → (⟨S262144x3, .f32⟩ : BufTy).Contents (Elt F) → (⟨S262144x3, .f32⟩ : BufTy).Contents (Elt F)),
    unary main_v34 main_v35 (Host.cos : (⟨S262144x3, .f32⟩ : BufTy).Contents (Elt F) → (⟨S262144x3, .f32⟩ : BufTy).Contents (Elt F)),
    nullary main_cst_11 (constant S_ .f32 0x42800000#32),
    unary main_cst_11 main_v36 (broadcastInDim S262144x3 ![] bcast_S_S262144x3 : (⟨S_, .f32⟩ : BufTy).Contents (Elt F) → (⟨S262144x3, .f32⟩ : BufTy).Contents (Elt F)),
    binary main_v36 main_arg0 main_v37 (mulf : (⟨S262144x3, .f32⟩ : BufTy).Contents (Elt F) → (⟨S262144x3, .f32⟩ : BufTy).Contents (Elt F) → (⟨S262144x3, .f32⟩ : BufTy).Contents (Elt F)),
    unary main_v37 main_v38 (Host.sin : (⟨S262144x3, .f32⟩ : BufTy).Contents (Elt F) → (⟨S262144x3, .f32⟩ : BufTy).Contents (Elt F)),
    nullary main_cst_12 (constant S_ .f32 0x42800000#32),
    unary main_cst_12 main_v39 (broadcastInDim S262144x3 ![] bcast_S_S262144x3 : (⟨S_, .f32⟩ : BufTy).Contents (Elt F) → (⟨S262144x3, .f32⟩ : BufTy).Contents (Elt F)),
    binary main_v39 main_arg0 main_v40 (mulf : (⟨S262144x3, .f32⟩ : BufTy).Contents (Elt F) → (⟨S262144x3, .f32⟩ : BufTy).Contents (Elt F) → (⟨S262144x3, .f32⟩ : BufTy).Contents (Elt F)),
    unary main_v40 main_v41 (Host.cos : (⟨S262144x3, .f32⟩ : BufTy).Contents (Elt F) → (⟨S262144x3, .f32⟩ : BufTy).Contents (Elt F)),
    nullary main_cst_13 (constant S_ .f32 0x43000000#32),
    unary main_cst_13 main_v42 (broadcastInDim S262144x3 ![] bcast_S_S262144x3 : (⟨S_, .f32⟩ : BufTy).Contents (Elt F) → (⟨S262144x3, .f32⟩ : BufTy).Contents (Elt F)),
    binary main_v42 main_arg0 main_v43 (mulf : (⟨S262144x3, .f32⟩ : BufTy).Contents (Elt F) → (⟨S262144x3, .f32⟩ : BufTy).Contents (Elt F) → (⟨S262144x3, .f32⟩ : BufTy).Contents (Elt F)),
    unary main_v43 main_v44 (Host.sin : (⟨S262144x3, .f32⟩ : BufTy).Contents (Elt F) → (⟨S262144x3, .f32⟩ : BufTy).Contents (Elt F)),
    nullary main_cst_14 (constant S_ .f32 0x43000000#32),
    unary main_cst_14 main_v45 (broadcastInDim S262144x3 ![] bcast_S_S262144x3 : (⟨S_, .f32⟩ : BufTy).Contents (Elt F) → (⟨S262144x3, .f32⟩ : BufTy).Contents (Elt F)),
    binary main_v45 main_arg0 main_v46 (mulf : (⟨S262144x3, .f32⟩ : BufTy).Contents (Elt F) → (⟨S262144x3, .f32⟩ : BufTy).Contents (Elt F) → (⟨S262144x3, .f32⟩ : BufTy).Contents (Elt F)),
    unary main_v46 main_v47 (Host.cos : (⟨S262144x3, .f32⟩ : BufTy).Contents (Elt F) → (⟨S262144x3, .f32⟩ : BufTy).Contents (Elt F)),
    nullary main_cst_15 (constant S_ .f32 0x43800000#32),
    unary main_cst_15 main_v48 (broadcastInDim S262144x3 ![] bcast_S_S262144x3 : (⟨S_, .f32⟩ : BufTy).Contents (Elt F) → (⟨S262144x3, .f32⟩ : BufTy).Contents (Elt F)),
    binary main_v48 main_arg0 main_v49 (mulf : (⟨S262144x3, .f32⟩ : BufTy).Contents (Elt F) → (⟨S262144x3, .f32⟩ : BufTy).Contents (Elt F) → (⟨S262144x3, .f32⟩ : BufTy).Contents (Elt F)),
    unary main_v49 main_v50 (Host.sin : (⟨S262144x3, .f32⟩ : BufTy).Contents (Elt F) → (⟨S262144x3, .f32⟩ : BufTy).Contents (Elt F)),
    nullary main_cst_16 (constant S_ .f32 0x43800000#32),
    unary main_cst_16 main_v51 (broadcastInDim S262144x3 ![] bcast_S_S262144x3 : (⟨S_, .f32⟩ : BufTy).Contents (Elt F) → (⟨S262144x3, .f32⟩ : BufTy).Contents (Elt F)),
    binary main_v51 main_arg0 main_v52 (mulf : (⟨S262144x3, .f32⟩ : BufTy).Contents (Elt F) → (⟨S262144x3, .f32⟩ : BufTy).Contents (Elt F) → (⟨S262144x3, .f32⟩ : BufTy).Contents (Elt F)),
    unary main_v52 main_v53 (Host.cos : (⟨S262144x3, .f32⟩ : BufTy).Contents (Elt F) → (⟨S262144x3, .f32⟩ : BufTy).Contents (Elt F)),
    nullary main_cst_17 (constant S_ .f32 0x44000000#32),
    unary main_cst_17 main_v54 (broadcastInDim S262144x3 ![] bcast_S_S262144x3 : (⟨S_, .f32⟩ : BufTy).Contents (Elt F) → (⟨S262144x3, .f32⟩ : BufTy).Contents (Elt F)),
    binary main_v54 main_arg0 main_v55 (mulf : (⟨S262144x3, .f32⟩ : BufTy).Contents (Elt F) → (⟨S262144x3, .f32⟩ : BufTy).Contents (Elt F) → (⟨S262144x3, .f32⟩ : BufTy).Contents (Elt F)),
    unary main_v55 main_v56 (Host.sin : (⟨S262144x3, .f32⟩ : BufTy).Contents (Elt F) → (⟨S262144x3, .f32⟩ : BufTy).Contents (Elt F)),
    nullary main_cst_18 (constant S_ .f32 0x44000000#32),
    unary main_cst_18 main_v57 (broadcastInDim S262144x3 ![] bcast_S_S262144x3 : (⟨S_, .f32⟩ : BufTy).Contents (Elt F) → (⟨S262144x3, .f32⟩ : BufTy).Contents (Elt F)),
    binary main_v57 main_arg0 main_v58 (mulf : (⟨S262144x3, .f32⟩ : BufTy).Contents (Elt F) → (⟨S262144x3, .f32⟩ : BufTy).Contents (Elt F) → (⟨S262144x3, .f32⟩ : BufTy).Contents (Elt F)),
    unary main_v58 main_v59 (Host.cos : (⟨S262144x3, .f32⟩ : BufTy).Contents (Elt F) → (⟨S262144x3, .f32⟩ : BufTy).Contents (Elt F)),
    nary ![main_arg0, main_v2, main_v5, main_v8, main_v11, main_v14, main_v17, main_v20, main_v23, main_v26, main_v29, main_v32, main_v35, main_v38, main_v41, main_v44] main_v60 (fun u => concatenate S262144x48 1 [⟨S262144x3, u 0⟩, ⟨S262144x3, u 1⟩, ⟨S262144x3, u 2⟩, ⟨S262144x3, u 3⟩, ⟨S262144x3, u 4⟩, ⟨S262144x3, u 5⟩, ⟨S262144x3, u 6⟩, ⟨S262144x3, u 7⟩, ⟨S262144x3, u 8⟩, ⟨S262144x3, u 9⟩, ⟨S262144x3, u 10⟩, ⟨S262144x3, u 11⟩, ⟨S262144x3, u 12⟩, ⟨S262144x3, u 13⟩, ⟨S262144x3, u 14⟩, ⟨S262144x3, u 15⟩] concatenates_S262144x3_S262144x3_S262144x3_S262144x3_S262144x3_S262144x3_S262144x3_S262144x3_S262144x3_S262144x3_S262144x3_S262144x3_S262144x3_S262144x3_S262144x3_S262144x3_S262144x48_d1),
    nary ![main_v47, main_v50, main_v53, main_v56, main_v59] main_v61 (fun u => concatenate S262144x15 1 [⟨S262144x3, u 0⟩, ⟨S262144x3, u 1⟩, ⟨S262144x3, u 2⟩, ⟨S262144x3, u 3⟩, ⟨S262144x3, u 4⟩] concatenates_S262144x3_S262144x3_S262144x3_S262144x3_S262144x3_S262144x15_d1),
    binary main_v60 main_v61 main_v62 ((fun a b => concatenate S262144x63 1 [⟨S262144x48, a⟩, ⟨S262144x15, b⟩] concatenates_S262144x48_S262144x15_S262144x63_d1) : (⟨S262144x48, .f32⟩ : BufTy).Contents (Elt F) → (⟨S262144x15, .f32⟩ : BufTy).Contents (Elt F) → (⟨S262144x63, .f32⟩ : BufTy).Contents (Elt F)),
    nullary main_cst_19 (constant S_ .f32 0x3F800000#32),
    unary main_cst_19 main_v63 (broadcastInDim S262144x3 ![] bcast_S_S262144x3 : (⟨S_, .f32⟩ : BufTy).Contents (Elt F) → (⟨S262144x3, .f32⟩ : BufTy).Contents (Elt F)),
    binary main_v63 main_arg1 main_v64 (mulf : (⟨S262144x3, .f32⟩ : BufTy).Contents (Elt F) → (⟨S262144x3, .f32⟩ : BufTy).Contents (Elt F) → (⟨S262144x3, .f32⟩ : BufTy).Contents (Elt F)),
    unary main_v64 main_v65 (Host.sin : (⟨S262144x3, .f32⟩ : BufTy).Contents (Elt F) → (⟨S262144x3, .f32⟩ : BufTy).Contents (Elt F)),
    nullary main_cst_20 (constant S_ .f32 0x3F800000#32),
    unary main_cst_20 main_v66 (broadcastInDim S262144x3 ![] bcast_S_S262144x3 : (⟨S_, .f32⟩ : BufTy).Contents (Elt F) → (⟨S262144x3, .f32⟩ : BufTy).Contents (Elt F)),
    binary main_v66 main_arg1 main_v67 (mulf : (⟨S262144x3, .f32⟩ : BufTy).Contents (Elt F) → (⟨S262144x3, .f32⟩ : BufTy).Contents (Elt F) → (⟨S262144x3, .f32⟩ : BufTy).Contents (Elt F)),
    unary main_v67 main_v68 (Host.cos : (⟨S262144x3, .f32⟩ : BufTy).Contents (Elt F) → (⟨S262144x3, .f32⟩ : BufTy).Contents (Elt F)),
    nullary main_cst_21 (constant S_ .f32 0x40000000#32),
    unary main_cst_21 main_v69 (broadcastInDim S262144x3 ![] bcast_S_S262144x3 : (⟨S_, .f32⟩ : BufTy).Contents (Elt F) → (⟨S262144x3, .f32⟩ : BufTy).Contents (Elt F)),
    binary main_v69 main_arg1 main_v70 (mulf : (⟨S262144x3, .f32⟩ : BufTy).Contents (Elt F) → (⟨S262144x3, .f32⟩ : BufTy).Contents (Elt F) → (⟨S262144x3, .f32⟩ : BufTy).Contents (Elt F)),
    unary main_v70 main_v71 (Host.sin : (⟨S262144x3, .f32⟩ : BufTy).Contents (Elt F) → (⟨S262144x3, .f32⟩ : BufTy).Contents (Elt F)),
    nullary main_cst_22 (constant S_ .f32 0x40000000#32),
    unary main_cst_22 main_v72 (broadcastInDim S262144x3 ![] bcast_S_S262144x3 : (⟨S_, .f32⟩ : BufTy).Contents (Elt F) → (⟨S262144x3, .f32⟩ : BufTy).Contents (Elt F)),
    binary main_v72 main_arg1 main_v73 (mulf : (⟨S262144x3, .f32⟩ : BufTy).Contents (Elt F) → (⟨S262144x3, .f32⟩ : BufTy).Contents (Elt F) → (⟨S262144x3, .f32⟩ : BufTy).Contents (Elt F)),
    unary main_v73 main_v74 (Host.cos : (⟨S262144x3, .f32⟩ : BufTy).Contents (Elt F) → (⟨S262144x3, .f32⟩ : BufTy).Contents (Elt F)),
    nullary main_cst_23 (constant S_ .f32 0x40800000#32),
    unary main_cst_23 main_v75 (broadcastInDim S262144x3 ![] bcast_S_S262144x3 : (⟨S_, .f32⟩ : BufTy).Contents (Elt F) → (⟨S262144x3, .f32⟩ : BufTy).Contents (Elt F)),
    binary main_v75 main_arg1 main_v76 (mulf : (⟨S262144x3, .f32⟩ : BufTy).Contents (Elt F) → (⟨S262144x3, .f32⟩ : BufTy).Contents (Elt F) → (⟨S262144x3, .f32⟩ : BufTy).Contents (Elt F)),
    unary main_v76 main_v77 (Host.sin : (⟨S262144x3, .f32⟩ : BufTy).Contents (Elt F) → (⟨S262144x3, .f32⟩ : BufTy).Contents (Elt F)),
    nullary main_cst_24 (constant S_ .f32 0x40800000#32),
    unary main_cst_24 main_v78 (broadcastInDim S262144x3 ![] bcast_S_S262144x3 : (⟨S_, .f32⟩ : BufTy).Contents (Elt F) → (⟨S262144x3, .f32⟩ : BufTy).Contents (Elt F)),
    binary main_v78 main_arg1 main_v79 (mulf : (⟨S262144x3, .f32⟩ : BufTy).Contents (Elt F) → (⟨S262144x3, .f32⟩ : BufTy).Contents (Elt F) → (⟨S262144x3, .f32⟩ : BufTy).Contents (Elt F)),
    unary main_v79 main_v80 (Host.cos : (⟨S262144x3, .f32⟩ : BufTy).Contents (Elt F) → (⟨S262144x3, .f32⟩ : BufTy).Contents (Elt F)),
    nullary main_cst_25 (constant S_ .f32 0x41000000#32),
    unary main_cst_25 main_v81 (broadcastInDim S262144x3 ![] bcast_S_S262144x3 : (⟨S_, .f32⟩ : BufTy).Contents (Elt F) → (⟨S262144x3, .f32⟩ : BufTy).Contents (Elt F)),
    binary main_v81 main_arg1 main_v82 (mulf : (⟨S262144x3, .f32⟩ : BufTy).Contents (Elt F) → (⟨S262144x3, .f32⟩ : BufTy).Contents (Elt F) → (⟨S262144x3, .f32⟩ : BufTy).Contents (Elt F)),
    unary main_v82 main_v83 (Host.sin : (⟨S262144x3, .f32⟩ : BufTy).Contents (Elt F) → (⟨S262144x3, .f32⟩ : BufTy).Contents (Elt F)),
    nullary main_cst_26 (constant S_ .f32 0x41000000#32),
    unary main_cst_26 main_v84 (broadcastInDim S262144x3 ![] bcast_S_S262144x3 : (⟨S_, .f32⟩ : BufTy).Contents (Elt F) → (⟨S262144x3, .f32⟩ : BufTy).Contents (Elt F)),
    binary main_v84 main_arg1 main_v85 (mulf : (⟨S262144x3, .f32⟩ : BufTy).Contents (Elt F) → (⟨S262144x3, .f32⟩ : BufTy).Contents (Elt F) → (⟨S262144x3, .f32⟩ : BufTy).Contents (Elt F)),
    unary main_v85 main_v86 (Host.cos : (⟨S262144x3, .f32⟩ : BufTy).Contents (Elt F) → (⟨S262144x3, .f32⟩ : BufTy).Contents (Elt F)),
    nary ![main_arg1, main_v65, main_v68, main_v71, main_v74, main_v77, main_v80, main_v83, main_v86] main_v87 (fun u => concatenate S262144x27 1 [⟨S262144x3, u 0⟩, ⟨S262144x3, u 1⟩, ⟨S262144x3, u 2⟩, ⟨S262144x3, u 3⟩, ⟨S262144x3, u 4⟩, ⟨S262144x3, u 5⟩, ⟨S262144x3, u 6⟩, ⟨S262144x3, u 7⟩, ⟨S262144x3, u 8⟩] concatenates_S262144x3_S262144x3_S262144x3_S262144x3_S262144x3_S262144x3_S262144x3_S262144x3_S262144x3_S262144x27_d1) ]

/-- The layers: operations 117 to 206. -/
abbrev opsB : List (HloOp τ sig (Elt F)) :=
  [ unary main_arg2 main_v88 ((transpose S63x256 [1, 0] · transposes_S256x63_S63x256_1_0) : (⟨S256x63, .f32⟩ : BufTy).Contents (Elt F) → (⟨S63x256, .f32⟩ : BufTy).Contents (Elt F)),
    binary main_v62 main_v88 main_v89 ((fun l r => Host.dotGeneral dot_S262144x63_S63x256_S262144x256_1_0_0_1_n_n none l r) : (⟨S262144x63, .f32⟩ : BufTy).Contents (Elt F) → (⟨S63x256, .f32⟩ : BufTy).Contents (Elt F) → (⟨S262144x256, .f32⟩ : BufTy).Contents (Elt F)),
    unary main_arg3 main_v90 (broadcastInDim S1x256 ![1] bcast_S256_S1x256_1 : (⟨S256, .f32⟩ : BufTy).Contents (Elt F) → (⟨S1x256, .f32⟩ : BufTy).Contents (Elt F)),
    unary main_v90 main_v91 (broadcastInDim S262144x256 ![0, 1] bcast_S1x256_S262144x256_0_1 : (⟨S1x256, .f32⟩ : BufTy).Contents (Elt F) → (⟨S262144x256, .f32⟩ : BufTy).Contents (Elt F)),
    binary main_v89 main_v91 main_v92 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x256, .f32⟩) main_call0_v0) (broadcastInDim S262144x256 ![] bcast_S_S262144x256),
    TRef.binary (TRef.of (T := ⟨S262144x256, .f32⟩) main_v92) (TRef.of (T := ⟨S262144x256, .f32⟩) main_call0_v0) (TRef.of (T := ⟨S262144x256, .f32⟩) main_v93) maximumf,
    unary main_arg4 main_v94 ((transpose S256x256 [1, 0] · transposes_S256x256_S256x256_1_0) : (⟨S256x256, .f32⟩ : BufTy).Contents (Elt F) → (⟨S256x256, .f32⟩ : BufTy).Contents (Elt F)),
    binary main_v93 main_v94 main_v95 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg5 main_v96 (broadcastInDim S1x256 ![1] bcast_S256_S1x256_1 : (⟨S256, .f32⟩ : BufTy).Contents (Elt F) → (⟨S1x256, .f32⟩ : BufTy).Contents (Elt F)),
    unary main_v96 main_v97 (broadcastInDim S262144x256 ![0, 1] bcast_S1x256_S262144x256_0_1 : (⟨S1x256, .f32⟩ : BufTy).Contents (Elt F) → (⟨S262144x256, .f32⟩ : BufTy).Contents (Elt F)),
    binary main_v95 main_v97 main_v98 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x256, .f32⟩) main_call1_v0) (broadcastInDim S262144x256 ![] bcast_S_S262144x256),
    TRef.binary (TRef.of (T := ⟨S262144x256, .f32⟩) main_v98) (TRef.of (T := ⟨S262144x256, .f32⟩) main_call1_v0) (TRef.of (T := ⟨S262144x256, .f32⟩) main_v99) maximumf,
    unary main_arg6 main_v100 ((transpose S256x256 [1, 0] · transposes_S256x256_S256x256_1_0) : (⟨S256x256, .f32⟩ : BufTy).Contents (Elt F) → (⟨S256x256, .f32⟩ : BufTy).Contents (Elt F)),
    binary main_v99 main_v100 main_v101 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg7 main_v102 (broadcastInDim S1x256 ![1] bcast_S256_S1x256_1 : (⟨S256, .f32⟩ : BufTy).Contents (Elt F) → (⟨S1x256, .f32⟩ : BufTy).Contents (Elt F)),
    unary main_v102 main_v103 (broadcastInDim S262144x256 ![0, 1] bcast_S1x256_S262144x256_0_1 : (⟨S1x256, .f32⟩ : BufTy).Contents (Elt F) → (⟨S262144x256, .f32⟩ : BufTy).Contents (Elt F)),
    binary main_v101 main_v103 main_v104 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S262144x256, .f32⟩) main_call2_v0) (broadcastInDim S262144x256 ![] bcast_S_S262144x256),
    TRef.binary (TRef.of (T := ⟨S262144x256, .f32⟩) main_v104) (TRef.of (T := ⟨S262144x256, .f32⟩) main_call2_v0) (TRef.of (T := ⟨S262144x256, .f32⟩) main_v105) maximumf,
    unary main_arg8 main_v106 ((transpose S256x256 [1, 0] · transposes_S256x256_S256x256_1_0) : (⟨S256x256, .f32⟩ : BufTy).Contents (Elt F) → (⟨S256x256, .f32⟩ : BufTy).Contents (Elt F)),
    binary main_v105 main_v106 main_v107 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg9 main_v108 (broadcastInDim S1x256 ![1] bcast_S256_S1x256_1 : (⟨S256, .f32⟩ : BufTy).Contents (Elt F) → (⟨S1x256, .f32⟩ : BufTy).Contents (Elt F)),
    unary main_v108 main_v109 (broadcastInDim S262144x256 ![0, 1] bcast_S1x256_S262144x256_0_1 : (⟨S1x256, .f32⟩ : BufTy).Contents (Elt F) → (⟨S262144x256, .f32⟩ : BufTy).Contents (Elt F)),
    binary main_v107 main_v109 main_v110 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S262144x256, .f32⟩) main_call3_v0) (broadcastInDim S262144x256 ![] bcast_S_S262144x256),
    TRef.binary (TRef.of (T := ⟨S262144x256, .f32⟩) main_v110) (TRef.of (T := ⟨S262144x256, .f32⟩) main_call3_v0) (TRef.of (T := ⟨S262144x256, .f32⟩) main_v111) maximumf,
    unary main_arg10 main_v112 ((transpose S256x256 [1, 0] · transposes_S256x256_S256x256_1_0) : (⟨S256x256, .f32⟩ : BufTy).Contents (Elt F) → (⟨S256x256, .f32⟩ : BufTy).Contents (Elt F)),
    binary main_v111 main_v112 main_v113 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg11 main_v114 (broadcastInDim S1x256 ![1] bcast_S256_S1x256_1 : (⟨S256, .f32⟩ : BufTy).Contents (Elt F) → (⟨S1x256, .f32⟩ : BufTy).Contents (Elt F)),
    unary main_v114 main_v115 (broadcastInDim S262144x256 ![0, 1] bcast_S1x256_S262144x256_0_1 : (⟨S1x256, .f32⟩ : BufTy).Contents (Elt F) → (⟨S262144x256, .f32⟩ : BufTy).Contents (Elt F)),
    binary main_v113 main_v115 main_v116 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S262144x256, .f32⟩) main_call4_v0) (broadcastInDim S262144x256 ![] bcast_S_S262144x256),
    TRef.binary (TRef.of (T := ⟨S262144x256, .f32⟩) main_v116) (TRef.of (T := ⟨S262144x256, .f32⟩) main_call4_v0) (TRef.of (T := ⟨S262144x256, .f32⟩) main_v117) maximumf,
    binary main_v62 main_v117 main_v118 ((fun a b => concatenate S262144x319 1 [⟨S262144x63, a⟩, ⟨S262144x256, b⟩] concatenates_S262144x63_S262144x256_S262144x319_d1) : (⟨S262144x63, .f32⟩ : BufTy).Contents (Elt F) → (⟨S262144x256, .f32⟩ : BufTy).Contents (Elt F) → (⟨S262144x319, .f32⟩ : BufTy).Contents (Elt F)),
    unary main_arg12 main_v119 ((transpose S319x256 [1, 0] · transposes_S256x319_S319x256_1_0) : (⟨S256x319, .f32⟩ : BufTy).Contents (Elt F) → (⟨S319x256, .f32⟩ : BufTy).Contents (Elt F)),
    binary main_v118 main_v119 main_v120 ((fun l r => Host.dotGeneral dot_S262144x319_S319x256_S262144x256_1_0_0_1_n_n none l r) : (⟨S262144x319, .f32⟩ : BufTy).Contents (Elt F) → (⟨S319x256, .f32⟩ : BufTy).Contents (Elt F) → (⟨S262144x256, .f32⟩ : BufTy).Contents (Elt F)),
    unary main_arg13 main_v121 (broadcastInDim S1x256 ![1] bcast_S256_S1x256_1 : (⟨S256, .f32⟩ : BufTy).Contents (Elt F) → (⟨S1x256, .f32⟩ : BufTy).Contents (Elt F)),
    unary main_v121 main_v122 (broadcastInDim S262144x256 ![0, 1] bcast_S1x256_S262144x256_0_1 : (⟨S1x256, .f32⟩ : BufTy).Contents (Elt F) → (⟨S262144x256, .f32⟩ : BufTy).Contents (Elt F)),
    binary main_v120 main_v122 main_v123 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S262144x256, .f32⟩) main_call5_v0) (broadcastInDim S262144x256 ![] bcast_S_S262144x256),
    TRef.binary (TRef.of (T := ⟨S262144x256, .f32⟩) main_v123) (TRef.of (T := ⟨S262144x256, .f32⟩) main_call5_v0) (TRef.of (T := ⟨S262144x256, .f32⟩) main_v124) maximumf,
    unary main_arg14 main_v125 ((transpose S256x256 [1, 0] · transposes_S256x256_S256x256_1_0) : (⟨S256x256, .f32⟩ : BufTy).Contents (Elt F) → (⟨S256x256, .f32⟩ : BufTy).Contents (Elt F)),
    binary main_v124 main_v125 main_v126 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg15 main_v127 (broadcastInDim S1x256 ![1] bcast_S256_S1x256_1 : (⟨S256, .f32⟩ : BufTy).Contents (Elt F) → (⟨S1x256, .f32⟩ : BufTy).Contents (Elt F)),
    unary main_v127 main_v128 (broadcastInDim S262144x256 ![0, 1] bcast_S1x256_S262144x256_0_1 : (⟨S1x256, .f32⟩ : BufTy).Contents (Elt F) → (⟨S262144x256, .f32⟩ : BufTy).Contents (Elt F)),
    binary main_v126 main_v128 main_v129 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S262144x256, .f32⟩) main_call6_v0) (broadcastInDim S262144x256 ![] bcast_S_S262144x256),
    TRef.binary (TRef.of (T := ⟨S262144x256, .f32⟩) main_v129) (TRef.of (T := ⟨S262144x256, .f32⟩) main_call6_v0) (TRef.of (T := ⟨S262144x256, .f32⟩) main_v130) maximumf,
    unary main_arg16 main_v131 ((transpose S256x256 [1, 0] · transposes_S256x256_S256x256_1_0) : (⟨S256x256, .f32⟩ : BufTy).Contents (Elt F) → (⟨S256x256, .f32⟩ : BufTy).Contents (Elt F)),
    binary main_v130 main_v131 main_v132 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg17 main_v133 (broadcastInDim S1x256 ![1] bcast_S256_S1x256_1 : (⟨S256, .f32⟩ : BufTy).Contents (Elt F) → (⟨S1x256, .f32⟩ : BufTy).Contents (Elt F)),
    unary main_v133 main_v134 (broadcastInDim S262144x256 ![0, 1] bcast_S1x256_S262144x256_0_1 : (⟨S1x256, .f32⟩ : BufTy).Contents (Elt F) → (⟨S262144x256, .f32⟩ : BufTy).Contents (Elt F)),
    binary main_v132 main_v134 main_v135 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x256, .f32⟩) main_call7_v0) (broadcastInDim S262144x256 ![] bcast_S_S262144x256),
    TRef.binary (TRef.of (T := ⟨S262144x256, .f32⟩) main_v135) (TRef.of (T := ⟨S262144x256, .f32⟩) main_call7_v0) (TRef.of (T := ⟨S262144x256, .f32⟩) main_v136) maximumf,
    unary main_arg18 main_v137 ((transpose S256x1 [1, 0] · transposes_S1x256_S256x1_1_0) : (⟨S1x256, .f32⟩ : BufTy).Contents (Elt F) → (⟨S256x1, .f32⟩ : BufTy).Contents (Elt F)),
    binary main_v136 main_v137 main_v138 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    unary main_arg19 main_v139 (broadcastInDim S1x1 ![1] bcast_S1_S1x1_1 : (⟨S1, .f32⟩ : BufTy).Contents (Elt F) → (⟨S1x1, .f32⟩ : BufTy).Contents (Elt F)),
    unary main_v139 main_v140 (broadcastInDim S262144x1 ![0, 1] bcast_S1x1_S262144x1_0_1 : (⟨S1x1, .f32⟩ : BufTy).Contents (Elt F) → (⟨S262144x1, .f32⟩ : BufTy).Contents (Elt F)),
    binary main_v138 main_v140 main_v141 (addf : (⟨S262144x1, .f32⟩ : BufTy).Contents (Elt F) → (⟨S262144x1, .f32⟩ : BufTy).Contents (Elt F) → (⟨S262144x1, .f32⟩ : BufTy).Contents (Elt F)),
    unary main_arg20 main_v142 ((transpose S256x256 [1, 0] · transposes_S256x256_S256x256_1_0) : (⟨S256x256, .f32⟩ : BufTy).Contents (Elt F) → (⟨S256x256, .f32⟩ : BufTy).Contents (Elt F)),
    binary main_v136 main_v142 main_v143 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg21 main_v144 (broadcastInDim S1x256 ![1] bcast_S256_S1x256_1 : (⟨S256, .f32⟩ : BufTy).Contents (Elt F) → (⟨S1x256, .f32⟩ : BufTy).Contents (Elt F)),
    unary main_v144 main_v145 (broadcastInDim S262144x256 ![0, 1] bcast_S1x256_S262144x256_0_1 : (⟨S1x256, .f32⟩ : BufTy).Contents (Elt F) → (⟨S262144x256, .f32⟩ : BufTy).Contents (Elt F)),
    binary main_v143 main_v145 main_v146 (addf : (⟨S262144x256, .f32⟩ : BufTy).Contents (Elt F) → (⟨S262144x256, .f32⟩ : BufTy).Contents (Elt F) → (⟨S262144x256, .f32⟩ : BufTy).Contents (Elt F)),
    binary main_v146 main_v87 main_v147 ((fun a b => concatenate S262144x283 1 [⟨S262144x256, a⟩, ⟨S262144x27, b⟩] concatenates_S262144x256_S262144x27_S262144x283_d1) : (⟨S262144x256, .f32⟩ : BufTy).Contents (Elt F) → (⟨S262144x27, .f32⟩ : BufTy).Contents (Elt F) → (⟨S262144x283, .f32⟩ : BufTy).Contents (Elt F)),
    unary main_arg22 main_v148 ((transpose S283x128 [1, 0] · transposes_S128x283_S283x128_1_0) : (⟨S128x283, .f32⟩ : BufTy).Contents (Elt F) → (⟨S283x128, .f32⟩ : BufTy).Contents (Elt F)),
    binary main_v147 main_v148 main_v149 ((fun l r => Host.dotGeneral dot_S262144x283_S283x128_S262144x128_1_0_0_1_n_n none l r) : (⟨S262144x283, .f32⟩ : BufTy).Contents (Elt F) → (⟨S283x128, .f32⟩ : BufTy).Contents (Elt F) → (⟨S262144x128, .f32⟩ : BufTy).Contents (Elt F)),
    unary main_arg23 main_v150 (broadcastInDim S1x128 ![1] bcast_S128_S1x128_1 : (⟨S128, .f32⟩ : BufTy).Contents (Elt F) → (⟨S1x128, .f32⟩ : BufTy).Contents (Elt F)),
    unary main_v150 main_v151 (broadcastInDim S262144x128 ![0, 1] bcast_S1x128_S262144x128_0_1 : (⟨S1x128, .f32⟩ : BufTy).Contents (Elt F) → (⟨S262144x128, .f32⟩ : BufTy).Contents (Elt F)),
    binary main_v149 main_v151 main_v152 (addf : (⟨S262144x128, .f32⟩ : BufTy).Contents (Elt F) → (⟨S262144x128, .f32⟩ : BufTy).Contents (Elt F) → (⟨S262144x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S262144x128, .f32⟩) main_call8_v0) (broadcastInDim S262144x128 ![] bcast_S_S262144x128),
    TRef.binary (TRef.of (T := ⟨S262144x128, .f32⟩) main_v152) (TRef.of (T := ⟨S262144x128, .f32⟩) main_call8_v0) (TRef.of (T := ⟨S262144x128, .f32⟩) main_v153) maximumf,
    unary main_arg24 main_v154 ((transpose S128x3 [1, 0] · transposes_S3x128_S128x3_1_0) : (⟨S3x128, .f32⟩ : BufTy).Contents (Elt F) → (⟨S128x3, .f32⟩ : BufTy).Contents (Elt F)),
    binary main_v153 main_v154 main_v155 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F)),
    unary main_arg25 main_v156 (broadcastInDim S1x3 ![1] bcast_S3_S1x3_1 : (⟨S3, .f32⟩ : BufTy).Contents (Elt F) → (⟨S1x3, .f32⟩ : BufTy).Contents (Elt F)),
    unary main_v156 main_v157 (broadcastInDim S262144x3 ![0, 1] bcast_S1x3_S262144x3_0_1 : (⟨S1x3, .f32⟩ : BufTy).Contents (Elt F) → (⟨S262144x3, .f32⟩ : BufTy).Contents (Elt F)),
    binary main_v155 main_v157 main_v158 (addf : (⟨S262144x3, .f32⟩ : BufTy).Contents (Elt F) → (⟨S262144x3, .f32⟩ : BufTy).Contents (Elt F) → (⟨S262144x3, .f32⟩ : BufTy).Contents (Elt F)),
    binary main_v158 main_v141 main_v159 ((fun a b => concatenate S262144x4 1 [⟨S262144x3, a⟩, ⟨S262144x1, b⟩] concatenates_S262144x3_S262144x1_S262144x4_d1) : (⟨S262144x3, .f32⟩ : BufTy).Contents (Elt F) → (⟨S262144x1, .f32⟩ : BufTy).Contents (Elt F) → (⟨S262144x4, .f32⟩ : BufTy).Contents (Elt F)) ]

set_option maxRecDepth 8192 in
theorem ops_split : (ops (F := F)) = opsA ++ opsB := rfl

/-- Running two lines one after the other. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

-- A buffer no operation of the line `l` writes keeps its contents: one pass over the operations' result buffers.
local macro "kept_in" l:ident : tactic =>
  `(tactic| (refine StableHlo.after_of_forall_not_mem _ _ (List.forall_iff_forall_mem.mp ?_)
             simp only [$l:ident, List.Forall, nullary_writes, unary_writes, binary_writes, nary_writes, Finset.mem_singleton]
             repeat' apply And.intro
             all_goals exact devRef_ne_of_ne (by decide)))

set_option maxRecDepth 8192 in
set_option maxHeartbeats 16000000 in
/-- The first part leaves the embedding of the position array. -/
theorem embX (W : Valuation τ sig (Elt F)) :
    after (opsA (F := F)) W (Proc.devRef .tc main_v62) = val_main_v62 (F := F) (W (Proc.devRef .tc main_arg0)) := by
  after_results_simp <;> rfl

set_option maxRecDepth 8192 in
set_option maxHeartbeats 16000000 in
/-- The first part leaves the embedding of the direction array. -/
theorem embD (W : Valuation τ sig (Elt F)) :
    after (opsA (F := F)) W (Proc.devRef .tc main_v87) = val_main_v87 (F := F) (W (Proc.devRef .tc main_arg1)) := by
  after_results_simp <;> rfl

/-- A hidden layer of width 256 on the host: the product with the transposed weights, the bias broadcast to one
    row and then down the rows, the maximum with the zero splat. -/
def hid (y : (⟨S262144x256, .f32⟩ : BufTy).Contents (Elt F)) (w : (⟨S256x256, .f32⟩ : BufTy).Contents (Elt F)) (b : (⟨S256, .f32⟩ : BufTy).Contents (Elt F)) : (⟨S262144x256, .f32⟩ : BufTy).Contents (Elt F) :=
  maximumf
    (addf (Host.dotGeneral dot_S262144x256_S256x256_S262144x256_1_0_0_1_n_n none y
        (transpose S256x256 [1, 0] w transposes_S256x256_S256x256_1_0))
      (broadcastInDim S262144x256 ![0, 1] bcast_S1x256_S262144x256_0_1 (broadcastInDim S1x256 ![1] bcast_S256_S1x256_1 b)))
    (broadcastInDim S262144x256 ![] bcast_S_S262144x256 (constant S_ .f32 0x00000000#32))

/-- The twelve layers as one term of the two embeddings and the weight and bias arrays. -/
def layersOf (y62 : (⟨S262144x63, .f32⟩ : BufTy).Contents (Elt F)) (y87 : (⟨S262144x27, .f32⟩ : BufTy).Contents (Elt F))
    (x2 : (⟨S256x63, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F))
    (x10 : (⟨S256x256, .f32⟩ : BufTy).Contents (Elt F)) (x11 : (⟨S256, .f32⟩ : BufTy).Contents (Elt F)) (x12 : (⟨S256x319, .f32⟩ : BufTy).Contents (Elt F)) (x13 : (⟨S256, .f32⟩ : BufTy).Contents (Elt F))
    (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F))
    (x18 : (⟨S1x256, .f32⟩ : BufTy).Contents (Elt F)) (x19 : (⟨S1, .f32⟩ : BufTy).Contents (Elt F)) (x20 : (⟨S256x256, .f32⟩ : BufTy).Contents (Elt F)) (x21 : (⟨S256, .f32⟩ : BufTy).Contents (Elt F))
    (x22 : (⟨S128x283, .f32⟩ : BufTy).Contents (Elt F)) (x23 : (⟨S128, .f32⟩ : BufTy).Contents (Elt F)) (x24 : (⟨S3x128, .f32⟩ : BufTy).Contents (Elt F)) (x25 : (⟨S3, .f32⟩ : BufTy).Contents (Elt F)) :
    (⟨S262144x4, .f32⟩ : BufTy).Contents (Elt F) :=
  let h0 : (⟨S262144x256, .f32⟩ : BufTy).Contents (Elt F) := maximumf
    (addf (Host.dotGeneral dot_S262144x63_S63x256_S262144x256_1_0_0_1_n_n none y62
        (transpose S63x256 [1, 0] x2 transposes_S256x63_S63x256_1_0))
      (broadcastInDim S262144x256 ![0, 1] bcast_S1x256_S262144x256_0_1 (broadcastInDim S1x256 ![1] bcast_S256_S1x256_1 x3)))
    (broadcastInDim S262144x256 ![] bcast_S_S262144x256 (constant S_ .f32 0x00000000#32))
  let h4 := hid (hid (hid (hid h0 x4 x5) x6 x7) x8 x9) x10 x11
  let h5 : (⟨S262144x256, .f32⟩ : BufTy).Contents (Elt F) := maximumf
    (addf (Host.dotGeneral dot_S262144x319_S319x256_S262144x256_1_0_0_1_n_n none
        (concatenate S262144x319 1 [⟨S262144x63, y62⟩, ⟨S262144x256, h4⟩] concatenates_S262144x63_S262144x256_S262144x319_d1)
        (transpose S319x256 [1, 0] x12 transposes_S256x319_S319x256_1_0))
      (broadcastInDim S262144x256 ![0, 1] bcast_S1x256_S262144x256_0_1 (broadcastInDim S1x256 ![1] bcast_S256_S1x256_1 x13)))
    (broadcastInDim S262144x256 ![] bcast_S_S262144x256 (constant S_ .f32 0x00000000#32))
  let h7 := hid (hid h5 x14 x15) x16 x17
  let sg : (⟨S262144x1, .f32⟩ : BufTy).Contents (Elt F) :=
    addf (Host.dotGeneral dot_S262144x256_S256x1_S262144x1_1_0_0_1_n_n none h7
        (transpose S256x1 [1, 0] x18 transposes_S1x256_S256x1_1_0))
      (broadcastInDim S262144x1 ![0, 1] bcast_S1x1_S262144x1_0_1 (broadcastInDim S1x1 ![1] bcast_S1_S1x1_1 x19))
  let ge : (⟨S262144x256, .f32⟩ : BufTy).Contents (Elt F) :=
    addf (Host.dotGeneral dot_S262144x256_S256x256_S262144x256_1_0_0_1_n_n none h7
        (transpose S256x256 [1, 0] x20 transposes_S256x256_S256x256_1_0))
      (broadcastInDim S262144x256 ![0, 1] bcast_S1x256_S262144x256_0_1 (broadcastInDim S1x256 ![1] bcast_S256_S1x256_1 x21))
  let c0 : (⟨S262144x128, .f32⟩ : BufTy).Contents (Elt F) := maximumf
    (addf (Host.dotGeneral dot_S262144x283_S283x128_S262144x128_1_0_0_1_n_n none
        (concatenate S262144x283 1 [⟨S262144x256, ge⟩, ⟨S262144x27, y87⟩] concatenates_S262144x256_S262144x27_S262144x283_d1)
        (transpose S283x128 [1, 0] x22 transposes_S128x283_S283x128_1_0))
      (broadcastInDim S262144x128 ![0, 1] bcast_S1x128_S262144x128_0_1 (broadcastInDim S1x128 ![1] bcast_S128_S1x128_1 x23)))
    (broadcastInDim S262144x128 ![] bcast_S_S262144x128 (constant S_ .f32 0x00000000#32))
  let c1 : (⟨S262144x3, .f32⟩ : BufTy).Contents (Elt F) :=
    addf (Host.dotGeneral dot_S262144x128_S128x3_S262144x3_1_0_0_1_n_n none c0
        (transpose S128x3 [1, 0] x24 transposes_S3x128_S128x3_1_0))
      (broadcastInDim S262144x3 ![0, 1] bcast_S1x3_S262144x3_0_1 (broadcastInDim S1x3 ![1] bcast_S3_S1x3_1 x25))
  concatenate S262144x4 1 [⟨S262144x3, c1⟩, ⟨S262144x1, sg⟩] concatenates_S262144x3_S262144x1_S262144x4_d1

/-- At the two embeddings of the position and direction arrays this is the reference's result. -/
theorem layersOf_val (a0 a1 : (⟨S262144x3, .f32⟩ : BufTy).Contents (Elt F))
    (x2 : (⟨S256x63, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F))
    (x10 : (⟨S256x256, .f32⟩ : BufTy).Contents (Elt F)) (x11 : (⟨S256, .f32⟩ : BufTy).Contents (Elt F)) (x12 : (⟨S256x319, .f32⟩ : BufTy).Contents (Elt F)) (x13 : (⟨S256, .f32⟩ : BufTy).Contents (Elt F))
    (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F))
    (x18 : (⟨S1x256, .f32⟩ : BufTy).Contents (Elt F)) (x19 : (⟨S1, .f32⟩ : BufTy).Contents (Elt F)) (x20 : (⟨S256x256, .f32⟩ : BufTy).Contents (Elt F)) (x21 : (⟨S256, .f32⟩ : BufTy).Contents (Elt F))
    (x22 : (⟨S128x283, .f32⟩ : BufTy).Contents (Elt F)) (x23 : (⟨S128, .f32⟩ : BufTy).Contents (Elt F)) (x24 : (⟨S3x128, .f32⟩ : BufTy).Contents (Elt F)) (x25 : (⟨S3, .f32⟩ : BufTy).Contents (Elt F)) :
    layersOf (val_main_v62 (F := F) a0) (val_main_v87 (F := F) a1) x2 x3 x4 x5 x6 x7 x8 x9 x10 x11 x12 x13 x14 x15 x16 x17 x18 x19 x20 x21 x22 x23 x24 x25
      = val_main_v159 (F := F) a0 a1 x2 x3 x4 x5 x6 x7 x8 x9 x10 x11 x12 x13 x14 x15 x16 x17 x18 x19 x20 x21 x22 x23 x24 x25 := rfl

set_option maxRecDepth 8192 in
set_option maxHeartbeats 32000000 in
/-- The second part leaves the twelve layers of what it finds in the embeddings' and the weights' buffers. -/
theorem layers (W : Valuation τ sig (Elt F)) :
    after (opsB (F := F)) W (Proc.devRef .tc main_v159) = layersOf (W (Proc.devRef .tc main_v62)) (W (Proc.devRef .tc main_v87)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) := by
  after_results_simp <;> rfl

set_option maxRecDepth 8192 in
set_option maxHeartbeats 16000000 in
/-- The whole line leaves the network's result of the argument arrays. -/
theorem eval (V : Valuation τ sig (Elt F)) :
    after (ops (F := F)) V (Proc.devRef .tc main_v159)
      = val_main_v159 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [ops_split, after_append, layers, embX, embD]
  rw [
    show after (opsA (F := F)) V (Proc.devRef .tc main_arg2) = V (Proc.devRef .tc main_arg2) from by kept_in opsA,
    show after (opsA (F := F)) V (Proc.devRef .tc main_arg3) = V (Proc.devRef .tc main_arg3) from by kept_in opsA,
    show after (opsA (F := F)) V (Proc.devRef .tc main_arg4) = V (Proc.devRef .tc main_arg4) from by kept_in opsA,
    show after (opsA (F := F)) V (Proc.devRef .tc main_arg5) = V (Proc.devRef .tc main_arg5) from by kept_in opsA,
    show after (opsA (F := F)) V (Proc.devRef .tc main_arg6) = V (Proc.devRef .tc main_arg6) from by kept_in opsA,
    show after (opsA (F := F)) V (Proc.devRef .tc main_arg7) = V (Proc.devRef .tc main_arg7) from by kept_in opsA,
    show after (opsA (F := F)) V (Proc.devRef .tc main_arg8) = V (Proc.devRef .tc main_arg8) from by kept_in opsA,
    show after (opsA (F := F)) V (Proc.devRef .tc main_arg9) = V (Proc.devRef .tc main_arg9) from by kept_in opsA,
    show after (opsA (F := F)) V (Proc.devRef .tc main_arg10) = V (Proc.devRef .tc main_arg10) from by kept_in opsA,
    show after (opsA (F := F)) V (Proc.devRef .tc main_arg11) = V (Proc.devRef .tc main_arg11) from by kept_in opsA,
    show after (opsA (F := F)) V (Proc.devRef .tc main_arg12) = V (Proc.devRef .tc main_arg12) from by kept_in opsA,
    show after (opsA (F := F)) V (Proc.devRef .tc main_arg13) = V (Proc.devRef .tc main_arg13) from by kept_in opsA,
    show after (opsA (F := F)) V (Proc.devRef .tc main_arg14) = V (Proc.devRef .tc main_arg14) from by kept_in opsA,
    show after (opsA (F := F)) V (Proc.devRef .tc main_arg15) = V (Proc.devRef .tc main_arg15) from by kept_in opsA,
    show after (opsA (F := F)) V (Proc.devRef .tc main_arg16) = V (Proc.devRef .tc main_arg16) from by kept_in opsA,
    show after (opsA (F := F)) V (Proc.devRef .tc main_arg17) = V (Proc.devRef .tc main_arg17) from by kept_in opsA,
    show after (opsA (F := F)) V (Proc.devRef .tc main_arg18) = V (Proc.devRef .tc main_arg18) from by kept_in opsA,
    show after (opsA (F := F)) V (Proc.devRef .tc main_arg19) = V (Proc.devRef .tc main_arg19) from by kept_in opsA,
    show after (opsA (F := F)) V (Proc.devRef .tc main_arg20) = V (Proc.devRef .tc main_arg20) from by kept_in opsA,
    show after (opsA (F := F)) V (Proc.devRef .tc main_arg21) = V (Proc.devRef .tc main_arg21) from by kept_in opsA,
    show after (opsA (F := F)) V (Proc.devRef .tc main_arg22) = V (Proc.devRef .tc main_arg22) from by kept_in opsA,
    show after (opsA (F := F)) V (Proc.devRef .tc main_arg23) = V (Proc.devRef .tc main_arg23) from by kept_in opsA,
    show after (opsA (F := F)) V (Proc.devRef .tc main_arg24) = V (Proc.devRef .tc main_arg24) from by kept_in opsA,
    show after (opsA (F := F)) V (Proc.devRef .tc main_arg25) = V (Proc.devRef .tc main_arg25) from by kept_in opsA]
  exact layersOf_val _ _ _ _ _ _ _ _ _ _ _ _ _ _ _ _ _ _ _ _ _ _ _ _ _ _

set_option maxRecDepth 8192 in
set_option maxHeartbeats 16000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = res_main_v159 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v159).trans ((eval _).trans (val_main_v159_eq m c).symm),
      (h c main_arg0).trans (by kept_in ops),
      (h c main_arg1).trans (by kept_in ops),
      (h c main_arg2).trans (by kept_in ops),
      (h c main_arg3).trans (by kept_in ops),
      (h c main_arg4).trans (by kept_in ops),
      (h c main_arg5).trans (by kept_in ops),
      (h c main_arg6).trans (by kept_in ops),
      (h c main_arg7).trans (by kept_in ops),
      (h c main_arg8).trans (by kept_in ops),
      (h c main_arg9).trans (by kept_in ops),
      (h c main_arg10).trans (by kept_in ops),
      (h c main_arg11).trans (by kept_in ops),
      (h c main_arg12).trans (by kept_in ops),
      (h c main_arg13).trans (by kept_in ops),
      (h c main_arg14).trans (by kept_in ops),
      (h c main_arg15).trans (by kept_in ops),
      (h c main_arg16).trans (by kept_in ops),
      (h c main_arg17).trans (by kept_in ops),
      (h c main_arg18).trans (by kept_in ops),
      (h c main_arg19).trans (by kept_in ops),
      (h c main_arg20).trans (by kept_in ops),
      (h c main_arg21).trans (by kept_in ops),
      (h c main_arg22).trans (by kept_in ops),
      (h c main_arg23).trans (by kept_in ops),
      (h c main_arg24).trans (by kept_in ops),
      (h c main_arg25).trans (by kept_in ops)⟩)
    (run_seq scopedRefs_eq scopedSems_eq defs main (fun _ => ops) main_eq (fun _ => ops_sub) m ρ)

end Cert.ReferenceIdeal.Value

end
-- ==== Proof.Rows.lean ====
/-
  Row-by-row readings of the vector operations a dense layer is made of, at the ideal values
  (extended reals, exact operations).  Every statement is about ONE entry of a two-axis value:

  * a plain matrix product into the zero accumulator, at row `r` and column `j`, is the sum over the
    contracted axis of the row's entries times the column's entries;
  * a bias vector viewed as one row and repeated down the rows reads, at `(r, j)`, its entry `j`;
  * a two-piece concatenation along the columns reads the left piece on the first columns and the
    right piece, shifted, on the others;
  * a transposition reads the swapped entry.

  Shapes are parameters, so one statement serves every layer width.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx

namespace Cert.Rows

/-- The contraction shape of a plain product has one axis, of the contracted extent. -/
theorem plain_contr_rank (M K N : Nat) : (DotDims.plain M K N).contr.rank = 1 := rfl

theorem plain_contr_size (M K N : Nat) : (DotDims.plain M K N).contr.size ⟨0, by rw [plain_contr_rank]; exact Nat.one_pos⟩ = K := rfl

/-- A plain `[M,K] × [K,N]` product accumulated onto zero: entry `(r, j)` is `∑ k, y[r,k] · w[k,j]`. -/
theorem matmul_plain_row {M K N : Nat} {φ₁ φ₂ : FTy} (prec : Option ContractPrecision)
    (y : FVec Ideal ⟨2, ![M, K]⟩ φ₁) (w : FVec Ideal ⟨2, ![K, N]⟩ φ₂) (r : Fin M) (j : Fin N) :
    FloatOps.matmul (DotDims.plain M K N) prec y w (constant (F := Ideal) ⟨2, ![M, N]⟩ .f32 0x00000000#32) (ix2 r j)
      = ∑ k : Fin K, y (ix2 r k) * w (ix2 k j) := by
  rw [Ideal.matmul_constant_zero_apply,
    ← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx (ix2 r j)
      ((contrEquiv1 (DotDims.plain M K N) K (plain_contr_rank M K N) (plain_contr_size M K N)).symm k) = ix2 r k :=
    funext fun a => Fin.ext (by
      match a with
      | ⟨0, _⟩ => rfl
      | ⟨1, _⟩ => exact hk)
  have er : (DotDims.plain M K N).rhsIdx (ix2 r j)
      ((contrEquiv1 (DotDims.plain M K N) K (plain_contr_rank M K N) (plain_contr_size M K N)).symm k) = ix2 k j :=
    funext fun a => Fin.ext (by
      match a with
      | ⟨0, _⟩ => exact hk
      | ⟨1, _⟩ => rfl)
  rw [el, er]

/-- The host's product of the same operands is the same sum. -/
theorem dotGeneral_plain_row {M K N : Nat} {φ₁ φ₂ : FTy} (prec : Option ContractPrecision) (sched : HostSchedule)
    (y : FVec Ideal ⟨2, ![M, K]⟩ φ₁) (w : FVec Ideal ⟨2, ![K, N]⟩ φ₂) (r : Fin M) (j : Fin N) :
    FloatOps.dotGeneral (DotDims.plain M K N) prec sched y w (ix2 r j)
      = ∑ k : Fin K, y (ix2 r k) * w (ix2 k j) := by
  rw [Ideal.dotGeneral_apply,
    ← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx (ix2 r j)
      ((contrEquiv1 (DotDims.plain M K N) K (plain_contr_rank M K N) (plain_contr_size M K N)).symm k) = ix2 r k :=
    funext fun a => Fin.ext (by
      match a with
      | ⟨0, _⟩ => rfl
      | ⟨1, _⟩ => exact hk)
  have er : (DotDims.plain M K N).rhsIdx (ix2 r j)
      ((contrEquiv1 (DotDims.plain M K N) K (plain_contr_rank M K N) (plain_contr_size M K N)).symm k) = ix2 k j :=
    funext fun a => Fin.ext (by
      match a with
      | ⟨0, _⟩ => exact hk
      | ⟨1, _⟩ => rfl)
  rw [el, er]

/-- A vector of `N` entries viewed as a `[1,N]` row and repeated over `M` rows: entry `(r, j)` is entry `j`. -/
theorem bias_row {α : Type} {M N : Nat} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (j : Fin N) :
    broadcastTo ⟨2, ![M, N]⟩ (shapeCast ⟨2, ![1, N]⟩ b h1) h2 (ix2 r j) = b (ix1 j) := by
  refine (broadcastTo_apply _ h2 (ix2 r j) (ix2 ⟨0, Nat.one_pos⟩ j) (fun a => ?_)).trans ?_
  · match a with
    | ⟨0, _⟩ => show (0 : Nat) = if (1 : Nat) = 1 then 0 else r.val; rw [if_pos rfl]
    | ⟨1, _⟩ =>
      show j.val = if N = 1 then 0 else j.val
      split
      · have := j.isLt; omega
      · rfl
  · refine (shapeCast_addUnit_apply ![N] b h1 (ix2 ⟨0, Nat.one_pos⟩ j)).trans (congrArg b ?_)
    funext a
    match a with
    | ⟨0, _⟩ => rfl

/-- A transposed matrix reads the swapped entry. -/
theorem transpose_at {α : Type} {A B : Nat} (X : (⟨2, ![A, B]⟩ : Shape).Idx → α)
    (h : (⟨2, ![A, B]⟩ : Shape).Transposes [1, 0] ⟨2, ![B, A]⟩) (k : Fin B) (j : Fin A) :
    transpose ⟨2, ![B, A]⟩ [1, 0] X h (ix2 k j) = X (ix2 j k) :=
  transpose_apply [1, 0] X h (ix2 k j) (ix2 j k) (fun b => match b with
    | ⟨0, _⟩ => rfl
    | ⟨1, _⟩ => rfl)

/-- Rows `o, o+1, …` cut out of a transposed matrix: entry `(k, j)` is the matrix's entry `(j, o + k)`. -/
theorem rows_of_transpose_at {α : Type} {A B M : Nat} (o : Nat) (X : (⟨2, ![A, B]⟩ : Shape).Idx → α)
    (h : (⟨2, ![A, B]⟩ : Shape).Transposes [1, 0] ⟨2, ![B, A]⟩)
    (hs : (⟨2, ![B, A]⟩ : Shape).Slices ![o, 0] ⟨2, ![M, A]⟩) (k : Fin M) (j : Fin A) (hk : o + k.val < B) :
    extractStridedSlice ⟨2, ![M, A]⟩ ![o, 0] (transpose ⟨2, ![B, A]⟩ [1, 0] X h) hs (ix2 k j) = X (ix2 j ⟨o + k.val, hk⟩) :=
  (slice2_axis0_apply o _ hs k j ⟨o + k.val, hk⟩ rfl).trans (transpose_at X h _ j)

end Cert.Rows

end
-- ==== Proof.Net.lean ====
/-
  The network both programs compute, one sample (one row) at a time, on the extended reals.

  A sample is a position `x` and a direction `d`, three coordinates each.  Its positional embedding lists
  the coordinates, then for each frequency `2^i` the sines and the cosines of `2^i` times the coordinates:
  column `k` of the embedding is wave `k / 3` of coordinate `k % 3` (`emb`).  The embedding of `x` uses
  ten frequencies (63 columns), that of `d` the first four (27 columns).

  A layer is `y ↦ y · W + b` (`lin`), followed or not by the rectifier `t ↦ max t 0`.  Two layers take
  two inputs side by side — the fifth stem layer takes the embedding of `x` beside the fourth layer's
  output, the first colour layer takes the geometry features beside the embedding of `d`; a product with a
  matrix whose rows are split accordingly is the sum of the two partial products (`lin2`, and `sum_cat`,
  which is only associativity and commutativity of the sum, valid for infinite entries too).

  The result has four columns: the three colour outputs, then the density.

  Weights are kept as `W k j`: input column `k`, output column `j`.
-/
import Idealize.ShloMosaic.PureOps.Ideal
import Idealize.ShloMosaic.Lib.ValueIdx

noncomputable section

open scoped BigOperators
open Idealize.ShloMosaic Idealize.ShloMosaic.ValueIdx

namespace Cert.Net

/-- Wave `n` of a coordinate `t`: the coordinate itself, then `sin (2^i t)`, `cos (2^i t)` for `i = 0, …, 9`;
    the factors `2^i` are the single-precision words the programs spell. -/
def wave (n : Nat) (t : EReal) : EReal :=
  match n with
  | 0 => t
  | 1 => Ideal.sin (Ideal.ofBits .f32 0x3F800000#32 * t)
  | 2 => Ideal.cos (Ideal.ofBits .f32 0x3F800000#32 * t)
  | 3 => Ideal.sin (Ideal.ofBits .f32 0x40000000#32 * t)
  | 4 => Ideal.cos (Ideal.ofBits .f32 0x40000000#32 * t)
  | 5 => Ideal.sin (Ideal.ofBits .f32 0x40800000#32 * t)
  | 6 => Ideal.cos (Ideal.ofBits .f32 0x40800000#32 * t)
  | 7 => Ideal.sin (Ideal.ofBits .f32 0x41000000#32 * t)
  | 8 => Ideal.cos (Ideal.ofBits .f32 0x41000000#32 * t)
  | 9 => Ideal.sin (Ideal.ofBits .f32 0x41800000#32 * t)
  | 10 => Ideal.cos (Ideal.ofBits .f32 0x41800000#32 * t)
  | 11 => Ideal.sin (Ideal.ofBits .f32 0x42000000#32 * t)
  | 12 => Ideal.cos (Ideal.ofBits .f32 0x42000000#32 * t)
  | 13 => Ideal.sin (Ideal.ofBits .f32 0x42800000#32 * t)
  | 14 => Ideal.cos (Ideal.ofBits .f32 0x42800000#32 * t)
  | 15 => Ideal.sin (Ideal.ofBits .f32 0x43000000#32 * t)
  | 16 => Ideal.cos (Ideal.ofBits .f32 0x43000000#32 * t)
  | 17 => Ideal.sin (Ideal.ofBits .f32 0x43800000#32 * t)
  | 18 => Ideal.cos (Ideal.ofBits .f32 0x43800000#32 * t)
  | 19 => Ideal.sin (Ideal.ofBits .f32 0x44000000#32 * t)
  | 20 => Ideal.cos (Ideal.ofBits .f32 0x44000000#32 * t)
  | _ => t

/-- Column `k` of the positional embedding of the three coordinates `v`. -/
def emb (v : Fin 3 → EReal) (k : Nat) : EReal := wave (k / 3) (v ⟨k % 3, Nat.mod_lt _ (by decide)⟩)

/-- The rectifier; its zero is the single-precision zero word. -/
def relu (t : EReal) : EReal := max t (Ideal.ofBits .f32 0x00000000#32)

/-- One output column of an affine layer. -/
def lin {K M : Nat} (y : Fin K → EReal) (W : Fin K → Fin M → EReal) (b : Fin M → EReal) (j : Fin M) : EReal :=
  (∑ k : Fin K, y k * W k j) + b j

/-- One output column of an affine layer over two inputs side by side. -/
def lin2 {K₁ K₂ M : Nat} (y₁ : Fin K₁ → EReal) (W₁ : Fin K₁ → Fin M → EReal) (y₂ : Fin K₂ → EReal)
    (W₂ : Fin K₂ → Fin M → EReal) (b : Fin M → EReal) (j : Fin M) : EReal :=
  ((∑ k : Fin K₁, y₁ k * W₁ k j) + (∑ k : Fin K₂, y₂ k * W₂ k j)) + b j

/-- A sum over `A + B` columns is the sum over the first `A` plus the sum over the last `B`. -/
theorem sum_cat {A B C : Nat} (hC : C = A + B) (f : Fin C → EReal) :
    ∑ k : Fin C, f k = (∑ k : Fin A, f ⟨k.val, by omega⟩) + ∑ k : Fin B, f ⟨A + k.val, by omega⟩ := by
  subst hC
  rw [Fin.sum_univ_add]
  rfl

/-- The weights, each as `W k j` (input column, output column), and the biases. -/
structure Params where
  W0 : Fin 63 → Fin 256 → EReal
  b0 : Fin 256 → EReal
  W1 : Fin 256 → Fin 256 → EReal
  b1 : Fin 256 → EReal
  W2 : Fin 256 → Fin 256 → EReal
  b2 : Fin 256 → EReal
  W3 : Fin 256 → Fin 256 → EReal
  b3 : Fin 256 → EReal
  W4 : Fin 256 → Fin 256 → EReal
  b4 : Fin 256 → EReal
  W5a : Fin 63 → Fin 256 → EReal
  W5b : Fin 256 → Fin 256 → EReal
  b5 : Fin 256 → EReal
  W6 : Fin 256 → Fin 256 → EReal
  b6 : Fin 256 → EReal
  W7 : Fin 256 → Fin 256 → EReal
  b7 : Fin 256 → EReal
  Wd : Fin 256 → Fin 1 → EReal
  bd : Fin 1 → EReal
  Wg : Fin 256 → Fin 256 → EReal
  bg : Fin 256 → EReal
  Wc0a : Fin 256 → Fin 128 → EReal
  Wc0b : Fin 27 → Fin 128 → EReal
  bc0 : Fin 128 → EReal
  Wc1 : Fin 128 → Fin 3 → EReal
  bc1 : Fin 3 → EReal

/-- Two parameter sets with the same entries are the same. -/
theorem Params.ext' (P Q : Params)
    (hW0 : ∀ k j, P.W0 k j = Q.W0 k j)
    (hb0 : ∀ j, P.b0 j = Q.b0 j)
    (hW1 : ∀ k j, P.W1 k j = Q.W1 k j)
    (hb1 : ∀ j, P.b1 j = Q.b1 j)
    (hW2 : ∀ k j, P.W2 k j = Q.W2 k j)
    (hb2 : ∀ j, P.b2 j = Q.b2 j)
    (hW3 : ∀ k j, P.W3 k j = Q.W3 k j)
    (hb3 : ∀ j, P.b3 j = Q.b3 j)
    (hW4 : ∀ k j, P.W4 k j = Q.W4 k j)
    (hb4 : ∀ j, P.b4 j = Q.b4 j)
    (hW5a : ∀ k j, P.W5a k j = Q.W5a k j)
    (hW5b : ∀ k j, P.W5b k j = Q.W5b k j)
    (hb5 : ∀ j, P.b5 j = Q.b5 j)
    (hW6 : ∀ k j, P.W6 k j = Q.W6 k j)
    (hb6 : ∀ j, P.b6 j = Q.b6 j)
    (hW7 : ∀ k j, P.W7 k j = Q.W7 k j)
    (hb7 : ∀ j, P.b7 j = Q.b7 j)
    (hWd : ∀ k j, P.Wd k j = Q.Wd k j)
    (hbd : ∀ j, P.bd j = Q.bd j)
    (hWg : ∀ k j, P.Wg k j = Q.Wg k j)
    (hbg : ∀ j, P.bg j = Q.bg j)
    (hWc0a : ∀ k j, P.Wc0a k j = Q.Wc0a k j)
    (hWc0b : ∀ k j, P.Wc0b k j = Q.Wc0b k j)
    (hbc0 : ∀ j, P.bc0 j = Q.bc0 j)
    (hWc1 : ∀ k j, P.Wc1 k j = Q.Wc1 k j)
    (hbc1 : ∀ j, P.bc1 j = Q.bc1 j) : P = Q := by
  cases P
  cases Q
  simp only [Params.mk.injEq]
  exact ⟨funext fun k => funext fun j => hW0 k j,
    funext fun j => hb0 j,
    funext fun k => funext fun j => hW1 k j,
    funext fun j => hb1 j,
    funext fun k => funext fun j => hW2 k j,
    funext fun j => hb2 j,
    funext fun k => funext fun j => hW3 k j,
    funext fun j => hb3 j,
    funext fun k => funext fun j => hW4 k j,
    funext fun j => hb4 j,
    funext fun k => funext fun j => hW5a k j,
    funext fun k => funext fun j => hW5b k j,
    funext fun j => hb5 j,
    funext fun k => funext fun j => hW6 k j,
    funext fun j => hb6 j,
    funext fun k => funext fun j => hW7 k j,
    funext fun j => hb7 j,
    funext fun k => funext fun j => hWd k j,
    funext fun j => hbd j,
    funext fun k => funext fun j => hWg k j,
    funext fun j => hbg j,
    funext fun k => funext fun j => hWc0a k j,
    funext fun k => funext fun j => hWc0b k j,
    funext fun j => hbc0 j,
    funext fun k => funext fun j => hWc1 k j,
    funext fun j => hbc1 j⟩

variable (P : Params) (x d : Fin 3 → EReal)

/-- The embedding of the position (63 columns) and of the direction (27 columns). -/
def xe : Fin 63 → EReal := fun k => emb x k.val
def de : Fin 27 → EReal := fun k => emb d k.val

/-- The eight stem layers. -/
def h0 : Fin 256 → EReal := fun j => relu (lin (xe x) P.W0 P.b0 j)
def h1 : Fin 256 → EReal := fun j => relu (lin (h0 P x) P.W1 P.b1 j)
def h2 : Fin 256 → EReal := fun j => relu (lin (h1 P x) P.W2 P.b2 j)
def h3 : Fin 256 → EReal := fun j => relu (lin (h2 P x) P.W3 P.b3 j)
def h4 : Fin 256 → EReal := fun j => relu (lin (h3 P x) P.W4 P.b4 j)
def h5 : Fin 256 → EReal := fun j => relu (lin2 (xe x) P.W5a (h4 P x) P.W5b P.b5 j)
def h6 : Fin 256 → EReal := fun j => relu (lin (h5 P x) P.W6 P.b6 j)
def h7 : Fin 256 → EReal := fun j => relu (lin (h6 P x) P.W7 P.b7 j)

/-- The density head, the geometry features, and the two colour layers. -/
def sigma : Fin 1 → EReal := lin (h7 P x) P.Wd P.bd
def geo : Fin 256 → EReal := lin (h7 P x) P.Wg P.bg
def col0 : Fin 128 → EReal := fun j => relu (lin2 (geo P x) P.Wc0a (de d) P.Wc0b P.bc0 j)
def col1 : Fin 3 → EReal := lin (col0 P x d) P.Wc1 P.bc1

/-- The four outputs of a sample: colour, then density. -/
def out (c : Fin 4) : EReal :=
  if h : c.val < 3 then col1 P x d ⟨c.val, h⟩ else sigma P x ⟨0, Nat.one_pos⟩

/-- The parameters as the 24 weight and bias arrays give them: array `W` of shape `[outputs, inputs]` is read
    `W[j, k]`; the fifth stem matrix and the first colour matrix are split at input column 63 and 256. -/
def paramsOf
    (a2 : (⟨2, ![256, 63]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 : (⟨1, ![256]⟩ : Shape).Idx → EReal)
    (a12 : (⟨2, ![256, 319]⟩ : Shape).Idx → EReal) (a13 : (⟨1, ![256]⟩ : Shape).Idx → EReal)
    (a14 : (⟨2, ![256, 256]⟩ : Shape).Idx → EReal) (a15 : (⟨1, ![256]⟩ : Shape).Idx → EReal)
    (a16 : (⟨2, ![256, 256]⟩ : Shape).Idx → EReal) (a17 : (⟨1, ![256]⟩ : Shape).Idx → EReal)
    (a18 : (⟨2, ![1, 256]⟩ : Shape).Idx → EReal) (a19 : (⟨1, ![1]⟩ : Shape).Idx → EReal)
    (a20 : (⟨2, ![256, 256]⟩ : Shape).Idx → EReal) (a21 : (⟨1, ![256]⟩ : Shape).Idx → EReal)
    (a22 : (⟨2, ![128, 283]⟩ : Shape).Idx → EReal) (a23 : (⟨1, ![128]⟩ : Shape).Idx → EReal)
    (a24 : (⟨2, ![3, 128]⟩ : Shape).Idx → EReal) (a25 : (⟨1, ![3]⟩ : Shape).Idx → EReal) : Params where
  W0 := fun k j => a2 (ix2 j k)
  b0 := fun j => a3 (ix1 j)
  W1 := fun k j => a4 (ix2 j k)
  b1 := fun j => a5 (ix1 j)
  W2 := fun k j => a6 (ix2 j k)
  b2 := fun j => a7 (ix1 j)
  W3 := fun k j => a8 (ix2 j k)
  b3 := fun j => a9 (ix1 j)
  W4 := fun k j => a10 (ix2 j k)
  b4 := fun j => a11 (ix1 j)
  W5a := fun k j => a12 (ix2 j ⟨k.val, by have := k.isLt; omega⟩)
  W5b := fun k j => a12 (ix2 j ⟨63 + k.val, by have := k.isLt; omega⟩)
  b5 := fun j => a13 (ix1 j)
  W6 := fun k j => a14 (ix2 j k)
  b6 := fun j => a15 (ix1 j)
  W7 := fun k j => a16 (ix2 j k)
  b7 := fun j => a17 (ix1 j)
  Wd := fun k j => a18 (ix2 j k)
  bd := fun j => a19 (ix1 j)
  Wg := fun k j => a20 (ix2 j k)
  bg := fun j => a21 (ix1 j)
  Wc0a := fun k j => a22 (ix2 j ⟨k.val, by have := k.isLt; omega⟩)
  Wc0b := fun k j => a22 (ix2 j ⟨256 + k.val, by have := k.isLt; omega⟩)
  bc0 := fun j => a23 (ix1 j)
  Wc1 := fun k j => a24 (ix2 j k)
  bc1 := fun j => a25 (ix1 j)

end Cert.Net

end
-- ==== Proof.Layer.lean ====
/-
  A dense layer as the kernel spells it, read at one entry `(r, j)` of its result, against the per-sample
  layer `Net.lin` of the row `r` of its input.

  The kernel's spelling is: the product of the activations `y` (rows are samples) with a weight matrix
  `w` stored `[inputs, outputs]`, accumulated onto zero; plus the bias vector viewed as one row and
  repeated down the rows; and, for a hidden layer, the maximum with the zero splat.  Knowing row `r` of
  `y` (`hy`), entry `(r, j)` of the result is output column `j` of the per-sample layer on that row.
-/
import proofs.«105194_j54752243090148_2_alg».proof.Proof.Rows
import proofs.«105194_j54752243090148_2_alg».proof.Proof.Net

noncomputable section

open scoped BigOperators
open Idealize.ShloMosaic Idealize.ShloMosaic.ValueIdx

namespace Cert.Layer

open Cert.Rows

/-- The product alone, the weights seen through an identity reshape. -/
theorem mm_row {M K N : Nat} {φ₁ φ₂ : FTy} (prec : Option ContractPrecision)
    (y : FVec Ideal ⟨2, ![M, K]⟩ φ₁) (w : FVec Ideal ⟨2, ![K, N]⟩ φ₂)
    (hw : (⟨2, ![K, N]⟩ : Shape).ShapeCasts ⟨2, ![K, N]⟩) (r : Fin M) (j : Fin N)
    (yr : Fin K → EReal) (hy : ∀ k, y (ix2 r k) = yr k) :
    FloatOps.matmul (DotDims.plain M K N) prec y (shapeCast ⟨2, ![K, N]⟩ w hw)
        (constant (F := Ideal) ⟨2, ![M, N]⟩ .f32 0x00000000#32) (ix2 r j)
      = ∑ k : Fin K, yr k * w (ix2 k j) := by
  rw [shapeCast_self, matmul_plain_row]
  exact Finset.sum_congr rfl fun k _ => by rw [hy k]

/-- A bias row repeated down the rows. -/
theorem bcast_row {α : Type} {M N : Nat} (v : (⟨2, ![1, N]⟩ : Shape).Idx → α)
    (h2 : (⟨2, ![1, N]⟩ : Shape).Broadcasts ⟨2, ![M, N]⟩) (r : Fin M) (j : Fin N) :
    broadcastTo ⟨2, ![M, N]⟩ v h2 (ix2 r j) = v (ix2 ⟨0, Nat.one_pos⟩ j) := by
  refine broadcastTo_apply _ h2 (ix2 r j) (ix2 ⟨0, Nat.one_pos⟩ j) (fun a => ?_)
  match a with
  | ⟨0, _⟩ => show (0 : Nat) = if (1 : Nat) = 1 then 0 else r.val; rw [if_pos rfl]
  | ⟨1, _⟩ =>
    show j.val = if N = 1 then 0 else j.val
    split
    · have := j.isLt; omega
    · rfl

/-- A vector viewed as one row. -/
theorem as_row {α : Type} {N : Nat} (b : (⟨1, ![N]⟩ : Shape).Idx → α)
    (h1 : (⟨1, ![N]⟩ : Shape).ShapeCasts ⟨2, ![1, N]⟩) (j : Fin N) :
    shapeCast ⟨2, ![1, N]⟩ b h1 (ix2 ⟨0, Nat.one_pos⟩ j) = b (ix1 j) := by
  refine (shapeCast_addUnit_apply ![N] b h1 (ix2 ⟨0, Nat.one_pos⟩ j)).trans (congrArg b ?_)
  funext a
  match a with
  | ⟨0, _⟩ => rfl

/-- A layer without rectifier: product plus bias. -/
theorem dense_row {M K N : Nat} {φ₁ φ₂ : FTy} (prec : Option ContractPrecision)
    (y : FVec Ideal ⟨2, ![M, K]⟩ φ₁) (w : FVec Ideal ⟨2, ![K, N]⟩ φ₂)
    (hw : (⟨2, ![K, N]⟩ : Shape).ShapeCasts ⟨2, ![K, N]⟩)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (j : Fin N)
    (yr : Fin K → EReal) (hy : ∀ k, y (ix2 r k) = yr k) :
    addf (matmul (DotDims.plain M K N) prec y (shapeCast ⟨2, ![K, N]⟩ w hw)
        (constant (F := Ideal) ⟨2, ![M, N]⟩ .f32 0x00000000#32))
      (broadcastTo ⟨2, ![M, N]⟩ (shapeCast ⟨2, ![1, N]⟩ b h1) h2) (ix2 r j)
      = Net.lin yr (fun k j => w (ix2 k j)) (fun j => b (ix1 j)) j := by
  show FloatOps.matmul (DotDims.plain M K N) prec y (shapeCast ⟨2, ![K, N]⟩ w hw)
        (constant (F := Ideal) ⟨2, ![M, N]⟩ .f32 0x00000000#32) (ix2 r j)
      + broadcastTo ⟨2, ![M, N]⟩ (shapeCast ⟨2, ![1, N]⟩ b h1) h2 (ix2 r j) = _
  rw [mm_row prec y w hw r j yr hy, bias_row]
  rfl

/-- A hidden layer: product plus bias, then the maximum with zero. -/
theorem relu_dense_row {M K N : Nat} {φ₁ φ₂ : FTy} (prec : Option ContractPrecision)
    (y : FVec Ideal ⟨2, ![M, K]⟩ φ₁) (w : FVec Ideal ⟨2, ![K, N]⟩ φ₂)
    (hw : (⟨2, ![K, N]⟩ : Shape).ShapeCasts ⟨2, ![K, N]⟩)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (j : Fin N)
    (yr : Fin K → EReal) (hy : ∀ k, y (ix2 r k) = yr k) :
    maximumf (addf (matmul (DotDims.plain M K N) prec y (shapeCast ⟨2, ![K, N]⟩ w hw)
        (constant (F := Ideal) ⟨2, ![M, N]⟩ .f32 0x00000000#32))
      (broadcastTo ⟨2, ![M, N]⟩ (shapeCast ⟨2, ![1, N]⟩ b h1) h2))
      (broadcast ⟨2, ![M, N]⟩ (Scalar.ofBits (F := Ideal) .f32 0x00000000#32)) (ix2 r j)
      = Net.relu (Net.lin yr (fun k j => w (ix2 k j)) (fun j => b (ix1 j)) j) :=
  congrArg (fun t => max t (Ideal.ofBits .f32 0x00000000#32)) (dense_row prec y w hw b h1 h2 r j yr hy)

/-- The sum of two products, as a two-input layer spells its matrix part. -/
theorem mm2_row {M K₁ K₂ N : Nat} {φ₁ φ₂ φ₃ φ₄ : FTy} (p₁ p₂ : Option ContractPrecision)
    (y₁ : FVec Ideal ⟨2, ![M, K₁]⟩ φ₁) (w₁ : FVec Ideal ⟨2, ![K₁, N]⟩ φ₂)
    (hw₁ : (⟨2, ![K₁, N]⟩ : Shape).ShapeCasts ⟨2, ![K₁, N]⟩)
    (y₂ : FVec Ideal ⟨2, ![M, K₂]⟩ φ₃) (w₂ : FVec Ideal ⟨2, ![K₂, N]⟩ φ₄)
    (hw₂ : (⟨2, ![K₂, N]⟩ : Shape).ShapeCasts ⟨2, ![K₂, N]⟩) (r : Fin M) (j : Fin N)
    (yr₁ : Fin K₁ → EReal) (hy₁ : ∀ k, y₁ (ix2 r k) = yr₁ k)
    (yr₂ : Fin K₂ → EReal) (hy₂ : ∀ k, y₂ (ix2 r k) = yr₂ k) :
    addf (matmul (DotDims.plain M K₁ N) p₁ y₁ (shapeCast ⟨2, ![K₁, N]⟩ w₁ hw₁)
        (constant (F := Ideal) ⟨2, ![M, N]⟩ .f32 0x00000000#32))
      (matmul (DotDims.plain M K₂ N) p₂ y₂ (shapeCast ⟨2, ![K₂, N]⟩ w₂ hw₂)
        (constant (F := Ideal) ⟨2, ![M, N]⟩ .f32 0x00000000#32)) (ix2 r j)
      = (∑ k : Fin K₁, yr₁ k * w₁ (ix2 k j)) + ∑ k : Fin K₂, yr₂ k * w₂ (ix2 k j) :=
  congrArg₂ (· + ·) (mm_row p₁ y₁ w₁ hw₁ r j yr₁ hy₁) (mm_row p₂ y₂ w₂ hw₂ r j yr₂ hy₂)

/-- A bias row added to a value and rectified: the tail of a two-input hidden layer. -/
theorem relu_bias_row {M N : Nat} (z : FVec Ideal ⟨2, ![M, N]⟩ .f32) (v : FVec Ideal ⟨2, ![1, N]⟩ .f32)
    (h2 : (⟨2, ![1, N]⟩ : Shape).Broadcasts ⟨2, ![M, N]⟩) (r : Fin M) (j : Fin N)
    (zr : EReal) (hz : z (ix2 r j) = zr) (br : EReal) (hb : v (ix2 ⟨0, Nat.one_pos⟩ j) = br) :
    maximumf (addf z (broadcastTo ⟨2, ![M, N]⟩ v h2))
      (broadcast ⟨2, ![M, N]⟩ (Scalar.ofBits (F := Ideal) .f32 0x00000000#32)) (ix2 r j)
      = Net.relu (zr + br) := by
  show max (z (ix2 r j) + broadcastTo ⟨2, ![M, N]⟩ v h2 (ix2 r j)) (Ideal.ofBits .f32 0x00000000#32) = _
  rw [bcast_row, hz, hb]
  rfl

/-- A hidden layer rounded to a narrower format afterwards: at the ideal values the rounding is the identity. -/
theorem relu_dense_row_t {M K N : Nat} {φ₁ φ₂ ψ : FTy} (hψ : ψ.bits < FTy.f32.bits) (prec : Option ContractPrecision)
    (y : FVec Ideal ⟨2, ![M, K]⟩ φ₁) (w : FVec Ideal ⟨2, ![K, N]⟩ φ₂)
    (hw : (⟨2, ![K, N]⟩ : Shape).ShapeCasts ⟨2, ![K, N]⟩)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (j : Fin N)
    (yr : Fin K → EReal) (hy : ∀ k, y (ix2 r k) = yr k) :
    truncf ψ (maximumf (addf (matmul (DotDims.plain M K N) prec y (shapeCast ⟨2, ![K, N]⟩ w hw)
        (constant (F := Ideal) ⟨2, ![M, N]⟩ .f32 0x00000000#32))
      (broadcastTo ⟨2, ![M, N]⟩ (shapeCast ⟨2, ![1, N]⟩ b h1) h2))
      (broadcast ⟨2, ![M, N]⟩ (Scalar.ofBits (F := Ideal) .f32 0x00000000#32))) hψ (ix2 r j)
      = Net.relu (Net.lin yr (fun k j => w (ix2 k j)) (fun j => b (ix1 j)) j) :=
  relu_dense_row prec y w hw b h1 h2 r j yr hy

/-- The tail of a two-input hidden layer, rounded afterwards. -/
theorem relu_bias_row_t {M N : Nat} {ψ : FTy} (hψ : ψ.bits < FTy.f32.bits)
    (z : FVec Ideal ⟨2, ![M, N]⟩ .f32) (v : FVec Ideal ⟨2, ![1, N]⟩ .f32)
    (h2 : (⟨2, ![1, N]⟩ : Shape).Broadcasts ⟨2, ![M, N]⟩) (r : Fin M) (j : Fin N)
    (zr : EReal) (hz : z (ix2 r j) = zr) (br : EReal) (hb : v (ix2 ⟨0, Nat.one_pos⟩ j) = br) :
    truncf ψ (maximumf (addf z (broadcastTo ⟨2, ![M, N]⟩ v h2))
      (broadcast ⟨2, ![M, N]⟩ (Scalar.ofBits (F := Ideal) .f32 0x00000000#32))) hψ (ix2 r j)
      = Net.relu (zr + br) :=
  relu_bias_row z v h2 r j zr hz br hb

/-- A two-input hidden layer in one piece: two products summed, the bias row, the rectifier, the rounding. -/
theorem relu_dense2_row_t {M K₁ K₂ N : Nat} {φ₁ φ₂ φ₃ φ₄ ψ : FTy} (hψ : ψ.bits < FTy.f32.bits)
    (p₁ p₂ : Option ContractPrecision)
    (y₁ : FVec Ideal ⟨2, ![M, K₁]⟩ φ₁) (w₁ : FVec Ideal ⟨2, ![K₁, N]⟩ φ₂)
    (hw₁ : (⟨2, ![K₁, N]⟩ : Shape).ShapeCasts ⟨2, ![K₁, N]⟩)
    (y₂ : FVec Ideal ⟨2, ![M, K₂]⟩ φ₃) (w₂ : FVec Ideal ⟨2, ![K₂, N]⟩ φ₄)
    (hw₂ : (⟨2, ![K₂, N]⟩ : Shape).ShapeCasts ⟨2, ![K₂, N]⟩)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (j : Fin N)
    (yr₁ : Fin K₁ → EReal) (hy₁ : ∀ k, y₁ (ix2 r k) = yr₁ k)
    (yr₂ : Fin K₂ → EReal) (hy₂ : ∀ k, y₂ (ix2 r k) = yr₂ k) :
    truncf ψ (maximumf (addf (addf
        (matmul (DotDims.plain M K₁ N) p₁ y₁ (shapeCast ⟨2, ![K₁, N]⟩ w₁ hw₁)
          (constant (F := Ideal) ⟨2, ![M, N]⟩ .f32 0x00000000#32))
        (matmul (DotDims.plain M K₂ N) p₂ y₂ (shapeCast ⟨2, ![K₂, N]⟩ w₂ hw₂)
          (constant (F := Ideal) ⟨2, ![M, N]⟩ .f32 0x00000000#32)))
        (broadcastTo ⟨2, ![M, N]⟩ (shapeCast ⟨2, ![1, N]⟩ b h1) h2))
      (broadcast ⟨2, ![M, N]⟩ (Scalar.ofBits (F := Ideal) .f32 0x00000000#32))) hψ (ix2 r j)
      = Net.relu (Net.lin2 yr₁ (fun k j => w₁ (ix2 k j)) yr₂ (fun k j => w₂ (ix2 k j)) (fun j => b (ix1 j)) j) := by
  show max ((FloatOps.matmul (DotDims.plain M K₁ N) p₁ y₁ (shapeCast ⟨2, ![K₁, N]⟩ w₁ hw₁)
          (constant (F := Ideal) ⟨2, ![M, N]⟩ .f32 0x00000000#32) (ix2 r j)
        + FloatOps.matmul (DotDims.plain M K₂ N) p₂ y₂ (shapeCast ⟨2, ![K₂, N]⟩ w₂ hw₂)
          (constant (F := Ideal) ⟨2, ![M, N]⟩ .f32 0x00000000#32) (ix2 r j))
      + broadcastTo ⟨2, ![M, N]⟩ (shapeCast ⟨2, ![1, N]⟩ b h1) h2 (ix2 r j)) (Ideal.ofBits .f32 0x00000000#32) = _
  rw [mm_row p₁ y₁ w₁ hw₁ r j yr₁ hy₁, mm_row p₂ y₂ w₂ hw₂ r j yr₂ hy₂, bias_row]
  rfl

end Cert.Layer

end
-- ==== Proof.Cat.lean ====
/-
  Concatenations along the columns of a two-axis value, read at one entry.

  * Two pieces of widths `A` and `B`: column `k < A` is the left piece's column `k`; column `k ≥ A` is the
    right piece's column `k - A`.
  * `N` pieces of three columns each: column `k` is piece `k / 3`, column `k % 3`.
-/
import Idealize.ShloMosaic.Lib.ValueIdx
import Idealize.ShloMosaic.Lib.Pipeline.Value

noncomputable section

open Idealize.ShloMosaic Idealize.ShloMosaic.ValueIdx

namespace Cert.Cat

variable {α : Type}

/-- Left part of a two-piece concatenation along the columns. -/
theorem pair_left {R A B C : Nat} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, C]⟩ 1) (r : Fin R) (k : Fin C) (hk : k.val < A) :
    concatenate ⟨2, ![R, C]⟩ 1 [⟨⟨2, ![R, A]⟩, x₁⟩, ⟨⟨2, ![R, B]⟩, x₂⟩] h (ix2 r k) = x₁ (ix2 r ⟨k.val, hk⟩) :=
  concatenate_pair_apply_left 1 x₁ x₂ h (ix2 r k) rfl (ix2 r ⟨k.val, hk⟩)
    (fun b => match b with
      | ⟨0, _⟩ => rfl
      | ⟨1, _⟩ => rfl)

/-- Right part of a two-piece concatenation along the columns. -/
theorem pair_right {R A B C : Nat} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, C]⟩ 1) (r : Fin R) (k : Fin C) (hk : A ≤ k.val)
    (hk2 : k.val - A < B) :
    concatenate ⟨2, ![R, C]⟩ 1 [⟨⟨2, ![R, A]⟩, x₁⟩, ⟨⟨2, ![R, B]⟩, x₂⟩] h (ix2 r k) = x₂ (ix2 r ⟨k.val - A, hk2⟩) :=
  concatenate_pair_apply_right 1 x₁ x₂ h (ix2 r k) rfl rfl (ix2 r ⟨k.val - A, hk2⟩)
    (fun b hb => match b, hb with
      | ⟨0, _⟩, _ => rfl
      | ⟨1, _⟩, hb => absurd rfl hb)
    (by show k.val - A + A = k.val; omega)

/-- `N` pieces of three columns each, laid side by side. -/
theorem triples {R N C : Nat} (f : Fin N → ((⟨2, ![R, 3]⟩ : Shape).Idx → α))
    (h : Shape.Concatenates ((List.ofFn fun n : Fin N => (⟨⟨2, ![R, 3]⟩, f n⟩ : (s : Shape) × (s.Idx → α))).map (·.1)) ⟨2, ![R, C]⟩ 1)
    (r : Fin R) (k : Fin C) (hk : k.val / 3 < N) :
    concatenate ⟨2, ![R, C]⟩ 1 (List.ofFn fun n : Fin N => (⟨⟨2, ![R, 3]⟩, f n⟩ : (s : Shape) × (s.Idx → α))) h (ix2 r k)
      = f ⟨k.val / 3, hk⟩ (ix2 r ⟨k.val % 3, Nat.mod_lt _ (by decide)⟩) :=
  concatenate_ofFn_apply 1 f h rfl 3 rfl (ix2 r k) ⟨k.val / 3, hk⟩ rfl (ix2 r ⟨k.val % 3, Nat.mod_lt _ (by decide)⟩) rfl
    (fun b hb => match b, hb with
      | ⟨0, _⟩, _ => rfl
      | ⟨1, _⟩, hb => absurd rfl hb)

end Cert.Cat

end
-- ==== Proof.KernelRows.lean ====
/-
  The kernel body's arithmetic, read one sample at a time.

  The body works on a block of 8192 samples (rows).  Each stored piece of its arithmetic is a two-axis
  value whose row `r` depends only on row `r` of the position block, row `r` of the direction block, and
  the weights.  The lemmas below say which per-sample quantity of `Net` each piece holds in row `r`,
  given what its inputs hold in row `r`:

  * the concatenation of the 21 (resp. 9) three-column waves is the positional embedding;
  * two stem layers, then three stem layers and the two partial products of the fifth, then its bias and
    rectifier and the last two stem layers, the density head, the geometry features, the first colour
    layer (again two partial products), and finally the second colour layer beside the density,
    transposed so that samples run along the columns.

  `body_row` chains them: entry `(c, r)` of what the body stores is output `c` of the network on sample `r`.
-/
import proofs.«105194_j54752243090148_2_alg».proof.Proof.Gen.KernelIdeal.Skeleton
import proofs.«105194_j54752243090148_2_alg».proof.Proof.Layer
import proofs.«105194_j54752243090148_2_alg».proof.Proof.Cat

noncomputable section

open scoped BigOperators
open Idealize.ShloMosaic Idealize.ShloMosaic.ValueIdx

namespace Cert.KRows

open Cert.KernelIdeal Cert.KernelIdeal.Gen Cert.Layer

/-! ## The embedding of the position -/

/-- The 21 three-column pieces the body lays side by side: the block itself, thirteen waves computed
    earlier, and the seven last waves. -/
def xwaves (v0 : Vec Ideal S8192x3 .f32) (v4 v7 v10 v13 v16 v19 v22 v25 v28 v31 v34 v37 v40 : FVec Ideal S8192x3 .f32) (c : Ideal .f32) (n : Fin 21) : S8192x3.Idx → EReal :=
  match n with
  | ⟨0, _⟩ => v0
  | ⟨1, _⟩ => v4
  | ⟨2, _⟩ => v7
  | ⟨3, _⟩ => v10
  | ⟨4, _⟩ => v13
  | ⟨5, _⟩ => v16
  | ⟨6, _⟩ => v19
  | ⟨7, _⟩ => v22
  | ⟨8, _⟩ => v25
  | ⟨9, _⟩ => v28
  | ⟨10, _⟩ => v31
  | ⟨11, _⟩ => v34
  | ⟨12, _⟩ => v37
  | ⟨13, _⟩ => v40
  | ⟨14, _⟩ => cos (mulf (broadcast S8192x3 c) v0)
  | ⟨15, _⟩ => sin (mulf (broadcast S8192x3 (Scalar.ofBits (F := Ideal) .f32 0x43000000#32)) v0)
  | ⟨16, _⟩ => cos (mulf (broadcast S8192x3 (Scalar.ofBits (F := Ideal) .f32 0x43000000#32)) v0)
  | ⟨17, _⟩ => sin (mulf (broadcast S8192x3 (Scalar.ofBits (F := Ideal) .f32 0x43800000#32)) v0)
  | ⟨18, _⟩ => cos (mulf (broadcast S8192x3 (Scalar.ofBits (F := Ideal) .f32 0x43800000#32)) v0)
  | ⟨19, _⟩ => sin (mulf (broadcast S8192x3 (Scalar.ofBits (F := Ideal) .f32 0x44000000#32)) v0)
  | ⟨20, _⟩ => cos (mulf (broadcast S8192x3 (Scalar.ofBits (F := Ideal) .f32 0x44000000#32)) v0)
  | ⟨n + 21, h⟩ => absurd h (by omega)

/-- Column `k` of the concatenation is piece `k / 3`, column `k % 3`. -/
theorem pay15_cols (v0 : Vec Ideal S8192x3 .f32) (v4 v7 v10 v13 v16 v19 v22 v25 v28 v31 v34 v37 v40 : FVec Ideal S8192x3 .f32) (c : Ideal .f32) (r : Fin 8192) (k : Fin 63) :
    k0_pay15 v0 v4 v7 v10 v13 v16 v19 v22 v25 v28 v31 v34 v37 v40 c (ix2 r k)
      = xwaves v0 v4 v7 v10 v13 v16 v19 v22 v25 v28 v31 v34 v37 v40 c ⟨k.val / 3, by have := k.isLt; omega⟩ (ix2 r ⟨k.val % 3, Nat.mod_lt _ (by decide)⟩) := by
  unfold k0_pay15
  exact Cat.triples (xwaves v0 v4 v7 v10 v13 v16 v19 v22 v25 v28 v31 v34 v37 v40 c) _ r k _

/-- With the thirteen earlier waves in place, piece `n` is wave `n` of the block, entry by entry. -/
theorem xwaves_eq (v0 : Vec Ideal S8192x3 .f32) (n : Fin 21) (i : S8192x3.Idx) :
    xwaves v0 (k0_pay2 v0) (k0_pay3 v0) (k0_pay4 v0) (k0_pay5 v0) (k0_pay6 v0) (k0_pay7 v0) (k0_pay8 v0) (k0_pay9 v0) (k0_pay10 v0) (k0_pay11 v0) (k0_pay12 v0) (k0_pay13 v0) (k0_pay14 v0) (Scalar.ofBits .f32 0x42800000#32) n i = Net.wave n.val (v0 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨n + 21, h⟩ => exact absurd h (by omega)

/-- Row `r` of the embedded block is the embedding of row `r`. -/
theorem xe_row (v0 : Vec Ideal S8192x3 .f32) (r : Fin 8192) (k : Fin 63) :
    k0_pay15 v0 (k0_pay2 v0) (k0_pay3 v0) (k0_pay4 v0) (k0_pay5 v0) (k0_pay6 v0) (k0_pay7 v0) (k0_pay8 v0) (k0_pay9 v0) (k0_pay10 v0) (k0_pay11 v0) (k0_pay12 v0) (k0_pay13 v0) (k0_pay14 v0) (Scalar.ofBits .f32 0x42800000#32) (ix2 r k) = Net.xe (fun a => v0 (ix2 r a)) k := by
  rw [pay15_cols, xwaves_eq]
  rfl

/-! ## The stem -/

/-- The first two stem layers: row `r` from the embedded row `e`. -/
theorem pay17_row (v0 : Vec Ideal S8192x3 .f32) (v4 v7 v10 v13 v16 v19 v22 v25 v28 v31 v34 v37 v40 : FVec Ideal S8192x3 .f32) (c : Ideal .f32)
    (v63 : Vec Ideal S63x256 .f32) (v66 : Vec Ideal S256 .f32) (v74 : Vec Ideal S256x256 .bf16) (v77 : Vec Ideal S256 .f32)
    (r : Fin 8192) (e : Fin 63 → EReal) (he : ∀ k, k0_pay15 v0 v4 v7 v10 v13 v16 v19 v22 v25 v28 v31 v34 v37 v40 c (ix2 r k) = e k) (j : Fin 256) :
    k0_pay17 v0 v4 v7 v10 v13 v16 v19 v22 v25 v28 v31 v34 v37 v40 c v63 v66 v74 v77 (ix2 r j)
      = Net.relu (Net.lin (fun j' => Net.relu (Net.lin e (fun k j => v63 (ix2 k j)) (fun j => v66 (ix1 j)) j'))
          (fun k j => v74 (ix2 k j)) (fun j => v77 (ix1 j)) j) := by
  unfold k0_pay17
  exact relu_dense_row_t _ none _ v74 _ v77 _ _ r j _
    (fun k => relu_dense_row_t _ (some .fp32) _ v63 _ v66 _ _ r k e he)

/-- Stem layers three to five, and the two partial products of the sixth: the embedded row `e` times its
    part of the matrix plus the fifth layer's row times the other part. -/
theorem pay18_row (v73 : FVec Ideal S8192x63 .bf16) (v83 : FVec Ideal S8192x256 .bf16)
    (v84 : Vec Ideal S256x256 .bf16) (v87 : Vec Ideal S256 .f32) (v94 : Vec Ideal S256x256 .bf16) (v97 : Vec Ideal S256 .f32)
    (v104 : Vec Ideal S256x256 .bf16) (v107 : Vec Ideal S256 .f32) (v114 : Vec Ideal S63x256 .bf16) (v117 : Vec Ideal S256x256 .bf16)
    (r : Fin 8192) (e : Fin 63 → EReal) (he : ∀ k, v73 (ix2 r k) = e k)
    (y : Fin 256 → EReal) (hy : ∀ k, v83 (ix2 r k) = y k) (j : Fin 256) :
    k0_pay18 v73 v83 v84 v87 v94 v97 v104 v107 v114 v117 (ix2 r j)
      = (∑ k : Fin 63, e k * v114 (ix2 k j))
        + ∑ k : Fin 256, (fun j₄ => Net.relu (Net.lin (fun j₃ => Net.relu (Net.lin (fun j₂ => Net.relu (Net.lin y
              (fun k j => v84 (ix2 k j)) (fun j => v87 (ix1 j)) j₂))
            (fun k j => v94 (ix2 k j)) (fun j => v97 (ix1 j)) j₃))
          (fun k j => v104 (ix2 k j)) (fun j => v107 (ix1 j)) j₄)) k * v117 (ix2 k j) := by
  unfold k0_pay18
  exact mm2_row none none v73 v114 _ _ v117 _ r j e he _
    (fun k => relu_dense_row_t _ none _ v104 _ v107 _ _ r k _
      (fun k => relu_dense_row_t _ none _ v94 _ v97 _ _ r k _
        (fun k => relu_dense_row_t _ none _ v84 _ v87 _ _ r k y hy)))

/-- The sixth layer's bias as a row. -/
theorem pay19_row (v121 : Vec Ideal S256 .f32) (j : Fin 256) :
    k0_pay19 v121 (ix2 ⟨0, Nat.one_pos⟩ j) = v121 (ix1 j) := by
  unfold k0_pay19
  exact as_row v121 _ j

/-- The sixth layer's bias and rectifier, then the last two stem layers. -/
theorem pay20_row (v120 : FVec Ideal S8192x256 .f32) (v122 : FVec Ideal S1x256 .f32)
    (v128 : Vec Ideal S256x256 .bf16) (v131 : Vec Ideal S256 .f32) (v138 : Vec Ideal S256x256 .bf16) (v141 : Vec Ideal S256 .f32)
    (r : Fin 8192) (z : Fin 256 → EReal) (hz : ∀ j, v120 (ix2 r j) = z j)
    (bb : Fin 256 → EReal) (hb : ∀ j, v122 (ix2 ⟨0, Nat.one_pos⟩ j) = bb j) (j : Fin 256) :
    k0_pay20 v120 v122 v128 v131 v138 v141 (ix2 r j)
      = Net.relu (Net.lin (fun j₇ => Net.relu (Net.lin (fun j₆ => Net.relu (z j₆ + bb j₆))
            (fun k j => v128 (ix2 k j)) (fun j => v131 (ix1 j)) j₇))
          (fun k j => v138 (ix2 k j)) (fun j => v141 (ix1 j)) j) := by
  unfold k0_pay20
  exact relu_dense_row_t _ none _ v138 _ v141 _ _ r j _
    (fun k => relu_dense_row_t _ none _ v128 _ v131 _ _ r k _
      (fun k => relu_bias_row_t _ v120 v122 _ r k (z k) (hz k) (bb k) (hb k)))

/-! ## The heads -/

/-- The density head on the last stem row `y`. -/
theorem pay21_row (v120 : FVec Ideal S8192x256 .f32) (v122 : FVec Ideal S1x256 .f32)
    (v128 : Vec Ideal S256x256 .bf16) (v131 : Vec Ideal S256 .f32) (v138 : Vec Ideal S256x256 .bf16) (v141 : Vec Ideal S256 .f32)
    (v148 : Vec Ideal S256x1 .bf16) (v151 : Vec Ideal S1 .f32)
    (r : Fin 8192) (y : Fin 256 → EReal) (hy : ∀ k, k0_pay20 v120 v122 v128 v131 v138 v141 (ix2 r k) = y k) (j : Fin 1) :
    k0_pay21 v120 v122 v128 v131 v138 v141 v148 v151 (ix2 r j)
      = Net.lin y (fun k j => v148 (ix2 k j)) (fun j => v151 (ix1 j)) j := by
  unfold k0_pay21
  exact dense_row none _ v148 _ v151 _ _ r j y hy

/-- The geometry features on the last stem row `y`. -/
theorem pay22_row (v120 : FVec Ideal S8192x256 .f32) (v122 : FVec Ideal S1x256 .f32)
    (v128 : Vec Ideal S256x256 .bf16) (v131 : Vec Ideal S256 .f32) (v138 : Vec Ideal S256x256 .bf16) (v141 : Vec Ideal S256 .f32)
    (v155 : Vec Ideal S256x256 .bf16) (v158 : Vec Ideal S256 .f32)
    (r : Fin 8192) (y : Fin 256 → EReal) (hy : ∀ k, k0_pay20 v120 v122 v128 v131 v138 v141 (ix2 r k) = y k) (j : Fin 256) :
    k0_pay22 v120 v122 v128 v131 v138 v141 v155 v158 (ix2 r j)
      = Net.lin y (fun k j => v155 (ix2 k j)) (fun j => v158 (ix1 j)) j := by
  unfold k0_pay22
  exact dense_row none _ v155 _ v158 _ _ r j y hy

/-! ## The embedding of the direction and the colour layers -/

/-- The nine three-column pieces of the direction's embedding; `u` is the splat of the first frequency. -/
def dwaves (v1 : Vec Ideal S8192x3 .f32) (u : FVec Ideal S8192x3 .f32) (n : Fin 9) : S8192x3.Idx → EReal :=
  match n with
  | ⟨0, _⟩ => v1
  | ⟨1, _⟩ => sin (mulf u v1)
  | ⟨2, _⟩ => cos (mulf (broadcast S8192x3 (Scalar.ofBits (F := Ideal) .f32 0x3F800000#32)) v1)
  | ⟨3, _⟩ => sin (mulf (broadcast S8192x3 (Scalar.ofBits (F := Ideal) .f32 0x40000000#32)) v1)
  | ⟨4, _⟩ => cos (mulf (broadcast S8192x3 (Scalar.ofBits (F := Ideal) .f32 0x40000000#32)) v1)
  | ⟨5, _⟩ => sin (mulf (broadcast S8192x3 (Scalar.ofBits (F := Ideal) .f32 0x40800000#32)) v1)
  | ⟨6, _⟩ => cos (mulf (broadcast S8192x3 (Scalar.ofBits (F := Ideal) .f32 0x40800000#32)) v1)
  | ⟨7, _⟩ => sin (mulf (broadcast S8192x3 (Scalar.ofBits (F := Ideal) .f32 0x41000000#32)) v1)
  | ⟨8, _⟩ => cos (mulf (broadcast S8192x3 (Scalar.ofBits (F := Ideal) .f32 0x41000000#32)) v1)
  | ⟨n + 9, h⟩ => absurd h (by omega)

theorem dwaves_eq (v1 : Vec Ideal S8192x3 .f32) (n : Fin 9) (i : S8192x3.Idx) :
    dwaves v1 (k0_pay23 (F := Ideal)) n i = Net.wave n.val (v1 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, h⟩ => exact absurd h (by omega)

/-- The first colour layer: the geometry row `g` and the embedded direction row, each times its part of the
    matrix, the bias, the rectifier. -/
theorem pay24_row (v1 : Vec Ideal S8192x3 .f32) (v161 : FVec Ideal S8192x256 .f32)
    (v189 : Vec Ideal S256x128 .bf16) (v192 : Vec Ideal S27x128 .bf16) (v196 : Vec Ideal S128 .f32)
    (r : Fin 8192) (g : Fin 256 → EReal) (hg : ∀ k, v161 (ix2 r k) = g k) (j : Fin 128) :
    k0_pay24 v1 v161 (k0_pay23 (F := Ideal)) v189 v192 v196 (ix2 r j)
      = Net.relu (Net.lin2 g (fun k j => v189 (ix2 k j)) (Net.de (fun a => v1 (ix2 r a))) (fun k j => v192 (ix2 k j))
          (fun j => v196 (ix1 j)) j) := by
  unfold k0_pay24
  refine relu_dense2_row_t _ none none _ v189 _ _ v192 _ v196 _ _ r j g (fun k => hg k) _ (fun k => ?_)
  refine Eq.trans (truncf_apply (ψ := .bf16) _ bitsLt_bf16_f32 (ix2 r k)) ?_
  refine (Cat.triples (dwaves v1 (k0_pay23 (F := Ideal))) _ r k (by have := k.isLt; omega)).trans ?_
  rw [dwaves_eq]
  rfl

/-- The second colour layer beside the density, samples along the columns: entry `(c, r)`. -/
theorem pay1_row (v154 : FVec Ideal S8192x1 .f32) (v202 : FVec Ideal S8192x128 .bf16) (v203 : Vec Ideal S128x3 .bf16)
    (v206 : Vec Ideal S3 .f32) (r : Fin 8192) (s : EReal) (hs : v154 (ix2 r ⟨0, Nat.one_pos⟩) = s)
    (y : Fin 128 → EReal) (hy : ∀ k, v202 (ix2 r k) = y k) (c : Fin 4) :
    k0_pay1 v154 v202 (k0_pay25 v203) (constant S8192x3 .f32 0x00000000#32) v206 (ix2 c r)
      = if h : c.val < 3 then Net.lin y (fun k j => v203 (ix2 k j)) (fun j => v206 (ix1 j)) ⟨c.val, h⟩ else s := by
  unfold k0_pay1 k0_pay25
  refine (transpose_apply [1, 0] _ _ (ix2 c r) (ix2 r c) (fun b => match b with
    | ⟨0, _⟩ => rfl
    | ⟨1, _⟩ => rfl)).trans ?_
  split
  · rename_i h
    refine (Cat.pair_left _ _ _ r c h).trans ?_
    exact dense_row none _ v203 _ v206 _ _ r ⟨c.val, h⟩ y hy
  · rename_i h
    have hc : c.val < 4 := c.isLt
    refine (Cat.pair_right _ _ _ r c (by omega) (by omega)).trans ?_
    rw [show (⟨c.val - 3, by omega⟩ : Fin 1) = ⟨0, Nat.one_pos⟩ from Fin.ext (by show c.val - 3 = 0; omega)]
    exact hs

/-! ## The whole body -/

/-- The parameters as the loaded weight blocks give them: the blocks are already `[inputs, outputs]`. -/
def blockParams (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) (x14 : Vec Ideal S256 .f32)
    (x15 : Vec Ideal S256x256 .bf16) (x16 : Vec Ideal S256 .f32) (x17 : Vec Ideal S256x256 .bf16) (x18 : Vec Ideal S256 .f32)
    (x19 : Vec Ideal S256x1 .bf16) (x20 : Vec Ideal S1 .f32) (x21 : Vec Ideal S256x256 .bf16) (x22 : Vec Ideal S256 .f32)
    (x23 : Vec Ideal S256x128 .bf16) (x24 : Vec Ideal S27x128 .bf16) (x25 : Vec Ideal S128 .f32)
    (x26 : Vec Ideal S128x3 .bf16) (x27 : Vec Ideal S3 .f32) : Net.Params where
  W0 := fun k j => x2 (ix2 k j)
  b0 := fun j => x3 (ix1 j)
  W1 := fun k j => x4 (ix2 k j)
  b1 := fun j => x5 (ix1 j)
  W2 := fun k j => x6 (ix2 k j)
  b2 := fun j => x7 (ix1 j)
  W3 := fun k j => x8 (ix2 k j)
  b3 := fun j => x9 (ix1 j)
  W4 := fun k j => x10 (ix2 k j)
  b4 := fun j => x11 (ix1 j)
  W5a := fun k j => x12 (ix2 k j)
  W5b := fun k j => x13 (ix2 k j)
  b5 := fun j => x14 (ix1 j)
  W6 := fun k j => x15 (ix2 k j)
  b6 := fun j => x16 (ix1 j)
  W7 := fun k j => x17 (ix2 k j)
  b7 := fun j => x18 (ix1 j)
  Wd := fun k j => x19 (ix2 k j)
  bd := fun j => x20 (ix1 j)
  Wg := fun k j => x21 (ix2 k j)
  bg := fun j => x22 (ix1 j)
  Wc0a := fun k j => x23 (ix2 k j)
  Wc0b := fun k j => x24 (ix2 k j)
  bc0 := fun j => x25 (ix1 j)
  Wc1 := fun k j => x26 (ix2 k j)
  bc1 := fun j => x27 (ix1 j)

/-- The sum of the two partial products of the sixth stem layer, from the loaded blocks. -/
def stem5 (x0 : Vec Ideal S8192x3 .f32) (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) : FVec Ideal S8192x256 .f32 :=
  k0_pay18 (k0_pay16 x0 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (Scalar.ofBits .f32 0x42800000#32))
    (k0_pay17 x0 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (Scalar.ofBits .f32 0x42800000#32) x2 x3 x4 x5) x6 x7 x8 x9 x10 x11 x12 x13

/-- What the body stores, as one function of the 28 loaded blocks. -/
def bodyVal (x0 x1 : Vec Ideal S8192x3 .f32) (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) (x14 : Vec Ideal S256 .f32)
    (x15 : Vec Ideal S256x256 .bf16) (x16 : Vec Ideal S256 .f32) (x17 : Vec Ideal S256x256 .bf16) (x18 : Vec Ideal S256 .f32)
    (x19 : Vec Ideal S256x1 .bf16) (x20 : Vec Ideal S1 .f32) (x21 : Vec Ideal S256x256 .bf16) (x22 : Vec Ideal S256 .f32)
    (x23 : Vec Ideal S256x128 .bf16) (x24 : Vec Ideal S27x128 .bf16) (x25 : Vec Ideal S128 .f32)
    (x26 : Vec Ideal S128x3 .bf16) (x27 : Vec Ideal S3 .f32) : FVec Ideal S4x8192 .f32 :=
  k0_pay1
    (k0_pay21 (stem5 x0 x2 x3 x4 x5 x6 x7 x8 x9 x10 x11 x12 x13) (k0_pay19 x14) x15 x16 x17 x18 x19 x20)
    (k0_pay24 x1 (k0_pay22 (stem5 x0 x2 x3 x4 x5 x6 x7 x8 x9 x10 x11 x12 x13) (k0_pay19 x14) x15 x16 x17 x18 x21 x22)
      (k0_pay23 (F := Ideal)) x23 x24 x25)
    (k0_pay25 x26) (constant S8192x3 .f32 0x00000000#32) x27

/-- Entry `(c, r)` of the stored value is output `c` of the network on sample `r` of the block. -/
theorem body_row (x0 x1 : Vec Ideal S8192x3 .f32) (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) (x14 : Vec Ideal S256 .f32)
    (x15 : Vec Ideal S256x256 .bf16) (x16 : Vec Ideal S256 .f32) (x17 : Vec Ideal S256x256 .bf16) (x18 : Vec Ideal S256 .f32)
    (x19 : Vec Ideal S256x1 .bf16) (x20 : Vec Ideal S1 .f32) (x21 : Vec Ideal S256x256 .bf16) (x22 : Vec Ideal S256 .f32)
    (x23 : Vec Ideal S256x128 .bf16) (x24 : Vec Ideal S27x128 .bf16) (x25 : Vec Ideal S128 .f32)
    (x26 : Vec Ideal S128x3 .bf16) (x27 : Vec Ideal S3 .f32) (r : Fin 8192) (c : Fin 4) :
    bodyVal x0 x1 x2 x3 x4 x5 x6 x7 x8 x9 x10 x11 x12 x13 x14 x15 x16 x17 x18 x19 x20 x21 x22 x23 x24 x25 x26 x27 (ix2 c r)
      = Net.out (blockParams x2 x3 x4 x5 x6 x7 x8 x9 x10 x11 x12 x13 x14 x15 x16 x17 x18 x19 x20 x21 x22 x23 x24 x25 x26 x27) (fun a => x0 (ix2 r a)) (fun a => x1 (ix2 r a)) c := by
  have hxe : ∀ k, k0_pay15 x0 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (Scalar.ofBits .f32 0x42800000#32) (ix2 r k) = Net.xe (fun a => x0 (ix2 r a)) k := xe_row x0 r
  have h16 : ∀ k, k0_pay16 x0 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (Scalar.ofBits .f32 0x42800000#32) (ix2 r k) = Net.xe (fun a => x0 (ix2 r a)) k := hxe
  have h1 := pay17_row x0 _ _ _ _ _ _ _ _ _ _ _ _ _ _ x2 x3 x4 x5 r _ hxe
  have h5 := pay18_row _ _ x6 x7 x8 x9 x10 x11 x12 x13 r _ h16 _ h1
  have h7 := pay20_row (stem5 x0 x2 x3 x4 x5 x6 x7 x8 x9 x10 x11 x12 x13) (k0_pay19 x14) x15 x16 x17 x18 r _ h5 _ (pay19_row x14)
  have hs := pay21_row _ _ x15 x16 x17 x18 x19 x20 r _ h7 ⟨0, Nat.one_pos⟩
  have hg := pay22_row _ _ x15 x16 x17 x18 x21 x22 r _ h7
  have hc0 := pay24_row x1 _ x23 x24 x25 r _ hg
  exact pay1_row _ _ x26 x27 r _ hs _ hc0 c

/-- The same at any index of the stored value. -/
theorem body_at (x0 x1 : Vec Ideal S8192x3 .f32) (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) (x14 : Vec Ideal S256 .f32)
    (x15 : Vec Ideal S256x256 .bf16) (x16 : Vec Ideal S256 .f32) (x17 : Vec Ideal S256x256 .bf16) (x18 : Vec Ideal S256 .f32)
    (x19 : Vec Ideal S256x1 .bf16) (x20 : Vec Ideal S1 .f32) (x21 : Vec Ideal S256x256 .bf16) (x22 : Vec Ideal S256 .f32)
    (x23 : Vec Ideal S256x128 .bf16) (x24 : Vec Ideal S27x128 .bf16) (x25 : Vec Ideal S128 .f32)
    (x26 : Vec Ideal S128x3 .bf16) (x27 : Vec Ideal S3 .f32) (y : S4x8192.Idx) :
    bodyVal x0 x1 x2 x3 x4 x5 x6 x7 x8 x9 x10 x11 x12 x13 x14 x15 x16 x17 x18 x19 x20 x21 x22 x23 x24 x25 x26 x27 y
      = Net.out (blockParams x2 x3 x4 x5 x6 x7 x8 x9 x10 x11 x12 x13 x14 x15 x16 x17 x18 x19 x20 x21 x22 x23 x24 x25 x26 x27) (fun a => x0 (ix2 (y 1) a)) (fun a => x1 (ix2 (y 1) a)) (y 0) := by
  exact (congrArg (bodyVal x0 x1 x2 x3 x4 x5 x6 x7 x8 x9 x10 x11 x12 x13 x14 x15 x16 x17 x18 x19 x20 x21 x22 x23 x24 x25 x26 x27) (eq_ix2 y)).trans (body_row x0 x1 x2 x3 x4 x5 x6 x7 x8 x9 x10 x11 x12 x13 x14 x15 x16 x17 x18 x19 x20 x21 x22 x23 x24 x25 x26 x27 (y 1) (y 0))

/-- The same against any parameters and sample the loaded blocks are known to hold, entry by entry. -/
theorem body_at_of (x0 x1 : Vec Ideal S8192x3 .f32) (x2 : Vec Ideal S63x256 .f32) (x3 : Vec Ideal S256 .f32)
    (x4 : Vec Ideal S256x256 .bf16) (x5 : Vec Ideal S256 .f32) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S63x256 .bf16) (x13 : Vec Ideal S256x256 .bf16) (x14 : Vec Ideal S256 .f32)
    (x15 : Vec Ideal S256x256 .bf16) (x16 : Vec Ideal S256 .f32) (x17 : Vec Ideal S256x256 .bf16) (x18 : Vec Ideal S256 .f32)
    (x19 : Vec Ideal S256x1 .bf16) (x20 : Vec Ideal S1 .f32) (x21 : Vec Ideal S256x256 .bf16) (x22 : Vec Ideal S256 .f32)
    (x23 : Vec Ideal S256x128 .bf16) (x24 : Vec Ideal S27x128 .bf16) (x25 : Vec Ideal S128 .f32)
    (x26 : Vec Ideal S128x3 .bf16) (x27 : Vec Ideal S3 .f32) (y : S4x8192.Idx)
    (P : Net.Params) (xr dr : Fin 3 → EReal)
    (hx : ∀ a, x0 (ix2 (y 1) a) = xr a) (hd : ∀ a, x1 (ix2 (y 1) a) = dr a)
    (h2 : ∀ k j, x2 (ix2 k j) = P.W0 k j) (h3 : ∀ j, x3 (ix1 j) = P.b0 j)
    (h4 : ∀ k j, x4 (ix2 k j) = P.W1 k j) (h5 : ∀ j, x5 (ix1 j) = P.b1 j)
    (h6 : ∀ k j, x6 (ix2 k j) = P.W2 k j) (h7 : ∀ j, x7 (ix1 j) = P.b2 j)
    (h8 : ∀ k j, x8 (ix2 k j) = P.W3 k j) (h9 : ∀ j, x9 (ix1 j) = P.b3 j)
    (h10 : ∀ k j, x10 (ix2 k j) = P.W4 k j) (h11 : ∀ j, x11 (ix1 j) = P.b4 j)
    (h12 : ∀ k j, x12 (ix2 k j) = P.W5a k j) (h13 : ∀ k j, x13 (ix2 k j) = P.W5b k j) (h14 : ∀ j, x14 (ix1 j) = P.b5 j)
    (h15 : ∀ k j, x15 (ix2 k j) = P.W6 k j) (h16 : ∀ j, x16 (ix1 j) = P.b6 j)
    (h17 : ∀ k j, x17 (ix2 k j) = P.W7 k j) (h18 : ∀ j, x18 (ix1 j) = P.b7 j)
    (h19 : ∀ k j, x19 (ix2 k j) = P.Wd k j) (h20 : ∀ j, x20 (ix1 j) = P.bd j)
    (h21 : ∀ k j, x21 (ix2 k j) = P.Wg k j) (h22 : ∀ j, x22 (ix1 j) = P.bg j)
    (h23 : ∀ k j, x23 (ix2 k j) = P.Wc0a k j) (h24 : ∀ k j, x24 (ix2 k j) = P.Wc0b k j) (h25 : ∀ j, x25 (ix1 j) = P.bc0 j)
    (h26 : ∀ k j, x26 (ix2 k j) = P.Wc1 k j) (h27 : ∀ j, x27 (ix1 j) = P.bc1 j) :
    bodyVal x0 x1 x2 x3 x4 x5 x6 x7 x8 x9 x10 x11 x12 x13 x14 x15 x16 x17 x18 x19 x20 x21 x22 x23 x24 x25 x26 x27 y = Net.out P xr dr (y 0) := by
  have hP : blockParams x2 x3 x4 x5 x6 x7 x8 x9 x10 x11 x12 x13 x14 x15 x16 x17 x18 x19 x20 x21 x22 x23 x24 x25 x26 x27 = P :=
    Net.Params.ext' _ _ h2 h3 h4 h5 h6 h7 h8 h9 h10 h11 h12 h13 h14 h15 h16 h17 h18 h19 h20 h21 h22 h23 h24 h25 h26 h27
  rw [body_at, hP, show (fun a => x0 (ix2 (y 1) a)) = xr from funext hx, show (fun a => x1 (ix2 (y 1) a)) = dr from funext hd]

end Cert.KRows

end
-- ==== Proof.KernelHost.lean ====
/-
  What the host lines before the kernel call put into the weight arrays the kernel is given: each is the
  transposed matrix of one argument (so that inputs run along the rows), for two of the arguments cut
  into its first and its remaining rows, and rounded to a narrower format — the identity at the ideal
  values.  Entry `(k, j)` of such an array is entry `(j, k)` (or `(j, o + k)`) of the argument.
-/
import proofs.«105194_j54752243090148_2_alg».proof.Proof.KernelIdealFrameP
import proofs.«105194_j54752243090148_2_alg».proof.Proof.Rows
import Idealize.ShloMosaic.Lib.StableHlo.Run

noncomputable section

open Idealize.ShloMosaic Idealize.ShloMosaic.TcCoe Idealize.ShloMosaic.ValueIdx Idealize.ShloMosaic.StableHlo Idealize.SL.Sem

namespace Cert.KHost

open Cert.KernelIdeal Cert.KernelIdeal.Gen Cert.Rows

variable (m : (ℓ : Loc nD τ sig) → Buf (Elt Ideal) ℓ)

-- The contents of array `v` when the kernel is called: the host lines applied to the launch contents.
set_option hygiene false in
local macro "host_lines" v:term : tactic =>
  `(tactic| (show StableHlo.after hostOps0 (fun b => m (c, b)) (Proc.devRef .tc $v) = _; after_results; all_goals rfl))

theorem v0_at (c : Dev nD) (k : Fin 63) (j : Fin 256) :
    V m c main_v0 (ix2 k j) = m ((c : Thread nD τ).loc main_arg2) (ix2 j k) := by
  have e : V m c main_v0 = transpose S63x256 [1, 0] (m ((c : Thread nD τ).loc main_arg2)) transposes_S256x63_S63x256_1_0 := by
    host_lines main_v0
  rw [e]
  exact transpose_at _ _ k j

theorem v2_at (c : Dev nD) (k : Fin 256) (j : Fin 256) :
    V m c main_v2 (ix2 k j) = m ((c : Thread nD τ).loc main_arg4) (ix2 j k) := by
  have e : V m c main_v2 = truncf (F := Ideal) .bf16 (transpose S256x256 [1, 0] (m ((c : Thread nD τ).loc main_arg4)) transposes_S256x256_S256x256_1_0) bitsLt_bf16_f32 := by
    host_lines main_v2
  rw [e]
  exact transpose_at _ _ k j

theorem v4_at (c : Dev nD) (k : Fin 256) (j : Fin 256) :
    V m c main_v4 (ix2 k j) = m ((c : Thread nD τ).loc main_arg6) (ix2 j k) := by
  have e : V m c main_v4 = truncf (F := Ideal) .bf16 (transpose S256x256 [1, 0] (m ((c : Thread nD τ).loc main_arg6)) transposes_S256x256_S256x256_1_0) bitsLt_bf16_f32 := by
    host_lines main_v4
  rw [e]
  exact transpose_at _ _ k j

theorem v6_at (c : Dev nD) (k : Fin 256) (j : Fin 256) :
    V m c main_v6 (ix2 k j) = m ((c : Thread nD τ).loc main_arg8) (ix2 j k) := by
  have e : V m c main_v6 = truncf (F := Ideal) .bf16 (transpose S256x256 [1, 0] (m ((c : Thread nD τ).loc main_arg8)) transposes_S256x256_S256x256_1_0) bitsLt_bf16_f32 := by
    host_lines main_v6
  rw [e]
  exact transpose_at _ _ k j

theorem v8_at (c : Dev nD) (k : Fin 256) (j : Fin 256) :
    V m c main_v8 (ix2 k j) = m ((c : Thread nD τ).loc main_arg10) (ix2 j k) := by
  have e : V m c main_v8 = truncf (F := Ideal) .bf16 (transpose S256x256 [1, 0] (m ((c : Thread nD τ).loc main_arg10)) transposes_S256x256_S256x256_1_0) bitsLt_bf16_f32 := by
    host_lines main_v8
  rw [e]
  exact transpose_at _ _ k j

theorem v11_at (c : Dev nD) (k : Fin 63) (j : Fin 256) :
    V m c main_v11 (ix2 k j) = m ((c : Thread nD τ).loc main_arg12) (ix2 j ⟨k.val, by have := k.isLt; omega⟩) := by
  have e : V m c main_v11 = truncf (F := Ideal) .bf16 (extractStridedSlice S63x256 ![0, 0] (transpose S319x256 [1, 0] (m ((c : Thread nD τ).loc main_arg12)) transposes_S256x319_S319x256_1_0) slices_S319x256_S63x256_0_0) bitsLt_bf16_f32 := by
    host_lines main_v11
  rw [e]
  refine (rows_of_transpose_at 0 (m ((c : Thread nD τ).loc main_arg12)) transposes_S256x319_S319x256_1_0 slices_S319x256_S63x256_0_0 k j
    (by have := k.isLt; omega)).trans ?_
  exact congrArg (fun q => m ((c : Thread nD τ).loc main_arg12) (ix2 j q)) (Fin.ext (Nat.zero_add k.val))

theorem v13_at (c : Dev nD) (k : Fin 256) (j : Fin 256) :
    V m c main_v13 (ix2 k j) = m ((c : Thread nD τ).loc main_arg12) (ix2 j ⟨63 + k.val, by have := k.isLt; omega⟩) := by
  have e : V m c main_v13 = truncf (F := Ideal) .bf16 (extractStridedSlice S256x256 ![63, 0] (transpose S319x256 [1, 0] (m ((c : Thread nD τ).loc main_arg12)) transposes_S256x319_S319x256_1_0) slices_S319x256_S256x256_63_0) bitsLt_bf16_f32 := by
    host_lines main_v13
  rw [e]
  exact rows_of_transpose_at 63 (m ((c : Thread nD τ).loc main_arg12)) transposes_S256x319_S319x256_1_0 slices_S319x256_S256x256_63_0 k j
    (by have := k.isLt; omega)

theorem v15_at (c : Dev nD) (k : Fin 256) (j : Fin 256) :
    V m c main_v15 (ix2 k j) = m ((c : Thread nD τ).loc main_arg14) (ix2 j k) := by
  have e : V m c main_v15 = truncf (F := Ideal) .bf16 (transpose S256x256 [1, 0] (m ((c : Thread nD τ).loc main_arg14)) transposes_S256x256_S256x256_1_0) bitsLt_bf16_f32 := by
    host_lines main_v15
  rw [e]
  exact transpose_at _ _ k j

theorem v17_at (c : Dev nD) (k : Fin 256) (j : Fin 256) :
    V m c main_v17 (ix2 k j) = m ((c : Thread nD τ).loc main_arg16) (ix2 j k) := by
  have e : V m c main_v17 = truncf (F := Ideal) .bf16 (transpose S256x256 [1, 0] (m ((c : Thread nD τ).loc main_arg16)) transposes_S256x256_S256x256_1_0) bitsLt_bf16_f32 := by
    host_lines main_v17
  rw [e]
  exact transpose_at _ _ k j

theorem v19_at (c : Dev nD) (k : Fin 256) (j : Fin 1) :
    V m c main_v19 (ix2 k j) = m ((c : Thread nD τ).loc main_arg18) (ix2 j k) := by
  have e : V m c main_v19 = truncf (F := Ideal) .bf16 (transpose S256x1 [1, 0] (m ((c : Thread nD τ).loc main_arg18)) transposes_S1x256_S256x1_1_0) bitsLt_bf16_f32 := by
    host_lines main_v19
  rw [e]
  exact transpose_at _ _ k j

theorem v21_at (c : Dev nD) (k : Fin 256) (j : Fin 256) :
    V m c main_v21 (ix2 k j) = m ((c : Thread nD τ).loc main_arg20) (ix2 j k) := by
  have e : V m c main_v21 = truncf (F := Ideal) .bf16 (transpose S256x256 [1, 0] (m ((c : Thread nD τ).loc main_arg20)) transposes_S256x256_S256x256_1_0) bitsLt_bf16_f32 := by
    host_lines main_v21
  rw [e]
  exact transpose_at _ _ k j

theorem v24_at (c : Dev nD) (k : Fin 256) (j : Fin 128) :
    V m c main_v24 (ix2 k j) = m ((c : Thread nD τ).loc main_arg22) (ix2 j ⟨k.val, by have := k.isLt; omega⟩) := by
  have e : V m c main_v24 = truncf (F := Ideal) .bf16 (extractStridedSlice S256x128 ![0, 0] (transpose S283x128 [1, 0] (m ((c : Thread nD τ).loc main_arg22)) transposes_S128x283_S283x128_1_0) slices_S283x128_S256x128_0_0) bitsLt_bf16_f32 := by
    host_lines main_v24
  rw [e]
  refine (rows_of_transpose_at 0 (m ((c : Thread nD τ).loc main_arg22)) transposes_S128x283_S283x128_1_0 slices_S283x128_S256x128_0_0 k j
    (by have := k.isLt; omega)).trans ?_
  exact congrArg (fun q => m ((c : Thread nD τ).loc main_arg22) (ix2 j q)) (Fin.ext (Nat.zero_add k.val))

theorem v26_at (c : Dev nD) (k : Fin 27) (j : Fin 128) :
    V m c main_v26 (ix2 k j) = m ((c : Thread nD τ).loc main_arg22) (ix2 j ⟨256 + k.val, by have := k.isLt; omega⟩) := by
  have e : V m c main_v26 = truncf (F := Ideal) .bf16 (extractStridedSlice S27x128 ![256, 0] (transpose S283x128 [1, 0] (m ((c : Thread nD τ).loc main_arg22)) transposes_S128x283_S283x128_1_0) slices_S283x128_S27x128_256_0) bitsLt_bf16_f32 := by
    host_lines main_v26
  rw [e]
  exact rows_of_transpose_at 256 (m ((c : Thread nD τ).loc main_arg22)) transposes_S128x283_S283x128_1_0 slices_S283x128_S27x128_256_0 k j
    (by have := k.isLt; omega)

theorem v28_at (c : Dev nD) (k : Fin 128) (j : Fin 3) :
    V m c main_v28 (ix2 k j) = m ((c : Thread nD τ).loc main_arg24) (ix2 j k) := by
  have e : V m c main_v28 = truncf (F := Ideal) .bf16 (transpose S128x3 [1, 0] (m ((c : Thread nD τ).loc main_arg24)) transposes_S3x128_S128x3_1_0) bitsLt_bf16_f32 := by
    host_lines main_v28
  rw [e]
  exact transpose_at _ _ k j

end Cert.KHost

end
-- ==== Proof.KernelValue.lean ====
/-
  The kernel's run, read as a value.

  The call works through 32 grid points; point `t` is given rows `8192 t, …, 8192 t + 8191` of the position
  and direction arrays and the whole of every weight array, and writes back columns `8192 t, …` of a
  `[4, 262144]` array.  By `KRows.body_at`, what point `t` writes at `(c, r)` is output `c` of the network on
  sample `8192 t + r`, with the parameters the host lines before the call prepared (`KHost`): so every block is
  a block of ONE function `outT` of the argument arrays, the 32 blocks tile the array, and the array ends
  holding `outT`.  The host line after the call transposes it into the `[262144, 4]` result.
-/
import proofs.«105194_j54752243090148_2_alg».proof.Proof.KernelIdealFrameP
import proofs.«105194_j54752243090148_2_alg».proof.Proof.KernelRows
import proofs.«105194_j54752243090148_2_alg».proof.Proof.KernelHost
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.ShloMosaic.StableHlo
open Idealize.SL Idealize.SL.Sem
open Idealize.ShloMosaic.Pipeline (Dat Cfg Window)

namespace Cert.KValue

open Cert.KernelIdeal Cert.KernelIdeal.Gen

variable (m : (ℓ : Loc nD τ sig) → Buf (Elt Ideal) ℓ) (ρ : Dev nD → PrngReg)

/-! ## The function the output array ends holding -/

/-- The network's parameters, from the weight and bias arguments as launched. -/
def params (c : Dev nD) : Net.Params :=
  Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- Output `cc` of sample `nn`. -/
def outAt (c : Dev nD) (cc : Fin 4) (nn : Fin 262144) : EReal :=
  Net.out (params m c) (fun a => (m ((c : Thread nD τ).loc main_arg0)) (ix2 nn a)) (fun a => (m ((c : Thread nD τ).loc main_arg1)) (ix2 nn a)) cc

/-- The `[4, 262144]` array: outputs along the rows, samples along the columns. -/
def outT (c : Dev nD) : S4x262144.Idx → EReal := fun i => outAt m c ⟨(i 0).val, (i 0).isLt⟩ ⟨(i 1).val, (i 1).isLt⟩

theorem outT_at (c : Dev nD) (i : S4x262144.Idx) (cc : Fin 4) (nn : Fin 262144) (h0 : (i 0).val = cc.val) (h1 : (i 1).val = nn.val) :
    outT m c i = outAt m c cc nn := by
  unfold outT
  rw [show (⟨(i 0).val, (i 0).isLt⟩ : Fin 4) = cc from Fin.ext h0, show (⟨(i 1).val, (i 1).isLt⟩ : Fin 262144) = nn from Fin.ext h1]

/-! ## The block index maps, decided over the 32 grid points -/

theorem hz : (![0, 0] : Fin 2 → Nat) = fun _ => 0 := funext fun a => by fin_cases a <;> rfl
theorem hz1 : (![0] : Fin 1 → Nat) = fun _ => 0 := funext fun a => by fin_cases a <;> rfl

/-- The sample blocks move down the rows with the point, the output block along the columns. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_28.index t (0 : Fin 2) = 0 ∧ win0_28.index t (1 : Fin 2) = t.val :=
  (by decide +kernel : ∀ t : Fin grid0.N, _)

theorem t_lt (t : Fin cfg0.N) : t.val < 32 := Nat.lt_of_lt_of_eq t.isLt N_0

/-! ## Each window's block, read where the output block says -/

/-- An index with the coordinates of `(k, j)` is `(k, j)`. -/
theorem ix2_of_vals {n0 n1 : Nat} (f : (⟨2, ![n0, n1]⟩ : Shape).Idx) (k : Fin n0) (j : Fin n1)
    (h0 : (f 0).val = k.val) (h1 : (f 1).val = j.val) : f = ix2 k j :=
  funext fun a => Fin.ext (by
    match a with
    | ⟨0, _⟩ => exact h0
    | ⟨1, _⟩ => exact h1)

theorem ix1_of_val {n0 : Nat} (f : (⟨1, ![n0]⟩ : Shape).Idx) (j : Fin n0) (h0 : (f 0).val = j.val) : f = ix1 j :=
  funext fun a => Fin.ext (by
    match a with
    | ⟨0, _⟩ => exact h0)

/-- Row `r` of point `t`'s position block is row `8192 t + r` of the position array. -/
theorem blk0 (c : Dev nD) (t : Fin cfg0.N) (r : Fin 8192) (a : Fin 3) :
    iblk m c 0 t (ix2 r a) = m ((c : Thread nD τ).loc main_arg0) (ix2 ⟨t.val * 8192 + r.val, by have := t_lt t; omega⟩ a) := by
  refine Eq.trans ?_ (congrFun (V_main_arg0 m c) _)
  show V m c main_arg0 (((cfg0.win 0).blk t).view.emb (ix2 r a)) = _
  obtain ⟨e0, e1, -⟩ := idx_moving t
  refine congrArg (V m c main_arg0) (ix2_of_vals _ _ _ ?_ ?_)
  · show win0_0.index t (0 : Fin 2) * 8192 + 1 * r.val = t.val * 8192 + r.val
    rw [e0]; omega
  · show win0_0.index t (1 : Fin 2) * 3 + 1 * a.val = a.val
    rw [e1]; omega

/-- The same for the direction block. -/
theorem blk1 (c : Dev nD) (t : Fin cfg0.N) (r : Fin 8192) (a : Fin 3) :
    iblk m c 1 t (ix2 r a) = m ((c : Thread nD τ).loc main_arg1) (ix2 ⟨t.val * 8192 + r.val, by have := t_lt t; omega⟩ a) := by
  refine Eq.trans ?_ (congrFun (V_main_arg1 m c) _)
  show V m c main_arg1 (((cfg0.win 1).blk t).view.emb (ix2 r a)) = _
  obtain ⟨-, -, e0, e1, -⟩ := idx_moving t
  refine congrArg (V m c main_arg1) (ix2_of_vals _ _ _ ?_ ?_)
  · show win0_1.index t (0 : Fin 2) * 8192 + 1 * r.val = t.val * 8192 + r.val
    rw [e0]; omega
  · show win0_1.index t (1 : Fin 2) * 3 + 1 * a.val = a.val
    rw [e1]; omega

/-! ### The weight and bias windows: each is its whole array at every point

  A weight window's entry `(k, j)` is the host-prepared array's, hence (`KHost`) the argument's entry `(j, k)`
  (shifted for the two split matrices); a bias window's entry `j` is the argument's. -/

theorem blk2 (c : Dev nD) (t : Fin cfg0.N) (k : Fin 63) (j : Fin 256) :
    iblk m c 2 t (ix2 k j) = m ((c : Thread nD τ).loc main_arg2) (ix2 j k) := by
  refine Eq.trans ?_ (KHost.v0_at m c k j)
  show V m c main_v0 (((cfg0.win 2).blk t).view.emb (ix2 k j)) = _
  have e := (by decide +kernel : ∀ t : Fin grid0.N, win0_2.index t (0 : Fin 2) = 0 ∧ win0_2.index t (1 : Fin 2) = 0) t
  refine congrArg (V m c main_v0) (ix2_of_vals _ _ _ ?_ ?_)
  · show win0_2.index t (0 : Fin 2) * 63 + 1 * k.val = k.val
    rw [e.1]; omega
  · show win0_2.index t (1 : Fin 2) * 256 + 1 * j.val = j.val
    rw [e.2]; omega

theorem blk3 (c : Dev nD) (t : Fin cfg0.N) (j : Fin 256) :
    iblk m c 3 t (ix1 j) = m ((c : Thread nD τ).loc main_arg3) (ix1 j) := by
  refine Eq.trans ?_ (congrFun (V_main_arg3 m c) _)
  show V m c main_arg3 (((cfg0.win 3).blk t).view.emb (ix1 j)) = _
  have e := (by decide +kernel : ∀ t : Fin grid0.N, win0_3.index t (0 : Fin 1) = 0) t
  refine congrArg (V m c main_arg3) (ix1_of_val _ _ ?_)
  show win0_3.index t (0 : Fin 1) * 256 + 1 * j.val = j.val
  rw [e]; omega

theorem blk4 (c : Dev nD) (t : Fin cfg0.N) (k : Fin 256) (j : Fin 256) :
    iblk m c 4 t (ix2 k j) = m ((c : Thread nD τ).loc main_arg4) (ix2 j k) := by
  refine Eq.trans ?_ (KHost.v2_at m c k j)
  show V m c main_v2 (((cfg0.win 4).blk t).view.emb (ix2 k j)) = _
  have e := (by decide +kernel : ∀ t : Fin grid0.N, win0_4.index t (0 : Fin 2) = 0 ∧ win0_4.index t (1 : Fin 2) = 0) t
  refine congrArg (V m c main_v2) (ix2_of_vals _ _ _ ?_ ?_)
  · show win0_4.index t (0 : Fin 2) * 256 + 1 * k.val = k.val
    rw [e.1]; omega
  · show win0_4.index t (1 : Fin 2) * 256 + 1 * j.val = j.val
    rw [e.2]; omega

theorem blk5 (c : Dev nD) (t : Fin cfg0.N) (j : Fin 256) :
    iblk m c 5 t (ix1 j) = m ((c : Thread nD τ).loc main_arg5) (ix1 j) := by
  refine Eq.trans ?_ (congrFun (V_main_arg5 m c) _)
  show V m c main_arg5 (((cfg0.win 5).blk t).view.emb (ix1 j)) = _
  have e := (by decide +kernel : ∀ t : Fin grid0.N, win0_5.index t (0 : Fin 1) = 0) t
  refine congrArg (V m c main_arg5) (ix1_of_val _ _ ?_)
  show win0_5.index t (0 : Fin 1) * 256 + 1 * j.val = j.val
  rw [e]; omega

theorem blk6 (c : Dev nD) (t : Fin cfg0.N) (k : Fin 256) (j : Fin 256) :
    iblk m c 6 t (ix2 k j) = m ((c : Thread nD τ).loc main_arg6) (ix2 j k) := by
  refine Eq.trans ?_ (KHost.v4_at m c k j)
  show V m c main_v4 (((cfg0.win 6).blk t).view.emb (ix2 k j)) = _
  have e := (by decide +kernel : ∀ t : Fin grid0.N, win0_6.index t (0 : Fin 2) = 0 ∧ win0_6.index t (1 : Fin 2) = 0) t
  refine congrArg (V m c main_v4) (ix2_of_vals _ _ _ ?_ ?_)
  · show win0_6.index t (0 : Fin 2) * 256 + 1 * k.val = k.val
    rw [e.1]; omega
  · show win0_6.index t (1 : Fin 2) * 256 + 1 * j.val = j.val
    rw [e.2]; omega

theorem blk7 (c : Dev nD) (t : Fin cfg0.N) (j : Fin 256) :
    iblk m c 7 t (ix1 j) = m ((c : Thread nD τ).loc main_arg7) (ix1 j) := by
  refine Eq.trans ?_ (congrFun (V_main_arg7 m c) _)
  show V m c main_arg7 (((cfg0.win 7).blk t).view.emb (ix1 j)) = _
  have e := (by decide +kernel : ∀ t : Fin grid0.N, win0_7.index t (0 : Fin 1) = 0) t
  refine congrArg (V m c main_arg7) (ix1_of_val _ _ ?_)
  show win0_7.index t (0 : Fin 1) * 256 + 1 * j.val = j.val
  rw [e]; omega

theorem blk8 (c : Dev nD) (t : Fin cfg0.N) (k : Fin 256) (j : Fin 256) :
    iblk m c 8 t (ix2 k j) = m ((c : Thread nD τ).loc main_arg8) (ix2 j k) := by
  refine Eq.trans ?_ (KHost.v6_at m c k j)
  show V m c main_v6 (((cfg0.win 8).blk t).view.emb (ix2 k j)) = _
  have e := (by decide +kernel : ∀ t : Fin grid0.N, win0_8.index t (0 : Fin 2) = 0 ∧ win0_8.index t (1 : Fin 2) = 0) t
  refine congrArg (V m c main_v6) (ix2_of_vals _ _ _ ?_ ?_)
  · show win0_8.index t (0 : Fin 2) * 256 + 1 * k.val = k.val
    rw [e.1]; omega
  · show win0_8.index t (1 : Fin 2) * 256 + 1 * j.val = j.val
    rw [e.2]; omega

theorem blk9 (c : Dev nD) (t : Fin cfg0.N) (j : Fin 256) :
    iblk m c 9 t (ix1 j) = m ((c : Thread nD τ).loc main_arg9) (ix1 j) := by
  refine Eq.trans ?_ (congrFun (V_main_arg9 m c) _)
  show V m c main_arg9 (((cfg0.win 9).blk t).view.emb (ix1 j)) = _
  have e := (by decide +kernel : ∀ t : Fin grid0.N, win0_9.index t (0 : Fin 1) = 0) t
  refine congrArg (V m c main_arg9) (ix1_of_val _ _ ?_)
  show win0_9.index t (0 : Fin 1) * 256 + 1 * j.val = j.val
  rw [e]; omega

theorem blk10 (c : Dev nD) (t : Fin cfg0.N) (k : Fin 256) (j : Fin 256) :
    iblk m c 10 t (ix2 k j) = m ((c : Thread nD τ).loc main_arg10) (ix2 j k) := by
  refine Eq.trans ?_ (KHost.v8_at m c k j)
  show V m c main_v8 (((cfg0.win 10).blk t).view.emb (ix2 k j)) = _
  have e := (by decide +kernel : ∀ t : Fin grid0.N, win0_10.index t (0 : Fin 2) = 0 ∧ win0_10.index t (1 : Fin 2) = 0) t
  refine congrArg (V m c main_v8) (ix2_of_vals _ _ _ ?_ ?_)
  · show win0_10.index t (0 : Fin 2) * 256 + 1 * k.val = k.val
    rw [e.1]; omega
  · show win0_10.index t (1 : Fin 2) * 256 + 1 * j.val = j.val
    rw [e.2]; omega

theorem blk11 (c : Dev nD) (t : Fin cfg0.N) (j : Fin 256) :
    iblk m c 11 t (ix1 j) = m ((c : Thread nD τ).loc main_arg11) (ix1 j) := by
  refine Eq.trans ?_ (congrFun (V_main_arg11 m c) _)
  show V m c main_arg11 (((cfg0.win 11).blk t).view.emb (ix1 j)) = _
  have e := (by decide +kernel : ∀ t : Fin grid0.N, win0_11.index t (0 : Fin 1) = 0) t
  refine congrArg (V m c main_arg11) (ix1_of_val _ _ ?_)
  show win0_11.index t (0 : Fin 1) * 256 + 1 * j.val = j.val
  rw [e]; omega

theorem blk12 (c : Dev nD) (t : Fin cfg0.N) (k : Fin 63) (j : Fin 256) :
    iblk m c 12 t (ix2 k j) = m ((c : Thread nD τ).loc main_arg12) (ix2 j ⟨k.val, by have := k.isLt; omega⟩) := by
  refine Eq.trans ?_ (KHost.v11_at m c k j)
  show V m c main_v11 (((cfg0.win 12).blk t).view.emb (ix2 k j)) = _
  have e := (by decide +kernel : ∀ t : Fin grid0.N, win0_12.index t (0 : Fin 2) = 0 ∧ win0_12.index t (1 : Fin 2) = 0) t
  refine congrArg (V m c main_v11) (ix2_of_vals _ _ _ ?_ ?_)
  · show win0_12.index t (0 : Fin 2) * 63 + 1 * k.val = k.val
    rw [e.1]; omega
  · show win0_12.index t (1 : Fin 2) * 256 + 1 * j.val = j.val
    rw [e.2]; omega

theorem blk13 (c : Dev nD) (t : Fin cfg0.N) (k : Fin 256) (j : Fin 256) :
    iblk m c 13 t (ix2 k j) = m ((c : Thread nD τ).loc main_arg12) (ix2 j ⟨63 + k.val, by have := k.isLt; omega⟩) := by
  refine Eq.trans ?_ (KHost.v13_at m c k j)
  show V m c main_v13 (((cfg0.win 13).blk t).view.emb (ix2 k j)) = _
  have e := (by decide +kernel : ∀ t : Fin grid0.N, win0_13.index t (0 : Fin 2) = 0 ∧ win0_13.index t (1 : Fin 2) = 0) t
  refine congrArg (V m c main_v13) (ix2_of_vals _ _ _ ?_ ?_)
  · show win0_13.index t (0 : Fin 2) * 256 + 1 * k.val = k.val
    rw [e.1]; omega
  · show win0_13.index t (1 : Fin 2) * 256 + 1 * j.val = j.val
    rw [e.2]; omega

theorem blk14 (c : Dev nD) (t : Fin cfg0.N) (j : Fin 256) :
    iblk m c 14 t (ix1 j) = m ((c : Thread nD τ).loc main_arg13) (ix1 j) := by
  refine Eq.trans ?_ (congrFun (V_main_arg13 m c) _)
  show V m c main_arg13 (((cfg0.win 14).blk t).view.emb (ix1 j)) = _
  have e := (by decide +kernel : ∀ t : Fin grid0.N, win0_14.index t (0 : Fin 1) = 0) t
  refine congrArg (V m c main_arg13) (ix1_of_val _ _ ?_)
  show win0_14.index t (0 : Fin 1) * 256 + 1 * j.val = j.val
  rw [e]; omega

theorem blk15 (c : Dev nD) (t : Fin cfg0.N) (k : Fin 256) (j : Fin 256) :
    iblk m c 15 t (ix2 k j) = m ((c : Thread nD τ).loc main_arg14) (ix2 j k) := by
  refine Eq.trans ?_ (KHost.v15_at m c k j)
  show V m c main_v15 (((cfg0.win 15).blk t).view.emb (ix2 k j)) = _
  have e := (by decide +kernel : ∀ t : Fin grid0.N, win0_15.index t (0 : Fin 2) = 0 ∧ win0_15.index t (1 : Fin 2) = 0) t
  refine congrArg (V m c main_v15) (ix2_of_vals _ _ _ ?_ ?_)
  · show win0_15.index t (0 : Fin 2) * 256 + 1 * k.val = k.val
    rw [e.1]; omega
  · show win0_15.index t (1 : Fin 2) * 256 + 1 * j.val = j.val
    rw [e.2]; omega

theorem blk16 (c : Dev nD) (t : Fin cfg0.N) (j : Fin 256) :
    iblk m c 16 t (ix1 j) = m ((c : Thread nD τ).loc main_arg15) (ix1 j) := by
  refine Eq.trans ?_ (congrFun (V_main_arg15 m c) _)
  show V m c main_arg15 (((cfg0.win 16).blk t).view.emb (ix1 j)) = _
  have e := (by decide +kernel : ∀ t : Fin grid0.N, win0_16.index t (0 : Fin 1) = 0) t
  refine congrArg (V m c main_arg15) (ix1_of_val _ _ ?_)
  show win0_16.index t (0 : Fin 1) * 256 + 1 * j.val = j.val
  rw [e]; omega

theorem blk17 (c : Dev nD) (t : Fin cfg0.N) (k : Fin 256) (j : Fin 256) :
    iblk m c 17 t (ix2 k j) = m ((c : Thread nD τ).loc main_arg16) (ix2 j k) := by
  refine Eq.trans ?_ (KHost.v17_at m c k j)
  show V m c main_v17 (((cfg0.win 17).blk t).view.emb (ix2 k j)) = _
  have e := (by decide +kernel : ∀ t : Fin grid0.N, win0_17.index t (0 : Fin 2) = 0 ∧ win0_17.index t (1 : Fin 2) = 0) t
  refine congrArg (V m c main_v17) (ix2_of_vals _ _ _ ?_ ?_)
  · show win0_17.index t (0 : Fin 2) * 256 + 1 * k.val = k.val
    rw [e.1]; omega
  · show win0_17.index t (1 : Fin 2) * 256 + 1 * j.val = j.val
    rw [e.2]; omega

theorem blk18 (c : Dev nD) (t : Fin cfg0.N) (j : Fin 256) :
    iblk m c 18 t (ix1 j) = m ((c : Thread nD τ).loc main_arg17) (ix1 j) := by
  refine Eq.trans ?_ (congrFun (V_main_arg17 m c) _)
  show V m c main_arg17 (((cfg0.win 18).blk t).view.emb (ix1 j)) = _
  have e := (by decide +kernel : ∀ t : Fin grid0.N, win0_18.index t (0 : Fin 1) = 0) t
  refine congrArg (V m c main_arg17) (ix1_of_val _ _ ?_)
  show win0_18.index t (0 : Fin 1) * 256 + 1 * j.val = j.val
  rw [e]; omega

theorem blk19 (c : Dev nD) (t : Fin cfg0.N) (k : Fin 256) (j : Fin 1) :
    iblk m c 19 t (ix2 k j) = m ((c : Thread nD τ).loc main_arg18) (ix2 j k) := by
  refine Eq.trans ?_ (KHost.v19_at m c k j)
  show V m c main_v19 (((cfg0.win 19).blk t).view.emb (ix2 k j)) = _
  have e := (by decide +kernel : ∀ t : Fin grid0.N, win0_19.index t (0 : Fin 2) = 0 ∧ win0_19.index t (1 : Fin 2) = 0) t
  refine congrArg (V m c main_v19) (ix2_of_vals _ _ _ ?_ ?_)
  · show win0_19.index t (0 : Fin 2) * 256 + 1 * k.val = k.val
    rw [e.1]; omega
  · show win0_19.index t (1 : Fin 2) * 1 + 1 * j.val = j.val
    rw [e.2]; omega

theorem blk20 (c : Dev nD) (t : Fin cfg0.N) (j : Fin 1) :
    iblk m c 20 t (ix1 j) = m ((c : Thread nD τ).loc main_arg19) (ix1 j) := by
  refine Eq.trans ?_ (congrFun (V_main_arg19 m c) _)
  show V m c main_arg19 (((cfg0.win 20).blk t).view.emb (ix1 j)) = _
  have e := (by decide +kernel : ∀ t : Fin grid0.N, win0_20.index t (0 : Fin 1) = 0) t
  refine congrArg (V m c main_arg19) (ix1_of_val _ _ ?_)
  show win0_20.index t (0 : Fin 1) * 1 + 1 * j.val = j.val
  rw [e]; omega

theorem blk21 (c : Dev nD) (t : Fin cfg0.N) (k : Fin 256) (j : Fin 256) :
    iblk m c 21 t (ix2 k j) = m ((c : Thread nD τ).loc main_arg20) (ix2 j k) := by
  refine Eq.trans ?_ (KHost.v21_at m c k j)
  show V m c main_v21 (((cfg0.win 21).blk t).view.emb (ix2 k j)) = _
  have e := (by decide +kernel : ∀ t : Fin grid0.N, win0_21.index t (0 : Fin 2) = 0 ∧ win0_21.index t (1 : Fin 2) = 0) t
  refine congrArg (V m c main_v21) (ix2_of_vals _ _ _ ?_ ?_)
  · show win0_21.index t (0 : Fin 2) * 256 + 1 * k.val = k.val
    rw [e.1]; omega
  · show win0_21.index t (1 : Fin 2) * 256 + 1 * j.val = j.val
    rw [e.2]; omega

theorem blk22 (c : Dev nD) (t : Fin cfg0.N) (j : Fin 256) :
    iblk m c 22 t (ix1 j) = m ((c : Thread nD τ).loc main_arg21) (ix1 j) := by
  refine Eq.trans ?_ (congrFun (V_main_arg21 m c) _)
  show V m c main_arg21 (((cfg0.win 22).blk t).view.emb (ix1 j)) = _
  have e := (by decide +kernel : ∀ t : Fin grid0.N, win0_22.index t (0 : Fin 1) = 0) t
  refine congrArg (V m c main_arg21) (ix1_of_val _ _ ?_)
  show win0_22.index t (0 : Fin 1) * 256 + 1 * j.val = j.val
  rw [e]; omega

theorem blk23 (c : Dev nD) (t : Fin cfg0.N) (k : Fin 256) (j : Fin 128) :
    iblk m c 23 t (ix2 k j) = m ((c : Thread nD τ).loc main_arg22) (ix2 j ⟨k.val, by have := k.isLt; omega⟩) := by
  refine Eq.trans ?_ (KHost.v24_at m c k j)
  show V m c main_v24 (((cfg0.win 23).blk t).view.emb (ix2 k j)) = _
  have e := (by decide +kernel : ∀ t : Fin grid0.N, win0_23.index t (0 : Fin 2) = 0 ∧ win0_23.index t (1 : Fin 2) = 0) t
  refine congrArg (V m c main_v24) (ix2_of_vals _ _ _ ?_ ?_)
  · show win0_23.index t (0 : Fin 2) * 256 + 1 * k.val = k.val
    rw [e.1]; omega
  · show win0_23.index t (1 : Fin 2) * 128 + 1 * j.val = j.val
    rw [e.2]; omega

theorem blk24 (c : Dev nD) (t : Fin cfg0.N) (k : Fin 27) (j : Fin 128) :
    iblk m c 24 t (ix2 k j) = m ((c : Thread nD τ).loc main_arg22) (ix2 j ⟨256 + k.val, by have := k.isLt; omega⟩) := by
  refine Eq.trans ?_ (KHost.v26_at m c k j)
  show V m c main_v26 (((cfg0.win 24).blk t).view.emb (ix2 k j)) = _
  have e := (by decide +kernel : ∀ t : Fin grid0.N, win0_24.index t (0 : Fin 2) = 0 ∧ win0_24.index t (1 : Fin 2) = 0) t
  refine congrArg (V m c main_v26) (ix2_of_vals _ _ _ ?_ ?_)
  · show win0_24.index t (0 : Fin 2) * 27 + 1 * k.val = k.val
    rw [e.1]; omega
  · show win0_24.index t (1 : Fin 2) * 128 + 1 * j.val = j.val
    rw [e.2]; omega

theorem blk25 (c : Dev nD) (t : Fin cfg0.N) (j : Fin 128) :
    iblk m c 25 t (ix1 j) = m ((c : Thread nD τ).loc main_arg23) (ix1 j) := by
  refine Eq.trans ?_ (congrFun (V_main_arg23 m c) _)
  show V m c main_arg23 (((cfg0.win 25).blk t).view.emb (ix1 j)) = _
  have e := (by decide +kernel : ∀ t : Fin grid0.N, win0_25.index t (0 : Fin 1) = 0) t
  refine congrArg (V m c main_arg23) (ix1_of_val _ _ ?_)
  show win0_25.index t (0 : Fin 1) * 128 + 1 * j.val = j.val
  rw [e]; omega

theorem blk26 (c : Dev nD) (t : Fin cfg0.N) (k : Fin 128) (j : Fin 3) :
    iblk m c 26 t (ix2 k j) = m ((c : Thread nD τ).loc main_arg24) (ix2 j k) := by
  refine Eq.trans ?_ (KHost.v28_at m c k j)
  show V m c main_v28 (((cfg0.win 26).blk t).view.emb (ix2 k j)) = _
  have e := (by decide +kernel : ∀ t : Fin grid0.N, win0_26.index t (0 : Fin 2) = 0 ∧ win0_26.index t (1 : Fin 2) = 0) t
  refine congrArg (V m c main_v28) (ix2_of_vals _ _ _ ?_ ?_)
  · show win0_26.index t (0 : Fin 2) * 128 + 1 * k.val = k.val
    rw [e.1]; omega
  · show win0_26.index t (1 : Fin 2) * 3 + 1 * j.val = j.val
    rw [e.2]; omega

theorem blk27 (c : Dev nD) (t : Fin cfg0.N) (j : Fin 3) :
    iblk m c 27 t (ix1 j) = m ((c : Thread nD τ).loc main_arg25) (ix1 j) := by
  refine Eq.trans ?_ (congrFun (V_main_arg25 m c) _)
  show V m c main_arg25 (((cfg0.win 27).blk t).view.emb (ix1 j)) = _
  have e := (by decide +kernel : ∀ t : Fin grid0.N, win0_27.index t (0 : Fin 1) = 0) t
  refine congrArg (V m c main_arg25) (ix1_of_val _ _ ?_)
  show win0_27.index t (0 : Fin 1) * 3 + 1 * j.val = j.val
  rw [e]; omega

/-! ## What a point writes back, the cover, the array after the call -/

/-- WHAT POINT `t` WRITES BACK is block `t` of `outT`. -/
theorem flushed_eq (c : Dev nD) (t : Fin cfg0.N) :
    (dats m 0 c).flushed 28 t = ((cfg0.win 28).blk t).view.read (Elt Ideal) (outT m c) := by
  show (cfg0.win 28).cut (grid0.coords t) ((dats m 0 c).after 28 t) = _
  rw [after0_28]
  unfold out0_28
  rw [View.canon_unit_zero hz]
  simp only [View.ld_unit_zero (S := S8192x3) hz, View.ld_unit_zero (S := S63x256) hz, View.ld_unit_zero (S := S256) hz1,
    View.ld_unit_zero (S := S256x256) hz, View.ld_unit_zero (S := S256x1) hz, View.ld_unit_zero (S := S1) hz1,
    View.ld_unit_zero (S := S256x128) hz, View.ld_unit_zero (S := S27x128) hz, View.ld_unit_zero (S := S128) hz1,
    View.ld_unit_zero (S := S128x3) hz, View.ld_unit_zero (S := S3) hz1]
  funext y
  have ht := t_lt t
  obtain ⟨-, -, -, -, e4, e5⟩ := idx_moving t
  have hy0 : (y 0).val < 4 := (y 0).isLt
  have hy1 : (y 1).val < 8192 := (y 1).isLt
  show KRows.bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) y
      = outT m c (((cfg0.win 28).blk t).view.emb y)
  have hE0 : ((((cfg0.win 28).blk t).view.emb y) 0).val = (y 0).val := by
    show win0_28.index t (0 : Fin 2) * 4 + 1 * (y 0).val = (y 0).val
    rw [e4]; omega
  have hE1 : ((((cfg0.win 28).blk t).view.emb y) 1).val = t.val * 8192 + (y 1).val := by
    show win0_28.index t (1 : Fin 2) * 8192 + 1 * (y 1).val = t.val * 8192 + (y 1).val
    rw [e5]; omega
  rw [outT_at m c _ ⟨(y 0).val, hy0⟩ ⟨t.val * 8192 + (y 1).val, by omega⟩ hE0 hE1]
  exact KRows.body_at_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) y (params m c) _ _
    (fun a => blk0 m c t ⟨(y 1).val, hy1⟩ a) (fun a => blk1 m c t ⟨(y 1).val, hy1⟩ a)
    (fun k j => blk2 m c t k j) (fun j => blk3 m c t j)
    (fun k j => blk4 m c t k j) (fun j => blk5 m c t j)
    (fun k j => blk6 m c t k j) (fun j => blk7 m c t j)
    (fun k j => blk8 m c t k j) (fun j => blk9 m c t j)
    (fun k j => blk10 m c t k j) (fun j => blk11 m c t j)
    (fun k j => blk12 m c t k j) (fun k j => blk13 m c t k j) (fun j => blk14 m c t j)
    (fun k j => blk15 m c t k j) (fun j => blk16 m c t j)
    (fun k j => blk17 m c t k j) (fun j => blk18 m c t j)
    (fun k j => blk19 m c t k j) (fun j => blk20 m c t j)
    (fun k j => blk21 m c t k j) (fun j => blk22 m c t j)
    (fun k j => blk23 m c t k j) (fun k j => blk24 m c t k j) (fun j => blk25 m c t j)
    (fun k j => blk26 m c t k j) (fun j => blk27 m c t j)

/-- An index of the array is in point `t`'s block iff each coordinate is in the block's range on its axis. -/
theorem mem_blk (t : Fin cfg0.N) (i : S4x262144.Idx) :
    i ∈ ((cfg0.win 28).blk t).view.set ↔ ∀ a : Fin 2, win0_28.index t a * S4x8192.size a ≤ (i a).val ∧ (i a).val < win0_28.index t a * S4x8192.size a + S4x8192.size a := by
  show i ∈ ((View.whole main_v29).slice (win0_28.rect t)).set ↔ _
  rw [View.set_slice_whole, Rect.mem_set_unit]
  exact Iff.rfl

/-- Column `n` lies in the block of point `n / 8192`: the 32 blocks tile the array. -/
theorem cover (i : S4x262144.Idx) :
    ∃ t : Fin cfg0.N, (cfg0.win 28).flush t = true ∧ i ∈ ((cfg0.win 28).blk t).view.set := by
  have hi0 : (i 0).val < 4 := (i 0).isLt
  have hi1 : (i 1).val < 262144 := (i 1).isLt
  have hN : cfg0.N = 32 := N_0
  refine ⟨⟨(i 1).val / 8192, by rw [hN]; omega⟩, flush0_28 _, ?_⟩
  rw [mem_blk]
  obtain ⟨-, -, -, -, e4, e5⟩ := idx_moving ⟨(i 1).val / 8192, by rw [hN]; omega⟩
  intro a
  match a with
  | ⟨0, _⟩ =>
    show win0_28.index _ (0 : Fin 2) * 4 ≤ (i 0).val ∧ (i 0).val < win0_28.index _ (0 : Fin 2) * 4 + 4
    rw [e4]; omega
  | ⟨1, _⟩ =>
    show win0_28.index _ (1 : Fin 2) * 8192 ≤ (i 1).val ∧ (i 1).val < win0_28.index _ (1 : Fin 2) * 8192 + 8192
    rw [e5]
    show (i 1).val / 8192 * 8192 ≤ (i 1).val ∧ (i 1).val < (i 1).val / 8192 * 8192 + 8192
    omega

/-- THE ARRAY after the call is `outT`. -/
theorem final (c : Dev nD) : (dats m 0 c).arrAt 28 cfg0.N = outT m c :=
  (dats m 0 c).arrAt_eq_of_cover 28 (outT m c) (fun t _ => flushed_eq m c t) cover

/-! ## The host line after the call, and the run -/

/-- The result array: the transposed `outT`. -/
def result (c : Dev nD) : S262144x4.Idx → EReal :=
  transpose S262144x4 [1, 0] (outT m c) transposes_S4x262144_S262144x4_1_0

/-- What the host line after the call leaves in the result buffer. -/
theorem tail_eq (c : Dev nD) :
    Pipeline.afterTail₀ cfgs (dats m) 0 (V0 m) [hostOps1] c main_v30 = result m c := by
  unfold Pipeline.afterTail₀
  show StableHlo.after hostOps1 _ (Proc.devRef .tc main_v30) = _
  after_results
  exact congrArg (fun X => transpose S262144x4 [1, 0] X transposes_S4x262144_S262144x4_1_0)
    ((Pipeline.withArrays_arr spec0 launch0.win.arr_inj c _ _ 28).trans (final m c))

/-- Entry `(n, cc)` of the result is output `cc` of sample `n`. -/
theorem result_at (c : Dev nD) (n : Fin 262144) (cc : Fin 4) : result m c (ix2 n cc) = outAt m c cc n := by
  unfold result
  refine (Rows.transpose_at _ _ n cc).trans ?_
  exact outT_at m c _ cc n rfl rfl

set_option maxHeartbeats 4000000 in
set_option backward.isDefEq.respectTransparency.types false in
/-- The frame run re-posted: the result buffer at `result`, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c =>
    ⟨((h c).2 main_v30 (Pipeline.mem_restRefs_of main_v30 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 14).trans (((dats m 0 c).arrAt_in 14 rfl _).trans ((A_eq m c 14).trans (V_main_arg13 m c))),
      (((h c).2 main_arg14 (Pipeline.mem_restRefs_of main_arg14 (by decide) (by decide))).trans (W_main_arg14 m (dats m) c)),
      ((h c).1 16).trans (((dats m 0 c).arrAt_in 16 rfl _).trans ((A_eq m c 16).trans (V_main_arg15 m c))),
      (((h c).2 main_arg16 (Pipeline.mem_restRefs_of main_arg16 (by decide) (by decide))).trans (W_main_arg16 m (dats m) c)),
      ((h c).1 18).trans (((dats m 0 c).arrAt_in 18 rfl _).trans ((A_eq m c 18).trans (V_main_arg17 m c))),
      (((h c).2 main_arg18 (Pipeline.mem_restRefs_of main_arg18 (by decide) (by decide))).trans (W_main_arg18 m (dats m) c)),
      ((h c).1 20).trans (((dats m 0 c).arrAt_in 20 rfl _).trans ((A_eq m c 20).trans (V_main_arg19 m c))),
      (((h c).2 main_arg20 (Pipeline.mem_restRefs_of main_arg20 (by decide) (by decide))).trans (W_main_arg20 m (dats m) c)),
      ((h c).1 22).trans (((dats m 0 c).arrAt_in 22 rfl _).trans ((A_eq m c 22).trans (V_main_arg21 m c))),
      (((h c).2 main_arg22 (Pipeline.mem_restRefs_of main_arg22 (by decide) (by decide))).trans (W_main_arg22 m (dats m) c)),
      ((h c).1 25).trans (((dats m 0 c).arrAt_in 25 rfl _).trans ((A_eq m c 25).trans (V_main_arg23 m c))),
      (((h c).2 main_arg24 (Pipeline.mem_restRefs_of main_arg24 (by decide) (by decide))).trans (W_main_arg24 m (dats m) c)),
      ((h c).1 27).trans (((dats m 0 c).arrAt_in 27 rfl _).trans ((A_eq m c 27).trans (V_main_arg25 m c)))⟩)
    (run_main m ρ)

end Cert.KValue

end
-- ==== Proof.RefLayer.lean ====
/-
  A dense layer as the reference spells it on the host, read at one entry `(n, j)`: the product of the
  activations with the TRANSPOSED weight matrix (the argument is stored `[outputs, inputs]`), plus the bias
  vector broadcast first to one row and then down the rows, and for a hidden layer the maximum with a
  zero splat.  A layer over two inputs is spelt as ONE product with the two inputs laid side by side;
  its sum over the joined columns splits into the two partial sums (`Net.sum_cat`).
-/
import proofs.«105194_j54752243090148_2_alg».proof.Proof.Rows
import proofs.«105194_j54752243090148_2_alg».proof.Proof.Cat
import proofs.«105194_j54752243090148_2_alg».proof.Proof.Net

noncomputable section

open scoped BigOperators
open Idealize.ShloMosaic Idealize.ShloMosaic.ValueIdx

namespace Cert.RefLayer

open Cert.Rows

/-- The host's bias: a vector broadcast to a `[1,N]` row, then down `M` rows. -/
theorem bias_row {α : Type} {M N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (n : Fin M) (j : Fin N) :
    broadcastInDim ⟨2, ![M, N]⟩ ![0, 1] h2 (broadcastInDim ⟨2, ![1, N]⟩ ![1] h1 b) (ix2 n j) = b (ix1 j) := by
  refine (broadcastInDim_apply ![0, 1] h2 _ (ix2 n j) (ix2 ⟨0, Nat.one_pos⟩ j) (fun a => ?_)).trans ?_
  · match a with
    | ⟨0, _⟩ => show (0 : Nat) = if (1 : Nat) = 1 then 0 else n.val; rw [if_pos rfl]
    | ⟨1, _⟩ =>
      show j.val = if N = 1 then 0 else j.val
      split
      · have := j.isLt; omega
      · rfl
  · refine broadcastInDim_apply ![1] h1 b (ix2 ⟨0, Nat.one_pos⟩ j) (ix1 j) (fun a => ?_)
    match a with
    | ⟨0, _⟩ =>
      show j.val = if N = 1 then 0 else j.val
      split
      · have := j.isLt; omega
      · rfl

/-- A scalar splat reads the scalar. -/
theorem splat_at {α : Type} {M N : Nat} (z : (⟨0, ![]⟩ : Shape).Idx → α)
    (h : (⟨0, ![]⟩ : Shape).BroadcastsInDim ⟨2, ![M, N]⟩ ![]) (i : (⟨2, ![M, N]⟩ : Shape).Idx) :
    broadcastInDim ⟨2, ![M, N]⟩ ![] h z i = z ix0 :=
  broadcastInDim_apply ![] h z i ix0 (fun a => a.elim0)

/-- The product with the transposed weights, row `n` known. -/
theorem mm_row {M K N : Nat} (prec : Option ContractPrecision) (sched : HostSchedule)
    (y : FVec Ideal ⟨2, ![M, K]⟩ .f32) (W : FVec Ideal ⟨2, ![N, K]⟩ .f32)
    (ht : (⟨2, ![N, K]⟩ : Shape).Transposes [1, 0] ⟨2, ![K, N]⟩) (n : Fin M) (j : Fin N)
    (yr : Fin K → EReal) (hy : ∀ k, y (ix2 n k) = yr k) :
    FloatOps.dotGeneral (DotDims.plain M K N) prec sched y (transpose ⟨2, ![K, N]⟩ [1, 0] W ht) (ix2 n j)
      = ∑ k : Fin K, yr k * W (ix2 j k) := by
  rw [dotGeneral_plain_row]
  exact Finset.sum_congr rfl fun k _ => by rw [hy k, transpose_at]

/-- A layer without rectifier. -/
theorem dense_row {M K N : Nat} (y : FVec Ideal ⟨2, ![M, K]⟩ .f32) (W : FVec Ideal ⟨2, ![N, K]⟩ .f32)
    (ht : (⟨2, ![N, K]⟩ : Shape).Transposes [1, 0] ⟨2, ![K, N]⟩)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (n : Fin M) (j : Fin N)
    (yr : Fin K → EReal) (hy : ∀ k, y (ix2 n k) = yr k) :
    addf (Host.dotGeneral (DotDims.plain M K N) none y (transpose ⟨2, ![K, N]⟩ [1, 0] W ht))
      (broadcastInDim ⟨2, ![M, N]⟩ ![0, 1] h2 (broadcastInDim ⟨2, ![1, N]⟩ ![1] h1 b)) (ix2 n j)
      = Net.lin yr (fun k j => W (ix2 j k)) (fun j => b (ix1 j)) j := by
  show FloatOps.dotGeneral (DotDims.plain M K N) none _ y (transpose ⟨2, ![K, N]⟩ [1, 0] W ht) (ix2 n j)
      + broadcastInDim ⟨2, ![M, N]⟩ ![0, 1] h2 (broadcastInDim ⟨2, ![1, N]⟩ ![1] h1 b) (ix2 n j) = _
  rw [mm_row none _ y W ht n j yr hy, bias_row]
  rfl

/-- A hidden layer: the same, then the maximum with the zero splat. -/
theorem relu_dense_row {M K N : Nat} (y : FVec Ideal ⟨2, ![M, K]⟩ .f32) (W : FVec Ideal ⟨2, ![N, K]⟩ .f32)
    (ht : (⟨2, ![N, K]⟩ : Shape).Transposes [1, 0] ⟨2, ![K, N]⟩)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (n : Fin M) (j : Fin N)
    (yr : Fin K → EReal) (hy : ∀ k, y (ix2 n k) = yr k) :
    maximumf (addf (Host.dotGeneral (DotDims.plain M K N) none y (transpose ⟨2, ![K, N]⟩ [1, 0] W ht))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 n j)
      = Net.relu (Net.lin yr (fun k j => W (ix2 j k)) (fun j => b (ix1 j)) j) := by
  show max (addf (Host.dotGeneral (DotDims.plain M K N) none y (transpose ⟨2, ![K, N]⟩ [1, 0] W ht))
        (broadcastInDim ⟨2, ![M, N]⟩ ![0, 1] h2 (broadcastInDim ⟨2, ![1, N]⟩ ![1] h1 b)) (ix2 n j))
      (broadcastInDim ⟨2, ![M, N]⟩ ![] h0 (constant (F := Ideal) ⟨0, ![]⟩ .f32 0x00000000#32) (ix2 n j)) = _
  rw [dense_row y W ht b h1 h2 n j yr hy, splat_at]
  rfl

/-- A hidden layer over two inputs laid side by side: the one sum over the joined columns is the sum of the
    two partial sums, the second against the weight columns after the first input's. -/
theorem relu_dense2_row {M A B C N : Nat} (hC : C = A + B)
    (y₁ : FVec Ideal ⟨2, ![M, A]⟩ .f32) (y₂ : FVec Ideal ⟨2, ![M, B]⟩ .f32)
    (hc : Shape.Concatenates [(⟨2, ![M, A]⟩ : Shape), ⟨2, ![M, B]⟩] ⟨2, ![M, C]⟩ 1)
    (W : FVec Ideal ⟨2, ![N, C]⟩ .f32) (ht : (⟨2, ![N, C]⟩ : Shape).Transposes [1, 0] ⟨2, ![C, N]⟩)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (n : Fin M) (j : Fin N)
    (yr₁ : Fin A → EReal) (hy₁ : ∀ k, y₁ (ix2 n k) = yr₁ k)
    (yr₂ : Fin B → EReal) (hy₂ : ∀ k, y₂ (ix2 n k) = yr₂ k) :
    maximumf (addf (Host.dotGeneral (DotDims.plain M C N) none
          (concatenate ⟨2, ![M, C]⟩ 1 [⟨⟨2, ![M, A]⟩, y₁⟩, ⟨⟨2, ![M, B]⟩, y₂⟩] hc) (transpose ⟨2, ![C, N]⟩ [1, 0] W ht))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 n j)
      = Net.relu (Net.lin2 yr₁ (fun k j => W (ix2 j ⟨k.val, by have := k.isLt; omega⟩))
          yr₂ (fun k j => W (ix2 j ⟨A + k.val, by have := k.isLt; omega⟩)) (fun j => b (ix1 j)) j) := by
  show max (FloatOps.dotGeneral (DotDims.plain M C N) none _
          (concatenate ⟨2, ![M, C]⟩ 1 [⟨⟨2, ![M, A]⟩, y₁⟩, ⟨⟨2, ![M, B]⟩, y₂⟩] hc) (transpose ⟨2, ![C, N]⟩ [1, 0] W ht) (ix2 n j)
        + broadcastInDim ⟨2, ![M, N]⟩ ![0, 1] h2 (broadcastInDim ⟨2, ![1, N]⟩ ![1] h1 b) (ix2 n j))
      (broadcastInDim ⟨2, ![M, N]⟩ ![] h0 (constant (F := Ideal) ⟨0, ![]⟩ .f32 0x00000000#32) (ix2 n j)) = _
  rw [dotGeneral_plain_row, bias_row, splat_at, Net.sum_cat hC]
  have e₁ : ∀ k : Fin A, concatenate ⟨2, ![M, C]⟩ 1 [⟨⟨2, ![M, A]⟩, y₁⟩, ⟨⟨2, ![M, B]⟩, y₂⟩] hc
      (ix2 n ⟨k.val, by have := k.isLt; omega⟩) = yr₁ k := fun k =>
    (Cat.pair_left y₁ y₂ hc n ⟨k.val, by have := k.isLt; omega⟩ k.isLt).trans (hy₁ k)
  have e₂ : ∀ k : Fin B, concatenate ⟨2, ![M, C]⟩ 1 [⟨⟨2, ![M, A]⟩, y₁⟩, ⟨⟨2, ![M, B]⟩, y₂⟩] hc
      (ix2 n ⟨A + k.val, by have := k.isLt; omega⟩) = yr₂ k := fun k =>
    (Cat.pair_right y₁ y₂ hc n ⟨A + k.val, by have := k.isLt; omega⟩ (Nat.le_add_right A k.val)
        (by show A + k.val - A < B; have := k.isLt; omega)).trans
      ((congrArg (fun q => y₂ (ix2 n q)) (Fin.ext (by show A + k.val - A = k.val; omega))).trans (hy₂ k))
  unfold Net.relu Net.lin2
  refine congrArg₂ max (congrArg₂ (· + ·) (congrArg₂ (· + ·)
    (Finset.sum_congr rfl fun k _ => ?_) (Finset.sum_congr rfl fun k _ => ?_)) rfl) rfl
  · rw [e₁ k, transpose_at]
  · rw [e₂ k, transpose_at]

end Cert.RefLayer

end
-- ==== Proof.RefRows.lean ====
/-
  The reference program's stages, read one sample at a time: row `n` of each stage is the per-sample
  quantity of `Net` on row `n` of the position and direction arrays, with the parameters the 24 weight and
  bias arrays give (`Net.paramsOf`).

  The embedding is built from three concatenations (sixteen and five three-column waves, then the two
  joined); the hidden layers are products with transposed weights plus a broadcast bias, rectified; the
  fifth stem layer and the first colour layer take two inputs laid side by side; the result joins the
  three colour outputs and the density.
-/
import proofs.«105194_j54752243090148_2_alg».proof.Proof.RefReadP
import proofs.«105194_j54752243090148_2_alg».proof.Proof.RefLayer

noncomputable section

open scoped BigOperators
open Idealize.ShloMosaic Idealize.ShloMosaic.ValueIdx

namespace Cert.RRows

open Cert.ReferenceIdeal Cert.ReferenceIdeal.Gen Cert.ReferenceIdeal.Read

/-! ## The embeddings -/

/-- The first sixteen three-column pieces of the position's embedding. -/
def xfirst (x0 : (⟨S262144x3, .f32⟩ : BufTy).Contents (Elt Ideal)) (n : Fin 16) : S262144x3.Idx → EReal :=
  match n with
  | ⟨0, _⟩ => x0
  | ⟨1, _⟩ => val_main_v2 (F := Ideal) x0
  | ⟨2, _⟩ => val_main_v5 (F := Ideal) x0
  | ⟨3, _⟩ => val_main_v8 (F := Ideal) x0
  | ⟨4, _⟩ => val_main_v11 (F := Ideal) x0
  | ⟨5, _⟩ => val_main_v14 (F := Ideal) x0
  | ⟨6, _⟩ => val_main_v17 (F := Ideal) x0
  | ⟨7, _⟩ => val_main_v20 (F := Ideal) x0
  | ⟨8, _⟩ => val_main_v23 (F := Ideal) x0
  | ⟨9, _⟩ => val_main_v26 (F := Ideal) x0
  | ⟨10, _⟩ => val_main_v29 (F := Ideal) x0
  | ⟨11, _⟩ => val_main_v32 (F := Ideal) x0
  | ⟨12, _⟩ => val_main_v35 (F := Ideal) x0
  | ⟨13, _⟩ => val_main_v38 (F := Ideal) x0
  | ⟨14, _⟩ => val_main_v41 (F := Ideal) x0
  | ⟨15, _⟩ => val_main_v44 (F := Ideal) x0
  | ⟨n + 16, h⟩ => absurd h (by omega)

/-- The last five. -/
def xlast (x0 : (⟨S262144x3, .f32⟩ : BufTy).Contents (Elt Ideal)) (n : Fin 5) : S262144x3.Idx → EReal :=
  match n with
  | ⟨0, _⟩ => val_main_v47 (F := Ideal) x0
  | ⟨1, _⟩ => val_main_v50 (F := Ideal) x0
  | ⟨2, _⟩ => val_main_v53 (F := Ideal) x0
  | ⟨3, _⟩ => val_main_v56 (F := Ideal) x0
  | ⟨4, _⟩ => val_main_v59 (F := Ideal) x0
  | ⟨n + 5, h⟩ => absurd h (by omega)

/-- The nine pieces of the direction's embedding. -/
def dpieces (x1 : (⟨S262144x3, .f32⟩ : BufTy).Contents (Elt Ideal)) (n : Fin 9) : S262144x3.Idx → EReal :=
  match n with
  | ⟨0, _⟩ => x1
  | ⟨1, _⟩ => val_main_v65 (F := Ideal) x1
  | ⟨2, _⟩ => val_main_v68 (F := Ideal) x1
  | ⟨3, _⟩ => val_main_v71 (F := Ideal) x1
  | ⟨4, _⟩ => val_main_v74 (F := Ideal) x1
  | ⟨5, _⟩ => val_main_v77 (F := Ideal) x1
  | ⟨6, _⟩ => val_main_v80 (F := Ideal) x1
  | ⟨7, _⟩ => val_main_v83 (F := Ideal) x1
  | ⟨8, _⟩ => val_main_v86 (F := Ideal) x1
  | ⟨n + 9, h⟩ => absurd h (by omega)

/-- Piece `n` is wave `n`, entry by entry: a frequency splat times the array, under a sine or a cosine. -/
theorem xfirst_eq (x0 : (⟨S262144x3, .f32⟩ : BufTy).Contents (Elt Ideal)) (n : Fin 16) (i : S262144x3.Idx) : xfirst x0 n i = Net.wave n.val (x0 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

theorem xlast_eq (x0 : (⟨S262144x3, .f32⟩ : BufTy).Contents (Elt Ideal)) (n : Fin 5) (i : S262144x3.Idx) : xlast x0 n i = Net.wave (16 + n.val) (x0 i) := by
  match n with
  | ⟨0, _⟩ => rfl
  | ⟨1, _⟩ => rfl
  | ⟨2, _⟩ => rfl
  | ⟨3, _⟩ => rfl
  | ⟨4, _⟩ => rfl
  | ⟨n + 5, h⟩ => exact absurd h (by omega)

theorem dpieces_eq (x1 : (⟨S262144x3, .f32⟩ : BufTy).Contents (Elt Ideal)) (n : Fin 9) (i : S262144x3.Idx) : dpieces x1 n i = Net.wave n.val (x1 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, h⟩ => exact absurd h (by omega)

/-- Row `n` of the embedded positions is the embedding of row `n`: columns below 48 come from the first
    concatenation, the others from the second, whose piece `q` is wave `16 + q`. -/
theorem v62_row (x0 : (⟨S262144x3, .f32⟩ : BufTy).Contents (Elt Ideal)) (n : Fin 262144) (k : Fin 63) :
    val_main_v62 (F := Ideal) x0 (ix2 n k) = Net.xe (fun a => x0 (ix2 n a)) k := by
  unfold val_main_v62
  have hk63 : k.val < 63 := k.isLt
  by_cases hk : k.val < 48
  · refine (Cat.pair_left _ _ _ n k hk).trans ?_
    unfold val_main_v60
    refine (Cat.triples (xfirst x0) _ n ⟨k.val, hk⟩ (by show k.val / 3 < 16; omega)).trans ?_
    rw [xfirst_eq]
    rfl
  · refine (Cat.pair_right _ _ _ n k (by omega) (by omega)).trans ?_
    unfold val_main_v61
    refine (Cat.triples (xlast x0) _ n ⟨k.val - 48, by omega⟩ (by show (k.val - 48) / 3 < 5; omega)).trans ?_
    rw [xlast_eq]
    show Net.wave (16 + (k.val - 48) / 3) (x0 (ix2 n ⟨(k.val - 48) % 3, _⟩)) = Net.wave (k.val / 3) (x0 (ix2 n ⟨k.val % 3, _⟩))
    have h1 : 16 + (k.val - 48) / 3 = k.val / 3 := by omega
    have h2 : (k.val - 48) % 3 = k.val % 3 := by omega
    rw [h1]
    exact congrArg (fun q => Net.wave (k.val / 3) (x0 (ix2 n q))) (Fin.ext h2)

/-- Row `n` of the embedded directions. -/
theorem v87_row (x1 : (⟨S262144x3, .f32⟩ : BufTy).Contents (Elt Ideal)) (n : Fin 262144) (k : Fin 27) :
    val_main_v87 (F := Ideal) x1 (ix2 n k) = Net.de (fun a => x1 (ix2 n a)) k := by
  unfold val_main_v87
  refine (Cat.triples (dpieces x1) _ n k (by have := k.isLt; omega)).trans ?_
  rw [dpieces_eq]
  rfl

/-! ## The layers -/

section Layers

variable (x0 x1 : (⟨S262144x3, .f32⟩ : BufTy).Contents (Elt Ideal))
  (x2 : (⟨S256x63, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x319, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))
  (x18 : (⟨S1x256, .f32⟩ : BufTy).Contents (Elt Ideal)) (x19 : (⟨S1, .f32⟩ : BufTy).Contents (Elt Ideal))
  (x20 : (⟨S256x256, .f32⟩ : BufTy).Contents (Elt Ideal)) (x21 : (⟨S256, .f32⟩ : BufTy).Contents (Elt Ideal))
  (x22 : (⟨S128x283, .f32⟩ : BufTy).Contents (Elt Ideal)) (x23 : (⟨S128, .f32⟩ : BufTy).Contents (Elt Ideal))
  (x24 : (⟨S3x128, .f32⟩ : BufTy).Contents (Elt Ideal)) (x25 : (⟨S3, .f32⟩ : BufTy).Contents (Elt Ideal))
  (n : Fin 262144)

local notation "PP" => Net.paramsOf x2 x3 x4 x5 x6 x7 x8 x9 x10 x11 x12 x13 x14 x15 x16 x17 x18 x19 x20 x21 x22 x23 x24 x25
local notation "xr" => (fun a : Fin 3 => x0 (ix2 n a))
local notation "dr" => (fun a : Fin 3 => x1 (ix2 n a))

theorem v93_row (j : Fin 256) : val_main_v93 (F := Ideal) x0 x2 x3 (ix2 n j) = Net.h0 PP xr j := by
  unfold val_main_v93 val_main_v92 val_main_v89 val_main_v88 val_main_v91 val_main_v90 val_main_call0_v0 val_main_call0_cst
  exact RefLayer.relu_dense_row _ x2 _ x3 _ _ _ n j _ (fun k => v62_row x0 n k)

theorem v99_row (j : Fin 256) : val_main_v99 (F := Ideal) x0 x2 x3 x4 x5 (ix2 n j) = Net.h1 PP xr j := by
  unfold val_main_v99 val_main_v98 val_main_v95 val_main_v94 val_main_v97 val_main_v96 val_main_call1_v0 val_main_call1_cst
  exact RefLayer.relu_dense_row _ x4 _ x5 _ _ _ n j _
    (fun k => v93_row x0 x2 x3 x4 x5 x6 x7 x8 x9 x10 x11 x12 x13 x14 x15 x16 x17 x18 x19 x20 x21 x22 x23 x24 x25 n k)

theorem v105_row (j : Fin 256) : val_main_v105 (F := Ideal) x0 x2 x3 x4 x5 x6 x7 (ix2 n j) = Net.h2 PP xr j := by
  unfold val_main_v105 val_main_v104 val_main_v101 val_main_v100 val_main_v103 val_main_v102 val_main_call2_v0 val_main_call2_cst
  exact RefLayer.relu_dense_row _ x6 _ x7 _ _ _ n j _
    (fun k => v99_row x0 x2 x3 x4 x5 x6 x7 x8 x9 x10 x11 x12 x13 x14 x15 x16 x17 x18 x19 x20 x21 x22 x23 x24 x25 n k)

theorem v111_row (j : Fin 256) : val_main_v111 (F := Ideal) x0 x2 x3 x4 x5 x6 x7 x8 x9 (ix2 n j) = Net.h3 PP xr j := by
  unfold val_main_v111 val_main_v110 val_main_v107 val_main_v106 val_main_v109 val_main_v108 val_main_call3_v0 val_main_call3_cst
  exact RefLayer.relu_dense_row _ x8 _ x9 _ _ _ n j _
    (fun k => v105_row x0 x2 x3 x4 x5 x6 x7 x8 x9 x10 x11 x12 x13 x14 x15 x16 x17 x18 x19 x20 x21 x22 x23 x24 x25 n k)

theorem v117_row (j : Fin 256) : val_main_v117 (F := Ideal) x0 x2 x3 x4 x5 x6 x7 x8 x9 x10 x11 (ix2 n j) = Net.h4 PP xr j := by
  unfold val_main_v117 val_main_v116 val_main_v113 val_main_v112 val_main_v115 val_main_v114 val_main_call4_v0 val_main_call4_cst
  exact RefLayer.relu_dense_row _ x10 _ x11 _ _ _ n j _
    (fun k => v111_row x0 x2 x3 x4 x5 x6 x7 x8 x9 x10 x11 x12 x13 x14 x15 x16 x17 x18 x19 x20 x21 x22 x23 x24 x25 n k)

/-- The fifth stem layer: the embedded row beside the fourth layer's row. -/
theorem v124_row (j : Fin 256) :
    val_main_v124 (F := Ideal) x0 x2 x3 x4 x5 x6 x7 x8 x9 x10 x11 x12 x13 (ix2 n j) = Net.h5 PP xr j := by
  unfold val_main_v124 val_main_v123 val_main_v120 val_main_v119 val_main_v118 val_main_v122 val_main_v121 val_main_call5_v0 val_main_call5_cst
  exact RefLayer.relu_dense2_row (M := 262144) (A := 63) (B := 256) (C := 319) (N := 256) rfl _ _ _ x12 _ x13 _ _ _ n j _ (fun k => v62_row x0 n k) _
    (fun k => v117_row x0 x2 x3 x4 x5 x6 x7 x8 x9 x10 x11 x12 x13 x14 x15 x16 x17 x18 x19 x20 x21 x22 x23 x24 x25 n k)

theorem v130_row (j : Fin 256) :
    val_main_v130 (F := Ideal) x0 x2 x3 x4 x5 x6 x7 x8 x9 x10 x11 x12 x13 x14 x15 (ix2 n j) = Net.h6 PP xr j := by
  unfold val_main_v130 val_main_v129 val_main_v126 val_main_v125 val_main_v128 val_main_v127 val_main_call6_v0 val_main_call6_cst
  exact RefLayer.relu_dense_row _ x14 _ x15 _ _ _ n j _
    (fun k => v124_row x0 x2 x3 x4 x5 x6 x7 x8 x9 x10 x11 x12 x13 x14 x15 x16 x17 x18 x19 x20 x21 x22 x23 x24 x25 n k)

theorem v136_row (j : Fin 256) :
    val_main_v136 (F := Ideal) x0 x2 x3 x4 x5 x6 x7 x8 x9 x10 x11 x12 x13 x14 x15 x16 x17 (ix2 n j) = Net.h7 PP xr j := by
  unfold val_main_v136 val_main_v135 val_main_v132 val_main_v131 val_main_v134 val_main_v133 val_main_call7_v0 val_main_call7_cst
  exact RefLayer.relu_dense_row _ x16 _ x17 _ _ _ n j _
    (fun k => v130_row x0 x2 x3 x4 x5 x6 x7 x8 x9 x10 x11 x12 x13 x14 x15 x16 x17 x18 x19 x20 x21 x22 x23 x24 x25 n k)

/-- The density head. -/
theorem v141_row (j : Fin 1) :
    val_main_v141 (F := Ideal) x0 x2 x3 x4 x5 x6 x7 x8 x9 x10 x11 x12 x13 x14 x15 x16 x17 x18 x19 (ix2 n j) = Net.sigma PP xr j := by
  unfold val_main_v141 val_main_v138 val_main_v137 val_main_v140 val_main_v139
  exact RefLayer.dense_row _ x18 _ x19 _ _ n j _
    (fun k => v136_row x0 x2 x3 x4 x5 x6 x7 x8 x9 x10 x11 x12 x13 x14 x15 x16 x17 x18 x19 x20 x21 x22 x23 x24 x25 n k)

/-- The geometry features. -/
theorem v146_row (j : Fin 256) :
    val_main_v146 (F := Ideal) x0 x2 x3 x4 x5 x6 x7 x8 x9 x10 x11 x12 x13 x14 x15 x16 x17 x20 x21 (ix2 n j) = Net.geo PP xr j := by
  unfold val_main_v146 val_main_v143 val_main_v142 val_main_v145 val_main_v144
  exact RefLayer.dense_row _ x20 _ x21 _ _ n j _
    (fun k => v136_row x0 x2 x3 x4 x5 x6 x7 x8 x9 x10 x11 x12 x13 x14 x15 x16 x17 x18 x19 x20 x21 x22 x23 x24 x25 n k)

/-- The first colour layer: the geometry row beside the embedded direction row. -/
theorem v153_row (j : Fin 128) :
    val_main_v153 (F := Ideal) x0 x1 x2 x3 x4 x5 x6 x7 x8 x9 x10 x11 x12 x13 x14 x15 x16 x17 x20 x21 x22 x23 (ix2 n j)
      = Net.col0 PP xr dr j := by
  unfold val_main_v153 val_main_v152 val_main_v149 val_main_v148 val_main_v147 val_main_v151 val_main_v150 val_main_call8_v0 val_main_call8_cst
  exact RefLayer.relu_dense2_row (M := 262144) (A := 256) (B := 27) (C := 283) (N := 128) rfl _ _ _ x22 _ x23 _ _ _ n j _
    (fun k => v146_row x0 x2 x3 x4 x5 x6 x7 x8 x9 x10 x11 x12 x13 x14 x15 x16 x17 x18 x19 x20 x21 x22 x23 x24 x25 n k) _
    (fun k => v87_row x1 n k)

/-- The second colour layer. -/
theorem v158_row (j : Fin 3) :
    val_main_v158 (F := Ideal) x0 x1 x2 x3 x4 x5 x6 x7 x8 x9 x10 x11 x12 x13 x14 x15 x16 x17 x20 x21 x22 x23 x24 x25 (ix2 n j)
      = Net.col1 PP xr dr j := by
  unfold val_main_v158 val_main_v155 val_main_v154 val_main_v157 val_main_v156
  exact RefLayer.dense_row _ x24 _ x25 _ _ n j _
    (fun k => v153_row x0 x1 x2 x3 x4 x5 x6 x7 x8 x9 x10 x11 x12 x13 x14 x15 x16 x17 x18 x19 x20 x21 x22 x23 x24 x25 n k)

/-- The result: three colour columns, then the density column. -/
theorem v159_row (c : Fin 4) :
    val_main_v159 (F := Ideal) x0 x1 x2 x3 x4 x5 x6 x7 x8 x9 x10 x11 x12 x13 x14 x15 x16 x17 x18 x19 x20 x21 x22 x23 x24 x25 (ix2 n c)
      = Net.out PP xr dr c := by
  unfold val_main_v159 Net.out
  have hc : c.val < 4 := c.isLt
  split
  · rename_i h
    refine (Cat.pair_left _ _ _ n c h).trans ?_
    exact v158_row x0 x1 x2 x3 x4 x5 x6 x7 x8 x9 x10 x11 x12 x13 x14 x15 x16 x17 x18 x19 x20 x21 x22 x23 x24 x25 n ⟨c.val, h⟩
  · rename_i h
    refine (Cat.pair_right _ _ _ n c (by omega) (by omega)).trans ?_
    rw [show (⟨c.val - 3, by omega⟩ : Fin 1) = ⟨0, Nat.one_pos⟩ from Fin.ext (by show c.val - 3 = 0; omega)]
    exact v141_row x0 x2 x3 x4 x5 x6 x7 x8 x9 x10 x11 x12 x13 x14 x15 x16 x17 x18 x19 x20 x21 x22 x23 x24 x25 n ⟨0, Nat.one_pos⟩

end Layers

end Cert.RRows

end
-- ==== Proof.lean ====
/-
  The certificate's claims, assembled.

  The three frames: the two kernels' are the generated frame certificates; the reference has no kernel and
  its frame is its generated run with the result dropped.  The idealization rewrote nothing, so there is
  nothing to preserve.

  The algebraic claim: at the ideal values the kernel program ends with its result buffer holding, at
  `(n, c)`, output `c` of the network `Net` on sample `n` with the parameters the weight and bias arguments
  give (`KValue.run`, `KValue.result_at`: the row-blocked kernel call, the host transposes and slices before
  it and the transposition after it); the reference program ends with the same function of the same
  arguments (`RRows.v159_row` over its run, `RefEval`).  The two differ only in how sums are grouped —
  the reference multiplies a concatenation by one matrix where the kernel adds two partial products — which
  is associativity and commutativity of addition, valid on the extended reals without any finiteness.
-/
import proofs.«105194_j54752243090148_2_alg».proof.Defs
import proofs.«105194_j54752243090148_2_alg».proof.Proof.Gen.Kernel
import proofs.«105194_j54752243090148_2_alg».proof.Proof.Gen.Kernel.Skeleton
import proofs.«105194_j54752243090148_2_alg».proof.Proof.Gen.Kernel.Launch
import proofs.«105194_j54752243090148_2_alg».proof.Proof.Gen.Kernel.Points
import proofs.«105194_j54752243090148_2_alg».proof.Proof.KernelFrameP
import proofs.«105194_j54752243090148_2_alg».proof.Proof.Gen.KernelIdeal
import proofs.«105194_j54752243090148_2_alg».proof.Proof.Gen.KernelIdeal.Skeleton
import proofs.«105194_j54752243090148_2_alg».proof.Proof.Gen.KernelIdeal.Launch
import proofs.«105194_j54752243090148_2_alg».proof.Proof.Gen.KernelIdeal.Points
import proofs.«105194_j54752243090148_2_alg».proof.Proof.KernelIdealFrameP
import proofs.«105194_j54752243090148_2_alg».proof.Proof.Gen.ReferenceIdeal
import proofs.«105194_j54752243090148_2_alg».proof.Proof.RefEval
import proofs.«105194_j54752243090148_2_alg».proof.Proof.RefReadP
import proofs.«105194_j54752243090148_2_alg».proof.Proof.Gen.Pre_finite_inputs
import proofs.«105194_j54752243090148_2_alg».proof.Proof.KernelValue
import proofs.«105194_j54752243090148_2_alg».proof.Proof.RefRows
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's outputs, sample by sample, of arguments that agree. -/
theorem algebraic : Cert.algebraic_KernelIdeal_ReferenceIdeal := by
  intro m ρ m' ρ' _ hagree
  refine ⟨fun c => Cert.KValue.result m c, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v159_eq]
  obtain ⟨a0, a1, a2, a3, a4, a5, a6, a7, a8, a9, a10, a11, a12, a13, a14, a15, a16, a17, a18, a19, a20, a21, a22, a23, a24, a25⟩ := hagree c
  rw [a0, a1, a2, a3, a4, a5, a6, a7, a8, a9, a10, a11, a12, a13, a14, a15, a16, a17, a18, a19, a20, a21, a22, a23, a24, a25]
  funext i
  obtain ⟨n, cc, rfl⟩ : ∃ (n : Fin 262144) (cc : Fin 4), i = ix2 n cc := ⟨i 0, i 1, eq_ix2 i⟩
  exact (Cert.RRows.v159_row _ _ _ _ _ _ _ _ _ _ _ _ _ _ _ _ _ _ _ _ _ _ _ _ _ _ n cc).trans
    (Cert.KValue.result_at m c n cc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
